-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S40000 : Shape := ⟨1, ![40000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x2 .f32) (main_arg15 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x2 .f32 := Host.absf main_arg14
  let main_cst_22 : FVec F S_ .f32 := constant S_ .f32 0x7F800000#32
  let main_v60 : FVec F S32x2 .f32 := broadcastInDim S32x2 ![] bcast_S_S32x2 main_cst_22
  let main_v61 : IVec S32x2 1 := cmpf .olt main_v59 main_v60
  let main_c_23 : IVec S_ 1 := constantI S_ 1 1#1
  let main_v62 : IVec S_ 1 := (fun x v => Host.reduce IntOp.andi x v reducesTo_S32x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S128 .f32) (main_arg10 : FVec F S128x64 .f32) (main_arg11 : FVec F S64 .f32) (main_arg12 : FVec F S64x32 .f32) (main_arg13 : FVec F S32 .f32) (main_arg14 : FVec F S32x2 .f32) (main_arg15 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S64x32 .f32) (main_arg13 : FVec F S32 .f32) (main_arg14 : FVec F S32x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S40000x128 .f32) (main_arg1 : IVec S2x640000 32) (main_arg2 : FVec F S640000 .f32) (main_arg3 : IVec S40000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S64x32 .f32) (main_arg13 : FVec F S32 .f32) (main_arg14 : FVec F S32x2 .f32) (main_arg15 : FVec F S2 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S40000 : Shape := ⟨1, ![40000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x640000 : Shape := ⟨2, ![1, 640000]⟩
abbrev S680000 : Shape := ⟨1, ![680000]⟩
abbrev S_ : Shape := ⟨0, ![]⟩
abbrev S680000x1 : Shape := ⟨2, ![680000, 1]⟩
abbrev S8000x128 : Shape := ⟨2, ![8000, 128]⟩
abbrev S680000x128 : Shape := ⟨2, ![680000, 128]⟩
abbrev S1x128 : Shape := ⟨2, ![1, 128]⟩
abbrev S64x128 : Shape := ⟨2, ![64, 128]⟩
abbrev S40000x1 : Shape := ⟨2, ![40000, 1]⟩
abbrev S64x1 : Shape := ⟨2, ![64, 1]⟩
abbrev S1x64 : Shape := ⟨2, ![1, 64]⟩
abbrev S64x64 : Shape := ⟨2, ![64, 64]⟩
abbrev S1x32 : Shape := ⟨2, ![1, 32]⟩
abbrev S1x2 : Shape := ⟨2, ![1, 2]⟩
abbrev S64x2 : Shape := ⟨2, ![64, 2]⟩

abbrev nBuf : Space → Nat
  | .hbm => 135
  | .vmem => 42
  | .smem => 0
  | _ => 0

abbrev hbmTy0_0 (i : Nat) : BufTy := match i % 128 with
  | 0 => ⟨S40000x128, .f32⟩
  | 1 => ⟨S2x640000, .i32⟩
  | 2 => ⟨S640000, .f32⟩
  | 3 => ⟨S40000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S64x32, .f32⟩
  | 13 => ⟨S32, .f32⟩
  | 14 => ⟨S32x2, .f32⟩
  | 15 => ⟨S2, .f32⟩
  | 16 => ⟨S40000, .i32⟩
  | 17 => ⟨S1x640000, .i32⟩
  | 18 => ⟨S640000, .i32⟩
  | 19 => ⟨S680000, .i32⟩
  | 20 => ⟨S1x640000, .i32⟩
  | 21 => ⟨S640000, .i32⟩
  | 22 => ⟨S680000, .i32⟩
  | 23 => ⟨S_, .f32⟩
  | 24 => ⟨S40000, .f32⟩
  | 25 => ⟨S680000, .f32⟩
  | 26 => ⟨S_, .f32⟩
  | 27 => ⟨S40000, .f32⟩
  | 28 => ⟨S680000x1, .i32⟩
  | 29 => ⟨S40000, .f32⟩
  | 30 => ⟨S_, .f32⟩
  | 31 => ⟨S40000, .f32⟩
  | 32 => ⟨S40000, .i1⟩
  | 33 => ⟨S40000, .f32⟩
  | 34 => ⟨S_, .f32⟩
  | 35 => ⟨S_, .f32⟩
  | 36 => ⟨S40000, .f32⟩
  | 37 => ⟨S40000, .f32⟩
  | 38 => ⟨S_, .i32⟩
  | 39 => ⟨S680000, .i32⟩
  | 40 => ⟨S680000, .i1⟩
  | 41 => ⟨S_, .i32⟩
  | 42 => ⟨S680000, .i32⟩
  | 43 => ⟨S680000, .i32⟩
  | 44 => ⟨S680000, .i32⟩
  | 45 => ⟨S680000x1, .i32⟩
  | 46 => ⟨S680000, .f32⟩
  | 47 => ⟨S680000, .f32⟩
  | 48 => ⟨S_, .i32⟩
  | 49 => ⟨S680000, .i32⟩
  | 50 => ⟨S680000, .i1⟩
  | 51 => ⟨S_, .i32⟩
  | 52 => ⟨S680000, .i32⟩
  | 53 => ⟨S680000, .i32⟩
  | 54 => ⟨S680000, .i32⟩
  | 55 => ⟨S680000x1, .i32⟩
  | 56 => ⟨S680000, .f32⟩
  | 57 => ⟨S680000, .f32⟩
  | 58 => ⟨S680000x1, .f32⟩
  | 59 => ⟨S40000x128, .f32⟩
  | 60 => ⟨S_, .i32⟩
  | 61 => ⟨S680000, .i32⟩
  | 62 => ⟨S680000, .i1⟩
  | 63 => ⟨S_, .i32⟩
  | 64 => ⟨S680000, .i32⟩
  | 65 => ⟨S680000, .i32⟩
  | 66 => ⟨S680000, .i32⟩
  | 67 => ⟨S680000x1, .i32⟩
  | 68 => ⟨S680000x128, .f32⟩
  | 69 => ⟨S680000x128, .f32⟩
  | 70 => ⟨S680000x128, .f32⟩
  | 71 => ⟨S_, .f32⟩
  | 72 => ⟨S40000x128, .f32⟩
  | 73 => ⟨S680000x1, .i32⟩
  | 74 => ⟨S40000x128, .f32⟩
  | 75 => ⟨S1x128, .f32⟩
  | 76 => ⟨S40000x128, .f32⟩
  | 77 => ⟨S40000x128, .f32⟩
  | 78 => ⟨S_, .i32⟩
  | 79 => ⟨S680000, .i32⟩
  | 80 => ⟨S680000, .i1⟩
  | 81 => ⟨S_, .i32⟩
  | 82 => ⟨S680000, .i32⟩
  | 83 => ⟨S680000, .i32⟩
  | 84 => ⟨S680000, .i32⟩
  | 85 => ⟨S680000x1, .i32⟩
  | 86 => ⟨S680000x128, .f32⟩
  | 87 => ⟨S680000x128, .f32⟩
  | 88 => ⟨S680000x128, .f32⟩
  | 89 => ⟨S_, .f32⟩
  | 90 => ⟨S40000x128, .f32⟩
  | 91 => ⟨S680000x1, .i32⟩
  | 92 => ⟨S40000x128, .f32⟩
  | 93 => ⟨S1x128, .f32⟩
  | 94 => ⟨S40000x128, .f32⟩
  | 95 => ⟨S40000x128, .f32⟩
  | 96 => ⟨S_, .i32⟩
  | 97 => ⟨S680000, .i32⟩
  | 98 => ⟨S680000, .i1⟩
  | 99 => ⟨S_, .i32⟩
  | 100 => ⟨S680000, .i32⟩
  | 101 => ⟨S680000, .i32⟩
  | 102 => ⟨S680000, .i32⟩
  | 103 => ⟨S680000x1, .i32⟩
  | 104 => ⟨S680000x128, .f32⟩
  | 105 => ⟨S680000x128, .f32⟩
  | 106 => ⟨S680000x128, .f32⟩
  | 107 => ⟨S_, .f32⟩
  | 108 => ⟨S40000x128, .f32⟩
  | 109 => ⟨S680000x1, .i32⟩
  | 110 => ⟨S40000x128, .f32⟩
  | 111 => ⟨S1x128, .f32⟩
  | 112 => ⟨S40000x128, .f32⟩
  | 113 => ⟨S_, .f32⟩
  | 114 => ⟨S64x128, .f32⟩
  | 115 => ⟨S40000x1, .i32⟩
  | 116 => ⟨S64x128, .f32⟩
  | 117 => ⟨S_, .f32⟩
  | 118 => ⟨S40000, .f32⟩
  | 119 => ⟨S_, .f32⟩
  | 120 => ⟨S64, .f32⟩
  | 121 => ⟨S40000x1, .i32⟩
  | 122 => ⟨S64, .f32⟩
  | 123 => ⟨S_, .f32⟩
  | 124 => ⟨S64, .f32⟩
  | 125 => ⟨S64, .f32⟩
  | 126 => ⟨S64x1, .f32⟩
  | 127 => ⟨S64x128, .f32⟩
  | _ => ⟨S40000x128, .f32⟩

abbrev hbmTy0_1 (i : Nat) : BufTy := match i % 128 with
  | 0 => ⟨S64x128, .f32⟩
  | 1 => ⟨S1x64, .f32⟩
  | 2 => ⟨S64x64, .f32⟩
  | 3 => ⟨S1x32, .f32⟩
  | 4 => ⟨S64x32, .f32⟩
  | 5 => ⟨S1x2, .f32⟩
  | 6 => ⟨S64x2, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S1x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S1x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S128x128, .f32⟩
  | .local _ .vmem, ⟨23, _⟩ => ⟨S8000x128, .f32⟩
  | .local _ .vmem, ⟨24, _⟩ => ⟨S8000x128, .f32⟩
  | .local _ .vmem, ⟨25, _⟩ => ⟨S8000x128, .f32⟩
  | .local _ .vmem, ⟨26, _⟩ => ⟨S8000x128, .f32⟩
  | .local _ .vmem, ⟨27, _⟩ => ⟨S1x128, .f32⟩
  | .local _ .vmem, ⟨28, _⟩ => ⟨S8000x128, .f32⟩
  | .local _ .vmem, ⟨29, _⟩ => ⟨S8000x128, .f32⟩
  | .local _ .vmem, ⟨30, _⟩ => ⟨S64x128, .f32⟩
  | .local _ .vmem, ⟨31, _⟩ => ⟨S128x64, .f32⟩
  | .local _ .vmem, ⟨32, _⟩ => ⟨S1x64, .f32⟩
  | .local _ .vmem, ⟨33, _⟩ => ⟨S64x64, .f32⟩
  | .local _ .vmem, ⟨34, _⟩ => ⟨S64x64, .f32⟩
  | .local _ .vmem, ⟨35, _⟩ => ⟨S64x32, .f32⟩
  | .local _ .vmem, ⟨36, _⟩ => ⟨S1x32, .f32⟩
  | .local _ .vmem, ⟨37, _⟩ => ⟨S64x32, .f32⟩
  | .local _ .vmem, ⟨38, _⟩ => ⟨S64x32, .f32⟩
  | .local _ .vmem, ⟨39, _⟩ => ⟨S32x2, .f32⟩
  | .local _ .vmem, ⟨40, _⟩ => ⟨S1x2, .f32⟩
  | .local _ .vmem, ⟨41, _⟩ => ⟨S64x2, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_v65 : Ref sig .tc := ⟨.hbm, 98, rfl⟩
abbrev main_c_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc7_stg0_0 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg3_0 : Ref sig .tc := ⟨.vmem, 37, rfl⟩
abbrev cc8_stg0_0 : Ref sig .tc := ⟨.vmem, 38, rfl⟩
abbrev cc8_stg1_0 : Ref sig .tc := ⟨.vmem, 39, rfl⟩
abbrev cc8_stg2_0 : Ref sig .tc := ⟨.vmem, 40, rfl⟩
abbrev cc8_stg3_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc7_sem0_0 : DmaSem sig := 34
abbrev cc7_sem1_0 : DmaSem sig := 35
abbrev cc7_sem2_0 : DmaSem sig := 36
abbrev cc7_sem3_0 : DmaSem sig := 37
abbrev cc8_sem0_0 : DmaSem sig := 38
abbrev cc8_sem1_0 : DmaSem sig := 39
abbrev cc8_sem2_0 : DmaSem sig := 40
abbrev cc8_sem3_0 : DmaSem sig := 41

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x32 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S32x2 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x2 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x2 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S40000 : S_.BroadcastsInDim S40000 (![] : Fin 0 → Fin S40000.rank)
  bcast_S680000_S680000x1_0 : S680000.BroadcastsInDim S680000x1 (![0] : Fin 1 → Fin S680000x1.rank)
  bcast_S_S680000 : S_.BroadcastsInDim S680000 (![] : Fin 0 → Fin S680000.rank)
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  shapeCasts_S128_S1x128 : S128.ShapeCasts S1x128
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S64x128 : S_.BroadcastsInDim S64x128 (![] : Fin 0 → Fin S64x128.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  shapeCasts_S2_S1x2 : S2.ShapeCasts S1x2
  shapeCasts_S64x32_S64x32 : S64x32.ShapeCasts S64x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S8000x128_S128x128_S8000x128_1_0_0_1_n_n_wf : DotDims.WF S8000x128 S128x128 S8000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S40000x128.size a
  hwx0_0 : ∀ i : grid0.Coords, EltTy.bits .f32 = 32 ∨ (Rect.block (s := S40000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S40000x128.size a
  hwx0_2 : ∀ i : grid0.Coords, EltTy.bits .f32 = 32 ∨ (Rect.block (s := S40000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S40000x128.size a
  hwx1_0 : ∀ i : grid1.Coords, EltTy.bits .f32 = 32 ∨ (Rect.block (s := S40000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S40000x128.size a
  hwx1_2 : ∀ i : grid1.Coords, EltTy.bits .f32 = 32 ∨ (Rect.block (s := S40000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S40000x128.size a
  hwx2_0 : ∀ i : grid2.Coords, EltTy.bits .f32 = 32 ∨ (Rect.block (s := S40000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S40000x128.size a
  hwx2_2 : ∀ i : grid2.Coords, EltTy.bits .f32 = 32 ∨ (Rect.block (s := S40000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S40000x128.size a
  hwx3_0 : ∀ i : grid3.Coords, EltTy.bits .f32 = 32 ∨ (Rect.block (s := S40000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S40000x128.size a
  hwx3_2 : ∀ i : grid3.Coords, EltTy.bits .f32 = 32 ∨ (Rect.block (s := S40000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S40000x128.size a
  hwx4_0 : ∀ i : grid4.Coords, EltTy.bits .f32 = 32 ∨ (Rect.block (s := S40000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S40000x128.size a
  hwx4_2 : ∀ i : grid4.Coords, EltTy.bits .f32 = 32 ∨ (Rect.block (s := S40000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S40000x128.size a
  hwx5_0 : ∀ i : grid5.Coords, EltTy.bits .f32 = 32 ∨ (Rect.block (s := S40000x128) S8000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x128.size a ≤ S40000x128.size a
  hwx5_2 : ∀ i : grid5.Coords, EltTy.bits .f32 = 32 ∨ (Rect.block (s := S40000x128) S8000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x64.size a ≤ S64x64.size a
  hwx7_0 : ∀ i : grid7.Coords, EltTy.bits .f32 = 32 ∨ (Rect.block (s := S64x64) S64x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x32.size a ≤ S64x32.size a
  hwx7_3 : ∀ i : grid7.Coords, EltTy.bits .f32 = 32 ∨ (Rect.block (s := S64x32) S64x32.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x32.size a ≤ S64x32.size a
  hwx8_0 : ∀ i : grid8.Coords, EltTy.bits .f32 = 32 ∨ (Rect.block (s := S64x32) S64x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x2.size a ≤ S32x2.size a
  hwx8_1 : ∀ i : grid8.Coords, EltTy.bits .f32 = 32 ∨ (Rect.block (s := S32x2) S32x2.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x2.size a ≤ S1x2.size a
  hwx8_2 : ∀ i : grid8.Coords, EltTy.bits .f32 = 32 ∨ (Rect.block (s := S1x2) S1x2.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x2.size a ≤ S64x2.size a
  hwx8_3 : ∀ i : grid8.Coords, EltTy.bits .f32 = 32 ∨ (Rect.block (s := S64x2) S64x2.size (cc8_transform_3 i) (hinb8_3 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S8000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S64x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S64x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v91) S64x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v93) S64x32.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v93) S64x32.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg14) S32x2.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v94) S1x2.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v95) S64x2.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S40000 : Shape := ⟨1, ![40000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x640000 : Shape := ⟨2, ![1, 640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S64x128 : Shape := ⟨2, ![64, 128]⟩
abbrev S40000x1 : Shape := ⟨2, ![40000, 1]⟩
abbrev S64x1 : Shape := ⟨2, ![64, 1]⟩
abbrev S64x64 : Shape := ⟨2, ![64, 64]⟩
abbrev S1x64 : Shape := ⟨2, ![1, 64]⟩
abbrev S1x32 : Shape := ⟨2, ![1, 32]⟩
abbrev S64x2 : Shape := ⟨2, ![64, 2]⟩
abbrev S1x2 : Shape := ⟨2, ![1, 2]⟩

abbrev nBuf : Space → Nat
  | .hbm => 258
  | .vmem => 0
  | .smem => 0
  | _ => 0

abbrev hbmTy0_0 (i : Nat) : BufTy := match i % 128 with
  | 0 => ⟨S40000x128, .f32⟩
  | 1 => ⟨S2x640000, .i32⟩
  | 2 => ⟨S640000, .f32⟩
  | 3 => ⟨S40000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S64x32, .f32⟩
  | 13 => ⟨S32, .f32⟩
  | 14 => ⟨S32x2, .f32⟩
  | 15 => ⟨S2, .f32⟩
  | 16 => ⟨S40000, .i32⟩
  | 17 => ⟨S1x640000, .i32⟩
  | 18 => ⟨S640000, .i32⟩
  | 19 => ⟨S680000, .i32⟩
  | 20 => ⟨S1x640000, .i32⟩
  | 21 => ⟨S640000, .i32⟩
  | 22 => ⟨S680000, .i32⟩
  | 23 => ⟨S_, .f32⟩
  | 24 => ⟨S40000, .f32⟩
  | 25 => ⟨S680000, .f32⟩
  | 26 => ⟨S_, .f32⟩
  | 27 => ⟨S40000, .f32⟩
  | 28 => ⟨S680000x1, .i32⟩
  | 29 => ⟨S40000, .f32⟩
  | 30 => ⟨S_, .f32⟩
  | 31 => ⟨S40000, .f32⟩
  | 32 => ⟨S40000, .i1⟩
  | 33 => ⟨S40000, .f32⟩
  | 34 => ⟨S_, .f32⟩
  | 35 => ⟨S_, .f32⟩
  | 36 => ⟨S40000, .f32⟩
  | 37 => ⟨S40000, .f32⟩
  | 38 => ⟨S_, .i32⟩
  | 39 => ⟨S680000, .i32⟩
  | 40 => ⟨S680000, .i1⟩
  | 41 => ⟨S_, .i32⟩
  | 42 => ⟨S680000, .i32⟩
  | 43 => ⟨S680000, .i32⟩
  | 44 => ⟨S680000, .i32⟩
  | 45 => ⟨S680000x1, .i32⟩
  | 46 => ⟨S680000, .f32⟩
  | 47 => ⟨S680000, .f32⟩
  | 48 => ⟨S_, .i32⟩
  | 49 => ⟨S680000, .i32⟩
  | 50 => ⟨S680000, .i1⟩
  | 51 => ⟨S_, .i32⟩
  | 52 => ⟨S680000, .i32⟩
  | 53 => ⟨S680000, .i32⟩
  | 54 => ⟨S680000, .i32⟩
  | 55 => ⟨S680000x1, .i32⟩
  | 56 => ⟨S680000, .f32⟩
  | 57 => ⟨S680000, .f32⟩
  | 58 => ⟨S40000x128, .f32⟩
  | 59 => ⟨S680000x1, .f32⟩
  | 60 => ⟨S_, .i32⟩
  | 61 => ⟨S680000, .i32⟩
  | 62 => ⟨S680000, .i1⟩
  | 63 => ⟨S_, .i32⟩
  | 64 => ⟨S680000, .i32⟩
  | 65 => ⟨S680000, .i32⟩
  | 66 => ⟨S680000, .i32⟩
  | 67 => ⟨S680000x1, .i32⟩
  | 68 => ⟨S680000x128, .f32⟩
  | 69 => ⟨S680000x128, .f32⟩
  | 70 => ⟨S680000x128, .f32⟩
  | 71 => ⟨S_, .f32⟩
  | 72 => ⟨S40000x128, .f32⟩
  | 73 => ⟨S680000x1, .i32⟩
  | 74 => ⟨S40000x128, .f32⟩
  | 75 => ⟨S1x128, .f32⟩
  | 76 => ⟨S40000x128, .f32⟩
  | 77 => ⟨S40000x128, .f32⟩
  | 78 => ⟨S_, .f32⟩
  | 79 => ⟨S40000x128, .f32⟩
  | 80 => ⟨S40000x128, .i1⟩
  | 81 => ⟨S_, .f32⟩
  | 82 => ⟨S40000x128, .f32⟩
  | 83 => ⟨S40000x128, .f32⟩
  | 84 => ⟨S40000x128, .f32⟩
  | 85 => ⟨S40000, .i32⟩
  | 86 => ⟨S1x640000, .i32⟩
  | 87 => ⟨S640000, .i32⟩
  | 88 => ⟨S680000, .i32⟩
  | 89 => ⟨S1x640000, .i32⟩
  | 90 => ⟨S640000, .i32⟩
  | 91 => ⟨S680000, .i32⟩
  | 92 => ⟨S_, .f32⟩
  | 93 => ⟨S40000, .f32⟩
  | 94 => ⟨S680000, .f32⟩
  | 95 => ⟨S_, .f32⟩
  | 96 => ⟨S40000, .f32⟩
  | 97 => ⟨S680000x1, .i32⟩
  | 98 => ⟨S40000, .f32⟩
  | 99 => ⟨S_, .f32⟩
  | 100 => ⟨S40000, .f32⟩
  | 101 => ⟨S40000, .i1⟩
  | 102 => ⟨S40000, .f32⟩
  | 103 => ⟨S_, .f32⟩
  | 104 => ⟨S_, .f32⟩
  | 105 => ⟨S40000, .f32⟩
  | 106 => ⟨S40000, .f32⟩
  | 107 => ⟨S_, .i32⟩
  | 108 => ⟨S680000, .i32⟩
  | 109 => ⟨S680000, .i1⟩
  | 110 => ⟨S_, .i32⟩
  | 111 => ⟨S680000, .i32⟩
  | 112 => ⟨S680000, .i32⟩
  | 113 => ⟨S680000, .i32⟩
  | 114 => ⟨S680000x1, .i32⟩
  | 115 => ⟨S680000, .f32⟩
  | 116 => ⟨S680000, .f32⟩
  | 117 => ⟨S_, .i32⟩
  | 118 => ⟨S680000, .i32⟩
  | 119 => ⟨S680000, .i1⟩
  | 120 => ⟨S_, .i32⟩
  | 121 => ⟨S680000, .i32⟩
  | 122 => ⟨S680000, .i32⟩
  | 123 => ⟨S680000, .i32⟩
  | 124 => ⟨S680000x1, .i32⟩
  | 125 => ⟨S680000, .f32⟩
  | 126 => ⟨S680000, .f32⟩
  | 127 => ⟨S40000x128, .f32⟩
  | _ => ⟨S40000x128, .f32⟩

abbrev hbmTy0_1 (i : Nat) : BufTy := match i % 128 with
  | 0 => ⟨S680000x1, .f32⟩
  | 1 => ⟨S_, .i32⟩
  | 2 => ⟨S680000, .i32⟩
  | 3 => ⟨S680000, .i1⟩
  | 4 => ⟨S_, .i32⟩
  | 5 => ⟨S680000, .i32⟩
  | 6 => ⟨S680000, .i32⟩
  | 7 => ⟨S680000, .i32⟩
  | 8 => ⟨S680000x1, .i32⟩
  | 9 => ⟨S680000x128, .f32⟩
  | 10 => ⟨S680000x128, .f32⟩
  | 11 => ⟨S680000x128, .f32⟩
  | 12 => ⟨S_, .f32⟩
  | 13 => ⟨S40000x128, .f32⟩
  | 14 => ⟨S680000x1, .i32⟩
  | 15 => ⟨S40000x128, .f32⟩
  | 16 => ⟨S1x128, .f32⟩
  | 17 => ⟨S40000x128, .f32⟩
  | 18 => ⟨S40000x128, .f32⟩
  | 19 => ⟨S_, .f32⟩
  | 20 => ⟨S40000x128, .f32⟩
  | 21 => ⟨S40000x128, .i1⟩
  | 22 => ⟨S_, .f32⟩
  | 23 => ⟨S40000x128, .f32⟩
  | 24 => ⟨S40000x128, .f32⟩
  | 25 => ⟨S40000x128, .f32⟩
  | 26 => ⟨S40000, .i32⟩
  | 27 => ⟨S1x640000, .i32⟩
  | 28 => ⟨S640000, .i32⟩
  | 29 => ⟨S680000, .i32⟩
  | 30 => ⟨S1x640000, .i32⟩
  | 31 => ⟨S640000, .i32⟩
  | 32 => ⟨S680000, .i32⟩
  | 33 => ⟨S_, .f32⟩
  | 34 => ⟨S40000, .f32⟩
  | 35 => ⟨S680000, .f32⟩
  | 36 => ⟨S_, .f32⟩
  | 37 => ⟨S40000, .f32⟩
  | 38 => ⟨S680000x1, .i32⟩
  | 39 => ⟨S40000, .f32⟩
  | 40 => ⟨S_, .f32⟩
  | 41 => ⟨S40000, .f32⟩
  | 42 => ⟨S40000, .i1⟩
  | 43 => ⟨S40000, .f32⟩
  | 44 => ⟨S_, .f32⟩
  | 45 => ⟨S_, .f32⟩
  | 46 => ⟨S40000, .f32⟩
  | 47 => ⟨S40000, .f32⟩
  | 48 => ⟨S_, .i32⟩
  | 49 => ⟨S680000, .i32⟩
  | 50 => ⟨S680000, .i1⟩
  | 51 => ⟨S_, .i32⟩
  | 52 => ⟨S680000, .i32⟩
  | 53 => ⟨S680000, .i32⟩
  | 54 => ⟨S680000, .i32⟩
  | 55 => ⟨S680000x1, .i32⟩
  | 56 => ⟨S680000, .f32⟩
  | 57 => ⟨S680000, .f32⟩
  | 58 => ⟨S_, .i32⟩
  | 59 => ⟨S680000, .i32⟩
  | 60 => ⟨S680000, .i1⟩
  | 61 => ⟨S_, .i32⟩
  | 62 => ⟨S680000, .i32⟩
  | 63 => ⟨S680000, .i32⟩
  | 64 => ⟨S680000, .i32⟩
  | 65 => ⟨S680000x1, .i32⟩
  | 66 => ⟨S680000, .f32⟩
  | 67 => ⟨S680000, .f32⟩
  | 68 => ⟨S40000x128, .f32⟩
  | 69 => ⟨S680000x1, .f32⟩
  | 70 => ⟨S_, .i32⟩
  | 71 => ⟨S680000, .i32⟩
  | 72 => ⟨S680000, .i1⟩
  | 73 => ⟨S_, .i32⟩
  | 74 => ⟨S680000, .i32⟩
  | 75 => ⟨S680000, .i32⟩
  | 76 => ⟨S680000, .i32⟩
  | 77 => ⟨S680000x1, .i32⟩
  | 78 => ⟨S680000x128, .f32⟩
  | 79 => ⟨S680000x128, .f32⟩
  | 80 => ⟨S680000x128, .f32⟩
  | 81 => ⟨S_, .f32⟩
  | 82 => ⟨S40000x128, .f32⟩
  | 83 => ⟨S680000x1, .i32⟩
  | 84 => ⟨S40000x128, .f32⟩
  | 85 => ⟨S1x128, .f32⟩
  | 86 => ⟨S40000x128, .f32⟩
  | 87 => ⟨S40000x128, .f32⟩
  | 88 => ⟨S_, .f32⟩
  | 89 => ⟨S64x128, .f32⟩
  | 90 => ⟨S40000x1, .i32⟩
  | 91 => ⟨S64x128, .f32⟩
  | 92 => ⟨S_, .f32⟩
  | 93 => ⟨S40000, .f32⟩
  | 94 => ⟨S_, .f32⟩
  | 95 => ⟨S64, .f32⟩
  | 96 => ⟨S40000x1, .i32⟩
  | 97 => ⟨S64, .f32⟩
  | 98 => ⟨S_, .f32⟩
  | 99 => ⟨S64, .f32⟩
  | 100 => ⟨S64, .f32⟩
  | 101 => ⟨S64x1, .f32⟩
  | 102 => ⟨S64x128, .f32⟩
  | 103 => ⟨S64x128, .f32⟩
  | 104 => ⟨S64x64, .f32⟩
  | 105 => ⟨S1x64, .f32⟩
  | 106 => ⟨S64x64, .f32⟩
  | 107 => ⟨S64x64, .f32⟩
  | 108 => ⟨S_, .f32⟩
  | 109 => ⟨S64x64, .f32⟩
  | 110 => ⟨S64x64, .i1⟩
  | 111 => ⟨S_, .f32⟩
  | 112 => ⟨S64x64, .f32⟩
  | 113 => ⟨S64x64, .f32⟩
  | 114 => ⟨S64x64, .f32⟩
  | 115 => ⟨S64x32, .f32⟩
  | 116 => ⟨S1x32, .f32⟩
  | 117 => ⟨S64x32, .f32⟩
  | 118 => ⟨S64x32, .f32⟩
  | 119 => ⟨S_, .f32⟩
  | 120 => ⟨S64x32, .f32⟩
  | 121 => ⟨S64x32, .i1⟩
  | 122 => ⟨S_, .f32⟩
  | 123 => ⟨S64x32, .f32⟩
  | 124 => ⟨S64x32, .f32⟩
  | 125 => ⟨S64x32, .f32⟩
  | 126 => ⟨S64x2, .f32⟩
  | 127 => ⟨S1x2, .f32⟩
  | _ => ⟨S40000x128, .f32⟩

abbrev hbmTy0_2 (i : Nat) : BufTy := match i % 128 with
  | 0 => ⟨S64x2, .f32⟩
  | 1 => ⟨S64x2, .f32⟩
  | _ => ⟨S40000x128, .f32⟩

abbrev hbmTy (i : Nat) : BufTy := match i / 128 with
  | 0 => hbmTy0_0 i
  | 1 => hbmTy0_1 i
  | 2 => hbmTy0_2 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_call2_v0 : Ref sig .tc := ⟨.hbm, 104, rfl⟩
abbrev main_call2_v1 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_c_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_17 : Ref sig .tc := ⟨.hbm, 117, rfl⟩
abbrev main_v78 : Ref sig .tc := ⟨.hbm, 118, rfl⟩
abbrev main_v79 : Ref sig .tc := ⟨.hbm, 119, rfl⟩
abbrev main_c_18 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_19 : Ref sig .tc := ⟨.hbm, 129, rfl⟩
abbrev main_v88 : Ref sig .tc := ⟨.hbm, 130, rfl⟩
abbrev main_v89 : Ref sig .tc := ⟨.hbm, 131, rfl⟩
abbrev main_c_20 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_cst_23 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_24 : Ref sig .tc := ⟨.hbm, 161, rfl⟩
abbrev main_v115 : Ref sig .tc := ⟨.hbm, 162, rfl⟩
abbrev main_v116 : Ref sig .tc := ⟨.hbm, 163, rfl⟩
abbrev main_cst_25 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_26 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_27 : Ref sig .tc := ⟨.hbm, 172, rfl⟩
abbrev main_call4_v0 : Ref sig .tc := ⟨.hbm, 173, rfl⟩
abbrev main_call4_v1 : Ref sig .tc := ⟨.hbm, 174, rfl⟩
abbrev main_v123 : Ref sig .tc := ⟨.hbm, 175, rfl⟩
abbrev main_c_28 : Ref sig .tc := ⟨.hbm, 176, rfl⟩
abbrev main_v124 : Ref sig .tc := ⟨.hbm, 177, rfl⟩
abbrev main_v125 : Ref sig .tc := ⟨.hbm, 178, rfl⟩
abbrev main_c_29 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_c_30 : Ref sig .tc := ⟨.hbm, 186, rfl⟩
abbrev main_v132 : Ref sig .tc := ⟨.hbm, 187, rfl⟩
abbrev main_v133 : Ref sig .tc := ⟨.hbm, 188, rfl⟩
abbrev main_c_31 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_32 : Ref sig .tc := ⟨.hbm, 198, rfl⟩
abbrev main_v142 : Ref sig .tc := ⟨.hbm, 199, rfl⟩
abbrev main_v143 : Ref sig .tc := ⟨.hbm, 200, rfl⟩
abbrev main_c_33 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_34 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_35 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_cst_36 : Ref sig .tc := ⟨.hbm, 220, rfl⟩
abbrev main_v160 : Ref sig .tc := ⟨.hbm, 221, rfl⟩
abbrev main_cst_37 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_38 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_cst_39 : Ref sig .tc := ⟨.hbm, 236, rfl⟩
abbrev main_v173 : Ref sig .tc := ⟨.hbm, 237, rfl⟩
abbrev main_v174 : Ref sig .tc := ⟨.hbm, 238, rfl⟩
abbrev main_cst_40 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_41 : Ref sig .tc := ⟨.hbm, 247, rfl⟩
abbrev main_v182 : Ref sig .tc := ⟨.hbm, 248, rfl⟩
abbrev main_v183 : Ref sig .tc := ⟨.hbm, 249, rfl⟩
abbrev main_cst_42 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S40000 : S_.BroadcastsInDim S40000 (![] : Fin 0 → Fin S40000.rank)
  bcast_S680000_S680000x1_0 : S680000.BroadcastsInDim S680000x1 (![0] : Fin 1 → Fin S680000x1.rank)
  bcast_S_S680000 : S_.BroadcastsInDim S680000 (![] : Fin 0 → Fin S680000.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x128_S128x128_S40000x128_1_0_0_1_n_n_wf : DotDims.WF S40000x128 S128x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x2_S64x2_1_0_0_1_n_n_wf : DotDims.WF S64x32 S32x2 S64x2 [1] [0] [0] [1] [] []

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.KernelRun.lean ====
/-
  The idealized kernel's run, read at the end.

  The kernel's @main is nine grid regions among stretches of host operations. Its frame certificate walks the
  buffer contents from the launch memory through each stretch (the operations' pure functions applied in order)
  and each region (its arrays at what the grid's write-backs leave, every other buffer untouched) to the contents
  `W18` at the return. Here the same run is stated with a stronger conclusion: in every final state EVERY
  unscoped buffer — the result among them — holds its `W18` contents. The value of the result is then a
  statement about `W18` alone, proved elsewhere without mentioning executions.
-/
import proofs.«109360_j82085414961196_1_alg».proof.Proof.Gen.KernelIdeal.Frame

set_option maxRecDepth 16384

noncomputable section

namespace Cert.KernelIdeal.EndState

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, and in its final state every
    unscoped buffer of every core holds the last boundary's contents `W18`. -/
theorem ends_at_last_boundary : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c => h c)

/-- The run with the result buffer named: it ends at `W18`'s contents of `main_v95`, and the sixteen argument
    arrays end as launched. -/
theorem result_at_last_boundary : θ_run defs (onTc (τ := τ) (main (F := F))) ⟨m, fun _ => 0, ρ⟩ (fun r => ∀ c : Dev nD,
      r.2.mem ((c.tc : Thread nD τ).loc main_v95) = W18 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v95 (by decide)),
     (h c _ (mem_uc main_arg0 (by decide))).trans (W18_main_arg0 m ρ c),
     (h c _ (mem_uc main_arg1 (by decide))).trans (W18_main_arg1 m ρ c),
     (h c _ (mem_uc main_arg2 (by decide))).trans (W18_main_arg2 m ρ c),
     (h c _ (mem_uc main_arg3 (by decide))).trans (W18_main_arg3 m ρ c),
     (h c _ (mem_uc main_arg4 (by decide))).trans (W18_main_arg4 m ρ c),
     (h c _ (mem_uc main_arg5 (by decide))).trans (W18_main_arg5 m ρ c),
     (h c _ (mem_uc main_arg6 (by decide))).trans (W18_main_arg6 m ρ c),
     (h c _ (mem_uc main_arg7 (by decide))).trans (W18_main_arg7 m ρ c),
     (h c _ (mem_uc main_arg8 (by decide))).trans (W18_main_arg8 m ρ c),
     (h c _ (mem_uc main_arg9 (by decide))).trans (W18_main_arg9 m ρ c),
     (h c _ (mem_uc main_arg10 (by decide))).trans (W18_main_arg10 m ρ c),
     (h c _ (mem_uc main_arg11 (by decide))).trans (W18_main_arg11 m ρ c),
     (h c _ (mem_uc main_arg12 (by decide))).trans (W18_main_arg12 m ρ c),
     (h c _ (mem_uc main_arg13 (by decide))).trans (W18_main_arg13 m ρ c),
     (h c _ (mem_uc main_arg14 (by decide))).trans (W18_main_arg14 m ρ c),
     (h c _ (mem_uc main_arg15 (by decide))).trans (W18_main_arg15 m ρ c)⟩)
    (ends_at_last_boundary m ρ)

end Cert.KernelIdeal.EndState

end
-- ==== Proof.Spec.lean ====
/-
  The network both programs compute, as one function of the argument arrays.

  A self-looped, symmetrically normalised graph convolution, three times, a mean over each graph's nodes, a three-layer
  head. Written in the host's operations and in stages, each a function of arrays, so that a program's buffer can be
  identified with a stage by unfolding definitions:

    sources, targets   the edge list's two rows, each followed by 0 … 39999 (the self-loops);
    weights            the edge weights followed by 40000 ones;
    degrees            `weights` scatter-added at `targets`;            invSqrtDeg   `1/√degrees` where positive, else 0;
    wrapped            an index array with negative entries moved up by 40000 (the gather's index convention);
    norm               `invSqrtDeg[sources] · weights · invSqrtDeg[targets]`, as a column;
    product            rows times a 128×128 weight matrix;
    aggregate          gather the products at `sources`, scale each row by `norm`, scatter-add at `targets`;
    addBias, leaky     a bias row added to every row; `v ↦ if v > 0 then v else 0.01f · v`;
    meanPool           per-graph sums divided by the node counts clamped below by one;
    head1, head2, head3  a dense layer each (the first two rectified).

  Nothing here is proved; the stages are only named.
-/
import proofs.«109360_j82085414961196_1_alg».proof.ReferenceIdeal
import proofs.«109360_j82085414961196_1_alg».proof.Proof.Gen.ReferenceIdeal

noncomputable section

namespace Cert.Spec

open Cert.ReferenceIdeal Cert.ReferenceIdeal.Gen Idealize.ShloMosaic

variable {F : FTy → Type} [FloatOps F]

/-- The edges' source nodes, then every node once (its self-loop). -/
def sources (ei : (⟨S2x640000, .i32⟩ : BufTy).Contents (Elt F)) : (⟨S680000, .i32⟩ : BufTy).Contents (Elt F) :=
  concatenate S680000 0 [⟨S640000, (shapeCast _ (extractStridedSlice S1x640000 ![0, 0] (ei) slices_S2x640000_S1x640000_0_0) shapeCasts_S1x640000_S640000)⟩, ⟨S40000, (iotaInDim S40000 32 0)⟩] concatenates_S640000_S40000_S680000_d0

/-- The edges' target nodes, then every node once. -/
def targets (ei : (⟨S2x640000, .i32⟩ : BufTy).Contents (Elt F)) : (⟨S680000, .i32⟩ : BufTy).Contents (Elt F) :=
  concatenate S680000 0 [⟨S640000, (shapeCast _ (extractStridedSlice S1x640000 ![1, 0] (ei) slices_S2x640000_S1x640000_1_0) shapeCasts_S1x640000_S640000)⟩, ⟨S40000, (iotaInDim S40000 32 0)⟩] concatenates_S640000_S40000_S680000_d0

/-- The edge weights, then a one per self-loop. -/
def weights (ew : (⟨S640000, .f32⟩ : BufTy).Contents (Elt F)) : (⟨S680000, .f32⟩ : BufTy).Contents (Elt F) :=
  concatenate S680000 0 [⟨S640000, (ew)⟩, ⟨S40000, (broadcastInDim S40000 ![] bcast_S_S40000 (constant S_ .f32 0x3F800000#32))⟩] concatenates_S640000_S40000_S680000_d0

/-- An index array as a column of one-entry index vectors. -/
def asColumn (idx : (⟨S680000, .i32⟩ : BufTy).Contents (Elt F)) : (⟨S680000x1, .i32⟩ : BufTy).Contents (Elt F) :=
  broadcastInDim S680000x1 ![0] bcast_S680000_S680000x1_0 idx

/-- Each node's weighted in-degree. -/
def degrees (ei : (⟨S2x640000, .i32⟩ : BufTy).Contents (Elt F)) (ew : (⟨S640000, .f32⟩ : BufTy).Contents (Elt F)) : (⟨S40000, .f32⟩ : BufTy).Contents (Elt F) :=
  Host.scatterAdd scatter_S40000_S680000x1_S680000_n_0_0_1 (broadcastInDim S40000 ![] bcast_S_S40000 (constant S_ .f32 0x00000000#32)) (asColumn (targets ei)) (weights ew)

/-- `1/√degree` where the degree is positive, zero elsewhere. -/
def invSqrtDeg (ei : (⟨S2x640000, .i32⟩ : BufTy).Contents (Elt F)) (ew : (⟨S640000, .f32⟩ : BufTy).Contents (Elt F)) : (⟨S40000, .f32⟩ : BufTy).Contents (Elt F) :=
  select (cmpf .ogt (degrees ei ew) (broadcastInDim S40000 ![] bcast_S_S40000 (constant S_ .f32 0x00000000#32))) (Host.rsqrt (degrees ei ew)) (broadcastInDim S40000 ![] bcast_S_S40000 (id (constant S_ .f32 0x00000000#32)))

/-- Negative indices count from the end: moved up by the number of nodes. -/
def wrapped (idx : (⟨S680000, .i32⟩ : BufTy).Contents (Elt F)) : (⟨S680000, .i32⟩ : BufTy).Contents (Elt F) :=
  select (cmpi .slt idx (broadcastInDim S680000 ![] bcast_S_S680000 (constantI S_ 32 0#32))) (addi idx (broadcastInDim S680000 ![] bcast_S_S680000 (constantI S_ 32 40000#32))) idx

/-- The symmetric normalisation of every edge and self-loop, as a column. -/
def norm (ei : (⟨S2x640000, .i32⟩ : BufTy).Contents (Elt F)) (ew : (⟨S640000, .f32⟩ : BufTy).Contents (Elt F)) : (⟨S680000x1, .f32⟩ : BufTy).Contents (Elt F) :=
  broadcastInDim S680000x1 ![0] bcast_S680000_S680000x1_0 (mulf (mulf (Host.gather gather_S40000_S680000x1_S680000_n_0_n_n_0_1_1 (invSqrtDeg ei ew) (asColumn (wrapped (sources ei)))) (weights ew)) (Host.gather gather_S40000_S680000x1_S680000_n_0_n_n_0_1_1 (invSqrtDeg ei ew) (asColumn (wrapped (targets ei)))))

/-- Node rows times a weight matrix. -/
def product (x : (⟨S40000x128, .f32⟩ : BufTy).Contents (Elt F)) (w : (⟨S128x128, .f32⟩ : BufTy).Contents (Elt F)) : (⟨S40000x128, .f32⟩ : BufTy).Contents (Elt F) :=
  Host.dotGeneral dot_S40000x128_S128x128_S40000x128_1_0_0_1_n_n none x w

/-- Messages along the edges: gather at the sources, scale by the normalisation, sum at the targets. -/
def aggregate (src tgt : (⟨S680000, .i32⟩ : BufTy).Contents (Elt F)) (nrm : (⟨S680000x1, .f32⟩ : BufTy).Contents (Elt F)) (hw : (⟨S40000x128, .f32⟩ : BufTy).Contents (Elt F)) : (⟨S40000x128, .f32⟩ : BufTy).Contents (Elt F) :=
  Host.scatterAdd scatter_S40000x128_S680000x1_S680000x128_1_0_0_1 (broadcastInDim S40000x128 ![] bcast_S_S40000x128 (constant S_ .f32 0x00000000#32)) (asColumn tgt) (mulf (broadcastInDim S680000x128 ![0, 1] bcast_S680000x1_S680000x128_0_1 nrm) (Host.gather gather_S40000x128_S680000x1_S680000x128_1_0_n_n_0_1_1128 hw (asColumn (wrapped src))))

/-- A bias vector as one row. -/
def biasRow128 (b : (⟨S128, .f32⟩ : BufTy).Contents (Elt F)) : (⟨S1x128, .f32⟩ : BufTy).Contents (Elt F) := broadcastInDim S1x128 ![1] bcast_S128_S1x128_1 b

/-- The bias row added to every node row. -/
def addBias (h : (⟨S40000x128, .f32⟩ : BufTy).Contents (Elt F)) (brow : (⟨S1x128, .f32⟩ : BufTy).Contents (Elt F)) : (⟨S40000x128, .f32⟩ : BufTy).Contents (Elt F) :=
  addf h (broadcastInDim S40000x128 ![0, 1] bcast_S1x128_S40000x128_0_1 brow)

/-- The leaky rectifier on node rows. -/
def leaky (v : (⟨S40000x128, .f32⟩ : BufTy).Contents (Elt F)) : (⟨S40000x128, .f32⟩ : BufTy).Contents (Elt F) :=
  select (cmpf .ogt v (broadcastInDim S40000x128 ![] bcast_S_S40000x128 (constant S_ .f32 0x00000000#32))) v (mulf (broadcastInDim S40000x128 ![] bcast_S_S40000x128 (constant S_ .f32 0x3C23D70A#32)) v)

/-- One convolution before its activation. -/
def conv (ei : (⟨S2x640000, .i32⟩ : BufTy).Contents (Elt F)) (ew : (⟨S640000, .f32⟩ : BufTy).Contents (Elt F)) (h : (⟨S40000x128, .f32⟩ : BufTy).Contents (Elt F)) (w : (⟨S128x128, .f32⟩ : BufTy).Contents (Elt F)) (b : (⟨S128, .f32⟩ : BufTy).Contents (Elt F)) : (⟨S40000x128, .f32⟩ : BufTy).Contents (Elt F) :=
  addBias (aggregate (sources ei) (targets ei) (norm ei ew) (product h w)) (biasRow128 b)

/-- Per-graph mean of the node rows. -/
def meanPool (batch : (⟨S40000, .i32⟩ : BufTy).Contents (Elt F)) (h : (⟨S40000x128, .f32⟩ : BufTy).Contents (Elt F)) : (⟨S64x128, .f32⟩ : BufTy).Contents (Elt F) :=
  Host.divf (Host.scatterAdd scatter_S64x128_S40000x1_S40000x128_1_0_0_1 (broadcastInDim S64x128 ![] bcast_S_S64x128 (constant S_ .f32 0x00000000#32)) (broadcastInDim S40000x1 ![0] bcast_S40000_S40000x1_0 batch) h)
    (broadcastInDim S64x128 ![0, 1] bcast_S64x1_S64x128_0_1 (broadcastInDim S64x1 ![0] bcast_S64_S64x1_0 (maximumf (Host.scatterAdd scatter_S64_S40000x1_S40000_n_0_0_1 (broadcastInDim S64 ![] bcast_S_S64 (constant S_ .f32 0x00000000#32)) (broadcastInDim S40000x1 ![0] bcast_S40000_S40000x1_0 batch) (broadcastInDim S40000 ![] bcast_S_S40000 (constant S_ .f32 0x3F800000#32))) (broadcastInDim S64 ![] bcast_S_S64 (constant S_ .f32 0x3F800000#32)))))

/-- The head's bias vectors as rows. -/
def biasRow64 (b : (⟨S64, .f32⟩ : BufTy).Contents (Elt F)) : (⟨S1x64, .f32⟩ : BufTy).Contents (Elt F) := broadcastInDim S1x64 ![1] bcast_S64_S1x64_1 b
def biasRow32 (b : (⟨S32, .f32⟩ : BufTy).Contents (Elt F)) : (⟨S1x32, .f32⟩ : BufTy).Contents (Elt F) := broadcastInDim S1x32 ![1] bcast_S32_S1x32_1 b
def biasRow2 (b : (⟨S2, .f32⟩ : BufTy).Contents (Elt F)) : (⟨S1x2, .f32⟩ : BufTy).Contents (Elt F) := broadcastInDim S1x2 ![1] bcast_S2_S1x2_1 b

/-- The head's first layer before its activation, over the bias ROW. -/
def affine1 (g : (⟨S64x128, .f32⟩ : BufTy).Contents (Elt F)) (w : (⟨S128x64, .f32⟩ : BufTy).Contents (Elt F)) (brow : (⟨S1x64, .f32⟩ : BufTy).Contents (Elt F)) : (⟨S64x64, .f32⟩ : BufTy).Contents (Elt F) :=
  addf (Host.dotGeneral dot_S64x128_S128x64_S64x64_1_0_0_1_n_n none g w) (broadcastInDim S64x64 ![0, 1] bcast_S1x64_S64x64_0_1 brow)

/-- The head's first layer. -/
def head1 (g : (⟨S64x128, .f32⟩ : BufTy).Contents (Elt F)) (w : (⟨S128x64, .f32⟩ : BufTy).Contents (Elt F)) (brow : (⟨S1x64, .f32⟩ : BufTy).Contents (Elt F)) : (⟨S64x64, .f32⟩ : BufTy).Contents (Elt F) :=
  select (cmpf .ogt (affine1 g w brow) (broadcastInDim S64x64 ![] bcast_S_S64x64 (constant S_ .f32 0x00000000#32))) (affine1 g w brow) (mulf (broadcastInDim S64x64 ![] bcast_S_S64x64 (constant S_ .f32 0x3C23D70A#32)) (affine1 g w brow))

def affine2 (g : (⟨S64x64, .f32⟩ : BufTy).Contents (Elt F)) (w : (⟨S64x32, .f32⟩ : BufTy).Contents (Elt F)) (brow : (⟨S1x32, .f32⟩ : BufTy).Contents (Elt F)) : (⟨S64x32, .f32⟩ : BufTy).Contents (Elt F) :=
  addf (Host.dotGeneral dot_S64x64_S64x32_S64x32_1_0_0_1_n_n none g w) (broadcastInDim S64x32 ![0, 1] bcast_S1x32_S64x32_0_1 brow)

/-- The head's second layer. -/
def head2 (g : (⟨S64x64, .f32⟩ : BufTy).Contents (Elt F)) (w : (⟨S64x32, .f32⟩ : BufTy).Contents (Elt F)) (brow : (⟨S1x32, .f32⟩ : BufTy).Contents (Elt F)) : (⟨S64x32, .f32⟩ : BufTy).Contents (Elt F) :=
  select (cmpf .ogt (affine2 g w brow) (broadcastInDim S64x32 ![] bcast_S_S64x32 (constant S_ .f32 0x00000000#32))) (affine2 g w brow) (mulf (broadcastInDim S64x32 ![] bcast_S_S64x32 (constant S_ .f32 0x3C23D70A#32)) (affine2 g w brow))

/-- The head's last layer (no activation). -/
def head3 (g : (⟨S64x32, .f32⟩ : BufTy).Contents (Elt F)) (w : (⟨S32x2, .f32⟩ : BufTy).Contents (Elt F)) (brow : (⟨S1x2, .f32⟩ : BufTy).Contents (Elt F)) : (⟨S64x2, .f32⟩ : BufTy).Contents (Elt F) :=
  addf (Host.dotGeneral dot_S64x32_S32x2_S64x2_1_0_0_1_n_n none g w) (broadcastInDim S64x2 ![0, 1] bcast_S1x2_S64x2_0_1 brow)

/-- The three convolutions. -/
def hidden1 (x : (⟨S40000x128, .f32⟩ : BufTy).Contents (Elt F)) (ei : (⟨S2x640000, .i32⟩ : BufTy).Contents (Elt F)) (ew : (⟨S640000, .f32⟩ : BufTy).Contents (Elt F)) (w0 : (⟨S128x128, .f32⟩ : BufTy).Contents (Elt F)) (b0 : (⟨S128, .f32⟩ : BufTy).Contents (Elt F)) : (⟨S40000x128, .f32⟩ : BufTy).Contents (Elt F) :=
  leaky (conv ei ew x w0 b0)
def hidden2 (x : (⟨S40000x128, .f32⟩ : BufTy).Contents (Elt F)) (ei : (⟨S2x640000, .i32⟩ : BufTy).Contents (Elt F)) (ew : (⟨S640000, .f32⟩ : BufTy).Contents (Elt F)) (w0 : (⟨S128x128, .f32⟩ : BufTy).Contents (Elt F)) (b0 : (⟨S128, .f32⟩ : BufTy).Contents (Elt F)) (w1 : (⟨S128x128, .f32⟩ : BufTy).Contents (Elt F)) (b1 : (⟨S128, .f32⟩ : BufTy).Contents (Elt F)) : (⟨S40000x128, .f32⟩ : BufTy).Contents (Elt F) :=
  leaky (conv ei ew (hidden1 x ei ew w0 b0) w1 b1)
def hidden3 (x : (⟨S40000x128, .f32⟩ : BufTy).Contents (Elt F)) (ei : (⟨S2x640000, .i32⟩ : BufTy).Contents (Elt F)) (ew : (⟨S640000, .f32⟩ : BufTy).Contents (Elt F)) (w0 : (⟨S128x128, .f32⟩ : BufTy).Contents (Elt F)) (b0 : (⟨S128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S40000x128, .f32⟩ : BufTy).Contents (Elt F) :=
  conv ei ew (hidden2 x ei ew w0 b0 w1 b1) w2 b2

/-- The whole network: one row of two numbers per graph. -/
def network (x : (⟨S40000x128, .f32⟩ : BufTy).Contents (Elt F)) (ei : (⟨S2x640000, .i32⟩ : BufTy).Contents (Elt F)) (ew : (⟨S640000, .f32⟩ : BufTy).Contents (Elt F)) (batch : (⟨S40000, .i32⟩ : BufTy).Contents (Elt F))
    (w0 : (⟨S128x128, .f32⟩ : BufTy).Contents (Elt F)) (b0 : (⟨S128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (fw1 : (⟨S128x64, .f32⟩ : BufTy).Contents (Elt F)) (fb1 : (⟨S64, .f32⟩ : BufTy).Contents (Elt F)) (fw2 : (⟨S64x32, .f32⟩ : BufTy).Contents (Elt F)) (fb2 : (⟨S32, .f32⟩ : BufTy).Contents (Elt F)) (fw3 : (⟨S32x2, .f32⟩ : BufTy).Contents (Elt F)) (fb3 : (⟨S2, .f32⟩ : BufTy).Contents (Elt F)) : (⟨S64x2, .f32⟩ : BufTy).Contents (Elt F) :=
  head3 (head2 (head1 (meanPool batch (hidden3 x ei ew w0 b0 w1 b1 w2 b2)) fw1 (biasRow64 fb1)) fw2 (biasRow32 fb2)) fw3 (biasRow2 fb3)

end Cert.Spec

end
-- ==== Proof.Carry.lean ====
/-
  Buffers that nothing overwrites.

  The sixteen argument arrays are written by no host operation and by no region (a region reads one through an input
  window or does not touch it). The same holds, from the first region on, of three arrays the first stretch of host
  operations computes once and every layer reads again: the source indices `row`, the target indices `col` and the
  normalisation column `norm` of the self-looped graph. So at every later boundary of @main each of them still holds
  what it held when the first region was entered, and an argument holds what the launch memory held.
-/
import proofs.«109360_j82085414961196_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- The argument arrays. -/
def argRefs : List (Ref sig .tc) := [main_arg0, main_arg1, main_arg2, main_arg3, main_arg4, main_arg5, main_arg6, main_arg7, main_arg8, main_arg9, main_arg10, main_arg11, main_arg12, main_arg13, main_arg14, main_arg15]

/-- The arguments, and `row`, `col`, `norm`. -/
def carried : List (Ref sig .tc) := [main_arg0, main_arg1, main_arg2, main_arg3, main_arg4, main_arg5, main_arg6, main_arg7, main_arg8, main_arg9, main_arg10, main_arg11, main_arg12, main_arg13, main_arg14, main_arg15, main_v3, main_v6, main_v32]

/-- No operation of a stretch of host operations writes the buffer: each operation writes its one result buffer, and that
    is another reference. -/
macro "untouched_by " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-- Stretch `hostOps0` writes none of them. -/
theorem keep1 : ∀ b ∈ argRefs, W1 m ρ c (Proc.devRef .tc b) = W0 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals untouched_by hostOps0

/-- Stretch `hostOps0_1` writes none of them. -/
theorem keep2 : ∀ b ∈ argRefs, W2 m ρ c (Proc.devRef .tc b) = W1 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals untouched_by hostOps0_1

/-- Stretch `hostOps0_2` writes none of them. -/
theorem keep3 : ∀ b ∈ argRefs, W3 m ρ c (Proc.devRef .tc b) = W2 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals untouched_by hostOps0_2

/-- Region 0 writes none of them: one that is an input window's array is read, never written back; the others are not
    among the region's arrays at all. -/
theorem keep4 : ∀ b ∈ carried, W4 m ρ c (Proc.devRef .tc b) = W3 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

/-- Stretch `hostOps1` writes none of them. -/
theorem keep5 : ∀ b ∈ carried, W5 m ρ c (Proc.devRef .tc b) = W4 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals untouched_by hostOps1

/-- Region 1 writes none of them: one that is an input window's array is read, never written back; the others are not
    among the region's arrays at all. -/
theorem keep6 : ∀ b ∈ carried, W6 m ρ c (Proc.devRef .tc b) = W5 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W6_of_ne m ρ c _ (by decide)
    | exact (W6_arr m ρ c 0).trans (((dat1 (V5 m ρ) c).arrAt_in 0 rfl _).trans (A_eq1 (V5 m ρ) c 0))
    | exact (W6_arr m ρ c 1).trans (((dat1 (V5 m ρ) c).arrAt_in 1 rfl _).trans (A_eq1 (V5 m ρ) c 1))

/-- Region 2 writes none of them: one that is an input window's array is read, never written back; the others are not
    among the region's arrays at all. -/
theorem keep7 : ∀ b ∈ carried, W7 m ρ c (Proc.devRef .tc b) = W6 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W7_of_ne m ρ c _ (by decide)
    | exact (W7_arr m ρ c 0).trans (((dat2 (V6 m ρ) c).arrAt_in 0 rfl _).trans (A_eq2 (V6 m ρ) c 0))
    | exact (W7_arr m ρ c 1).trans (((dat2 (V6 m ρ) c).arrAt_in 1 rfl _).trans (A_eq2 (V6 m ρ) c 1))

/-- Stretch `hostOps3` writes none of them. -/
theorem keep8 : ∀ b ∈ carried, W8 m ρ c (Proc.devRef .tc b) = W7 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals untouched_by hostOps3

/-- Region 3 writes none of them: one that is an input window's array is read, never written back; the others are not
    among the region's arrays at all. -/
theorem keep9 : ∀ b ∈ carried, W9 m ρ c (Proc.devRef .tc b) = W8 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W9_of_ne m ρ c _ (by decide)
    | exact (W9_arr m ρ c 0).trans (((dat3 (V8 m ρ) c).arrAt_in 0 rfl _).trans (A_eq3 (V8 m ρ) c 0))
    | exact (W9_arr m ρ c 1).trans (((dat3 (V8 m ρ) c).arrAt_in 1 rfl _).trans (A_eq3 (V8 m ρ) c 1))

/-- Region 4 writes none of them: one that is an input window's array is read, never written back; the others are not
    among the region's arrays at all. -/
theorem keep10 : ∀ b ∈ carried, W10 m ρ c (Proc.devRef .tc b) = W9 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W10_of_ne m ρ c _ (by decide)
    | exact (W10_arr m ρ c 0).trans (((dat4 (V9 m ρ) c).arrAt_in 0 rfl _).trans (A_eq4 (V9 m ρ) c 0))
    | exact (W10_arr m ρ c 1).trans (((dat4 (V9 m ρ) c).arrAt_in 1 rfl _).trans (A_eq4 (V9 m ρ) c 1))

/-- Stretch `hostOps5` writes none of them. -/
theorem keep11 : ∀ b ∈ carried, W11 m ρ c (Proc.devRef .tc b) = W10 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals untouched_by hostOps5

/-- Region 5 writes none of them: one that is an input window's array is read, never written back; the others are not
    among the region's arrays at all. -/
theorem keep12 : ∀ b ∈ carried, W12 m ρ c (Proc.devRef .tc b) = W11 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W12_of_ne m ρ c _ (by decide)
    | exact (W12_arr m ρ c 0).trans (((dat5 (V11 m ρ) c).arrAt_in 0 rfl _).trans (A_eq5 (V11 m ρ) c 0))
    | exact (W12_arr m ρ c 1).trans (((dat5 (V11 m ρ) c).arrAt_in 1 rfl _).trans (A_eq5 (V11 m ρ) c 1))

/-- Stretch `hostOps6` writes none of them. -/
theorem keep13 : ∀ b ∈ carried, W13 m ρ c (Proc.devRef .tc b) = W12 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals untouched_by hostOps6

/-- Region 6 writes none of them: one that is an input window's array is read, never written back; the others are not
    among the region's arrays at all. -/
theorem keep14 : ∀ b ∈ carried, W14 m ρ c (Proc.devRef .tc b) = W13 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W14_of_ne m ρ c _ (by decide)
    | exact (W14_arr m ρ c 0).trans (((dat6 (V13 m ρ) c).arrAt_in 0 rfl _).trans (A_eq6 (V13 m ρ) c 0))
    | exact (W14_arr m ρ c 1).trans (((dat6 (V13 m ρ) c).arrAt_in 1 rfl _).trans (A_eq6 (V13 m ρ) c 1))
    | exact (W14_arr m ρ c 2).trans (((dat6 (V13 m ρ) c).arrAt_in 2 rfl _).trans (A_eq6 (V13 m ρ) c 2))

/-- Stretch `hostOps7` writes none of them. -/
theorem keep15 : ∀ b ∈ carried, W15 m ρ c (Proc.devRef .tc b) = W14 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals untouched_by hostOps7

/-- Region 7 writes none of them: one that is an input window's array is read, never written back; the others are not
    among the region's arrays at all. -/
theorem keep16 : ∀ b ∈ carried, W16 m ρ c (Proc.devRef .tc b) = W15 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals first
    | exact W16_of_ne m ρ c _ (by decide)
    | exact (W16_arr m ρ c 0).trans (((dat7 (V15 m ρ) c).arrAt_in 0 rfl _).trans (A_eq7 (V15 m ρ) c 0))
    | exact (W16_arr m ρ c 1).trans (((dat7 (V15 m ρ) c).arrAt_in 1 rfl _).trans (A_eq7 (V15 m ρ) c 1))
    | exact (W16_arr m ρ c 2).trans (((dat7 (V15 m ρ) c).arrAt_in 2 rfl _).trans (A_eq7 (V15 m ρ) c 2))

/-- Stretch `hostOps8` writes none of them. -/
theorem keep17 : ∀ b ∈ carried, W17 m ρ c (Proc.devRef .tc b) = W16 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl | rfl | rfl | rfl | rfl | rfl
  all_goals untouched_by hostOps8

/-- An argument array, when the first region is entered, is the launch memory's. -/
theorem arg_at3 : ∀ b ∈ argRefs, W3 m ρ c (Proc.devRef .tc b) = m ((c : Thread nD τ).loc b) :=
  fun b hb => (keep3 m ρ c b hb).trans ((keep2 m ρ c b hb).trans ((keep1 m ρ c b hb).trans rfl))

/-- Through a whole prefix of @main: at boundary 4 each carried buffer still holds what it held at boundary 3. -/
theorem since3_4 : ∀ b ∈ carried, W4 m ρ c (Proc.devRef .tc b) = W3 m ρ c (Proc.devRef .tc b) := keep4 m ρ c
theorem since3_5 : ∀ b ∈ carried, W5 m ρ c (Proc.devRef .tc b) = W3 m ρ c (Proc.devRef .tc b) :=
  fun b hb => (keep5 m ρ c b hb).trans (since3_4 m ρ c b hb)
theorem since3_6 : ∀ b ∈ carried, W6 m ρ c (Proc.devRef .tc b) = W3 m ρ c (Proc.devRef .tc b) :=
  fun b hb => (keep6 m ρ c b hb).trans (since3_5 m ρ c b hb)
theorem since3_7 : ∀ b ∈ carried, W7 m ρ c (Proc.devRef .tc b) = W3 m ρ c (Proc.devRef .tc b) :=
  fun b hb => (keep7 m ρ c b hb).trans (since3_6 m ρ c b hb)
theorem since3_8 : ∀ b ∈ carried, W8 m ρ c (Proc.devRef .tc b) = W3 m ρ c (Proc.devRef .tc b) :=
  fun b hb => (keep8 m ρ c b hb).trans (since3_7 m ρ c b hb)
theorem since3_9 : ∀ b ∈ carried, W9 m ρ c (Proc.devRef .tc b) = W3 m ρ c (Proc.devRef .tc b) :=
  fun b hb => (keep9 m ρ c b hb).trans (since3_8 m ρ c b hb)
theorem since3_10 : ∀ b ∈ carried, W10 m ρ c (Proc.devRef .tc b) = W3 m ρ c (Proc.devRef .tc b) :=
  fun b hb => (keep10 m ρ c b hb).trans (since3_9 m ρ c b hb)
theorem since3_11 : ∀ b ∈ carried, W11 m ρ c (Proc.devRef .tc b) = W3 m ρ c (Proc.devRef .tc b) :=
  fun b hb => (keep11 m ρ c b hb).trans (since3_10 m ρ c b hb)
theorem since3_12 : ∀ b ∈ carried, W12 m ρ c (Proc.devRef .tc b) = W3 m ρ c (Proc.devRef .tc b) :=
  fun b hb => (keep12 m ρ c b hb).trans (since3_11 m ρ c b hb)
theorem since3_13 : ∀ b ∈ carried, W13 m ρ c (Proc.devRef .tc b) = W3 m ρ c (Proc.devRef .tc b) :=
  fun b hb => (keep13 m ρ c b hb).trans (since3_12 m ρ c b hb)
theorem since3_14 : ∀ b ∈ carried, W14 m ρ c (Proc.devRef .tc b) = W3 m ρ c (Proc.devRef .tc b) :=
  fun b hb => (keep14 m ρ c b hb).trans (since3_13 m ρ c b hb)
theorem since3_15 : ∀ b ∈ carried, W15 m ρ c (Proc.devRef .tc b) = W3 m ρ c (Proc.devRef .tc b) :=
  fun b hb => (keep15 m ρ c b hb).trans (since3_14 m ρ c b hb)
theorem since3_16 : ∀ b ∈ carried, W16 m ρ c (Proc.devRef .tc b) = W3 m ρ c (Proc.devRef .tc b) :=
  fun b hb => (keep16 m ρ c b hb).trans (since3_15 m ρ c b hb)
theorem since3_17 : ∀ b ∈ carried, W17 m ρ c (Proc.devRef .tc b) = W3 m ρ c (Proc.devRef .tc b) :=
  fun b hb => (keep17 m ρ c b hb).trans (since3_16 m ρ c b hb)

end Cert.KernelIdeal.Carry

end
-- ==== Proof.LibRowOfVector.lean ====
/-
  A vector laid out as one row, two ways.

  An array of shape `[n]` becomes an array of shape `[1, n]` either by a reshape or by a broadcast that sends its one axis
  to the second axis of the result. Both read, at `(u, j)`, the vector at `j` (the unit coordinate `u` is `0`), so they
  are the same array.
-/
import Idealize.ShloMosaic.Lib.Pipeline.Value
import Idealize.ShloMosaic.Lib.ValueIdx
import Idealize.ShloMosaic.Lib.ValueLayout

noncomputable section

namespace Idealize.ShloMosaic.RowOfVector

open Idealize.ShloMosaic Idealize.ShloMosaic.ValueIdx

/-- An `[n]` array reshaped to `[1, n]` is the same array broadcast along the second axis. -/
theorem shapeCast_eq_broadcastInDim {α : Type} (n : ℕ) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast ⟨2, ![1, n]⟩ x h1 = broadcastInDim ⟨2, ![1, n]⟩ (![1] : Fin 1 → Fin 2) h2 x := by
  funext i
  obtain ⟨u, j, rfl⟩ : ∃ (u : Fin 1) (j : Fin n), i = ix2 u j := ⟨i 0, i 1, eq_ix2 i⟩
  rw [shapeCast_a_1a_apply]
  refine (broadcastInDim_apply _ h2 x (ix2 u j) (ix1 j) (fun a => ?_)).symm
  match a with
  | ⟨0, _⟩ =>
    show j.val = if n = 1 then 0 else j.val
    split
    · have := j.isLt; omega
    · rfl

end Idealize.ShloMosaic.RowOfVector

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.Dense0.lean ====
/-
  Region 0 of the idealized kernel: a dense product tiled over rows.

  The grid has five points; point `t` loads rows `8000 t … 8000 t + 7999` of the left array (all 128 columns) and the
  whole 128×128 weight array, multiplies them (the narrowing to bf16 is the identity on extended reals, the
  accumulator is zero) and writes the 8000×128 block back to the same rows of the output. Entry `(p, q)` of a block is
  `∑ k, left (8000 t + p, k) * weight (k, q)`, which is entry `(8000 t + p, q)` of the whole product: it depends on one
  row of the left array only, so the tiling is invisible. The five blocks cover all 40000 rows, hence after the
  region the output array IS the host's `dot_general` of the two arrays as the region found them.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import proofs.«109360_j82085414961196_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product, spelt as the host spells it. -/
abbrev product (x : S40000x128.Idx → EReal) (w : S128x128.Idx → EReal) : S40000x128.Idx → EReal :=
  Host.dotGeneral (F := Ideal) (φ₁ := .f32) (φ₂ := .f32) Cert.ReferenceIdeal.dot_S40000x128_S128x128_S40000x128_1_0_0_1_n_n none x w

/-- The whole product at `(r, q)` is the sum over the contracted coordinate. -/
theorem product_apply (x : S40000x128.Idx → EReal) (w : S128x128.Idx → EReal) (r : Fin 40000) (q : Fin 128) :
    product x w (ix2 r q) = ∑ k : Fin 128, x (ix2 r k) * w (ix2 k q) :=
  PlainDot.dotGeneral_apply (φ₁ := .f32) (φ₂ := .f32) Cert.ReferenceIdeal.dot_S40000x128_S128x128_S40000x128_1_0_0_1_n_n rfl none .single x w r q

/-- One block's payload at `(p, q)`: the block of rows against the weights. -/
theorem block_apply (xb : Vec Ideal S8000x128 .f32) (wb : Vec Ideal S128x128 .f32) (p : Fin 8000) (q : Fin 128) :
    k0_pay1 xb wb (ix2 p q) = ∑ k : Fin 128, xb (ix2 p k) * wb (ix2 k q) := by
  unfold k0_pay1
  exact PlainDot.matmul_zero_apply (φ₁ := .bf16) (φ₂ := .bf16) dot_S8000x128_S128x128_S8000x128_1_0_0_1_n_n rfl none _ _ p q

/-- The printed index maps over the grid: the left and the output windows move together down the rows, the weight
    window stays put. -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 4 :=
  (by decide +kernel : ∀ t : Fin grid0.N, _)

/-- Every block of rows is some point's. -/
theorem index_onto : ∀ q0 : Fin 5, ∃ t : Fin cfg0.N, win0_2.index t = ![q0.val, 0] :=
  (by decide +kernel : ∀ q0 : Fin 5, ∃ t : Fin grid0.N, win0_2.index t = ![q0.val, 0])

/-- What point `t` writes back is block `t` of the whole product of the arrays as the region finds them. -/
theorem flushed_eq (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zero_offsets]
  simp only [View.ld_unit_zero (S := S8000x128) zero_offsets, View.ld_unit_zero (S := S128x128) zero_offsets]
  obtain ⟨e0, e1, e2, e3, e4, e5⟩ := index_maps t
  show (k0_pay1 (iblk0 V c 0 t) (iblk0 V c 1 t) : S8000x128.Idx → EReal)
      = fun y => product (V c main_arg0) (V c main_arg4) (((cfg0.win 2).blk t).view.emb y)
  funext j
  obtain ⟨p, q, rfl⟩ : ∃ (p : Fin 8000) (q : Fin 128), j = ix2 p q := ⟨j 0, j 1, eq_ix2 j⟩
  have hp : p.val < 8000 := p.isLt
  have hrow : win0_2.index t (0 : Fin 2) * 8000 + p.val < 40000 := by omega
  have hout : ((cfg0.win 2).blk t).view.emb (ix2 p q) = ix2 (⟨win0_2.index t (0 : Fin 2) * 8000 + p.val, hrow⟩ : Fin 40000) q := by
    funext a; apply Fin.ext
    match a with
    | ⟨0, _⟩ => show win0_2.index t (0 : Fin 2) * 8000 + 1 * p.val = win0_2.index t (0 : Fin 2) * 8000 + p.val; omega
    | ⟨1, _⟩ => show win0_2.index t (1 : Fin 2) * 128 + 1 * q.val = q.val; omega
  have hleft : ∀ k : Fin 128, iblk0 V c 0 t (ix2 p k) = V c main_arg0 (ix2 (⟨win0_2.index t (0 : Fin 2) * 8000 + p.val, hrow⟩ : Fin 40000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 8000 + 1 * p.val = win0_2.index t (0 : Fin 2) * 8000 + p.val; omega
    | ⟨1, _⟩ => show win0_0.index t (1 : Fin 2) * 128 + 1 * k.val = k.val; omega
  have hweight : ∀ k : Fin 128, iblk0 V c 1 t (ix2 k q) = V c main_arg4 (ix2 k q) := fun k => by
    show V c main_arg4 (((cfg0.win 1).blk t).view.emb (ix2 k q)) = _
    refine congrArg (V c main_arg4) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  refine (block_apply (iblk0 V c 0 t) (iblk0 V c 1 t) p q).trans ?_
  rw [hout]
  refine Eq.trans ?_ (product_apply (V c main_arg0) (V c main_arg4) _ q).symm
  exact Finset.sum_congr rfl fun k _ => by rw [hleft k, hweight k]

/-- An index of the output array is in point `t`'s block iff each coordinate is in the block's range. -/
theorem mem_block (t : Fin cfg0.N) (i : S40000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v33).slice (win0_2.rect t)).set ↔ _
  rw [View.set_slice_whole, Rect.mem_set_unit]
  exact Iff.rfl

/-- The five blocks of rows cover the output array. -/
theorem covered (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  obtain ⟨t, ht⟩ := index_onto ⟨(i 0).val / 8000, by omega⟩
  have q0 : win0_2.index t (0 : Fin 2) = (i 0).val / 8000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- After the region the output array is the whole product of the two input arrays as the region found them. -/
theorem final (c : Dev nD) : (dat0 V c).arrAt 2 cfg0.N = product (V c main_arg0) (V c main_arg4) :=
  (dat0 V c).arrAt_eq_of_cover 2 (product (V c main_arg0) (V c main_arg4)) (fun t _ => flushed_eq V c t) (covered)

end Cert.KernelIdeal.Dense0

end
-- ==== Proof.BiasAct1.lean ====
/-
  Region 1 of the idealized kernel: a bias row added to every row, then the leaky rectifier, tiled over rows.

  The grid has five points; point `t` loads rows `8000 t … 8000 t + 7999` of the 40000×128 array and the one 1×128 bias
  row, and writes back, at `(p, q)`, `v = x (8000 t + p, q) + b (0, q)` passed through `v ↦ if v > 0 then v else 0.01f · v`. That is
  entry `(8000 t + p, q)` of the same pointwise expression over the whole array, so the five blocks, which cover all rows,
  leave in the output array the host's spelling of it: the bias broadcast over the rows, the sum, the comparison with zero, the product with the slope and the selection.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasAct1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row spread over all rows, as the host spells it. -/
def spread (b : S1x128.Idx → EReal) : S40000x128.Idx → EReal :=
  broadcastInDim S40000x128 ![0, 1] Cert.ReferenceIdeal.Gen.bcast_S1x128_S40000x128_0_1 b

/-- A scalar constant spread over the whole array, as the host spells it. -/
def splat (w : BitVec 32) : S40000x128.Idx → EReal :=
  broadcastInDim S40000x128 ![] Cert.ReferenceIdeal.Gen.bcast_S_S40000x128 (constant (F := Ideal) S_ .f32 w)

/-- What the region computes of the whole arrays, in the host's operations. -/
def whole (x : S40000x128.Idx → EReal) (b : S1x128.Idx → EReal) : S40000x128.Idx → EReal :=
  select (cmpf (F := Ideal) (φ := .f32) .ogt (addf (F := Ideal) (φ := .f32) x (spread b)) (splat 0x00000000#32)) (addf (F := Ideal) (φ := .f32) x (spread b))
    (mulf (F := Ideal) (φ := .f32) (splat 0x3C23D70A#32) (addf (F := Ideal) (φ := .f32) x (spread b)))

/-- The same at one entry, as a function of the one sum `v`. -/
def atEntry (v : EReal) : EReal :=
  Scalar.select (FloatOps.cmpf (F := Ideal) (φ := .f32) .ogt v (Ideal.ofBits .f32 0x00000000#32)) v (Ideal.ofBits .f32 0x3C23D70A#32 * v)

theorem spread_apply (b : S1x128.Idx → EReal) (r : Fin 40000) (q : Fin 128) : spread b (ix2 r q) = b (ix2 (0 : Fin 1) q) := by
  unfold spread
  exact broadcastInDim_apply _ Cert.ReferenceIdeal.Gen.bcast_S1x128_S40000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

theorem splat_apply (w : BitVec 32) (i : S40000x128.Idx) : splat w i = Ideal.ofBits .f32 w := by
  unfold splat
  exact broadcastInDim_apply _ Cert.ReferenceIdeal.Gen.bcast_S_S40000x128 (constant (F := Ideal) S_ .f32 w) i ix0 (fun a => a.elim0)

/-- The whole-array expression at `(r, q)`. -/
theorem whole_apply (x : S40000x128.Idx → EReal) (b : S1x128.Idx → EReal) (r : Fin 40000) (q : Fin 128) :
    whole x b (ix2 r q) = atEntry (x (ix2 r q) + b (ix2 (0 : Fin 1) q)) := by
  unfold whole atEntry
  show Scalar.select (FloatOps.cmpf (F := Ideal) (φ := .f32) .ogt (x (ix2 r q) + spread b (ix2 r q)) (splat 0x00000000#32 (ix2 r q))) (x (ix2 r q) + spread b (ix2 r q)) (splat 0x3C23D70A#32 (ix2 r q) * (x (ix2 r q) + spread b (ix2 r q))) = _
  rw [spread_apply, splat_apply, splat_apply]

/-- One block's payload at `(p, q)`. -/
theorem block_apply (xb : Vec Ideal S8000x128 .f32) (bb : Vec Ideal S1x128 .f32) (p : Fin 8000) (q : Fin 128) :
    k1_pay1 xb bb (ix2 p q) = atEntry (xb (ix2 p q) + bb (ix2 (0 : Fin 1) q)) := by
  have hrow : broadcastTo S8000x128 (shapeCast S1x128 bb shapeCasts_S1x128_S1x128) broadcasts_S1x128_S8000x128 (ix2 p q) = bb (ix2 (0 : Fin 1) q) := by
    rw [broadcastTo_1b_ab_apply, shapeCast_self]
  have hx : shapeCast S8000x128 xb shapeCasts_S8000x128_S8000x128 (ix2 p q) = xb (ix2 p q) := by rw [shapeCast_self]
  unfold k1_pay1 atEntry
  show Scalar.select (FloatOps.cmpf (F := Ideal) (φ := .f32) .ogt
      (shapeCast S8000x128 xb shapeCasts_S8000x128_S8000x128 (ix2 p q) + broadcastTo S8000x128 (shapeCast S1x128 bb shapeCasts_S1x128_S1x128) broadcasts_S1x128_S8000x128 (ix2 p q)) (Ideal.ofBits .f32 0x00000000#32))
      (shapeCast S8000x128 xb shapeCasts_S8000x128_S8000x128 (ix2 p q) + broadcastTo S8000x128 (shapeCast S1x128 bb shapeCasts_S1x128_S1x128) broadcasts_S1x128_S8000x128 (ix2 p q))
      (Ideal.ofBits .f32 0x3C23D70A#32 * (shapeCast S8000x128 xb shapeCasts_S8000x128_S8000x128 (ix2 p q) + broadcastTo S8000x128 (shapeCast S1x128 bb shapeCasts_S1x128_S1x128) broadcasts_S1x128_S8000x128 (ix2 p q))) = _
  rw [hrow, hx]

/-- The printed index maps over the grid: the array and the output windows move together down the rows, the bias
    window stays put. -/
theorem index_maps : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

/-- Every block of rows is some point's. -/
theorem index_onto : ∀ q0 : Fin 5, ∃ t : Fin cfg1.N, win1_2.index t = ![q0.val, 0] :=
  (by decide +kernel : ∀ q0 : Fin 5, ∃ t : Fin grid1.N, win1_2.index t = ![q0.val, 0])

/-- What point `t` writes back is block `t` of the whole-array expression of the arrays as the region finds them. -/
theorem flushed_eq (c : Dev nD) (t : Fin cfg1.N) :
    (dat1 V c).flushed 2 t = ((cfg1.win 2).blk t).view.read (Elt Ideal) (whole (V c main_v45) (V c main_v46)) := by
  show (cfg1.win 2).cut (grid1.coords t) ((dat1 V c).after 2 t) = _
  rw [after1_2]
  unfold out1_2
  rw [View.canon_unit_zero zero_offsets]
  simp only [View.ld_unit_zero (S := S8000x128) zero_offsets, View.ld_unit_zero (S := S1x128) zero_offsets]
  obtain ⟨e0, e1, e2, e3, e4, e5⟩ := index_maps t
  show (k1_pay1 (iblk1 V c 0 t) (iblk1 V c 1 t) : S8000x128.Idx → EReal)
      = fun y => whole (V c main_v45) (V c main_v46) (((cfg1.win 2).blk t).view.emb y)
  funext j
  obtain ⟨p, q, rfl⟩ : ∃ (p : Fin 8000) (q : Fin 128), j = ix2 p q := ⟨j 0, j 1, eq_ix2 j⟩
  have hp : p.val < 8000 := p.isLt
  have hrow : win1_2.index t (0 : Fin 2) * 8000 + p.val < 40000 := by omega
  have hout : ((cfg1.win 2).blk t).view.emb (ix2 p q) = ix2 (⟨win1_2.index t (0 : Fin 2) * 8000 + p.val, hrow⟩ : Fin 40000) q := by
    funext a; apply Fin.ext
    match a with
    | ⟨0, _⟩ => show win1_2.index t (0 : Fin 2) * 8000 + 1 * p.val = win1_2.index t (0 : Fin 2) * 8000 + p.val; omega
    | ⟨1, _⟩ => show win1_2.index t (1 : Fin 2) * 128 + 1 * q.val = q.val; omega
  have hx : iblk1 V c 0 t (ix2 p q) = V c main_v45 (ix2 (⟨win1_2.index t (0 : Fin 2) * 8000 + p.val, hrow⟩ : Fin 40000) q) := by
    show V c main_v45 (((cfg1.win 0).blk t).view.emb (ix2 p q)) = _
    refine congrArg (V c main_v45) ?_
    funext a; apply Fin.ext
    match a with
    | ⟨0, _⟩ => show win1_0.index t (0 : Fin 2) * 8000 + 1 * p.val = win1_2.index t (0 : Fin 2) * 8000 + p.val; omega
    | ⟨1, _⟩ => show win1_0.index t (1 : Fin 2) * 128 + 1 * q.val = q.val; omega
  have hb : iblk1 V c 1 t (ix2 (0 : Fin 1) q) = V c main_v46 (ix2 (0 : Fin 1) q) := by
    show V c main_v46 (((cfg1.win 1).blk t).view.emb (ix2 (0 : Fin 1) q)) = _
    refine congrArg (V c main_v46) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  refine (block_apply (iblk1 V c 0 t) (iblk1 V c 1 t) p q).trans ?_
  rw [hout, whole_apply, hx, hb]

/-- An index of the output array is in point `t`'s block iff each coordinate is in the block's range. -/
theorem mem_block (t : Fin cfg1.N) (i : S40000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v47).slice (win1_2.rect t)).set ↔ _
  rw [View.set_slice_whole, Rect.mem_set_unit]
  exact Iff.rfl

/-- The five blocks of rows cover the output array. -/
theorem covered (i : S40000x128.Idx) :
    ∃ t : Fin cfg1.N, (cfg1.win 2).flush t = true ∧ i ∈ ((cfg1.win 2).blk t).view.set := by
  have hi0 : (i 0).val < 40000 := (i 0).isLt
  have hi1 : (i 1).val < 128 := (i 1).isLt
  obtain ⟨t, ht⟩ := index_onto ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- After the region the output array is the whole-array expression of the two input arrays as the region found them. -/
theorem final (c : Dev nD) : (dat1 V c).arrAt 2 cfg1.N = whole (V c main_v45) (V c main_v46) :=
  (dat1 V c).arrAt_eq_of_cover 2 (whole (V c main_v45) (V c main_v46)) (fun t _ => flushed_eq V c t) (covered)

end Cert.KernelIdeal.BiasAct1

end
-- ==== Proof.Dense2.lean ====
/-
  Region 2 of the idealized kernel: a dense product tiled over rows.

  The grid has five points; point `t` loads rows `8000 t … 8000 t + 7999` of the left array (all 128 columns) and the
  whole 128×128 weight array, multiplies them (a reshape to the same shape and the narrowing to bf16 are the identity on extended reals, the
  accumulator is zero) and writes the 8000×128 block back to the same rows of the output. Entry `(p, q)` of a block is
  `∑ k, left (8000 t + p, k) * weight (k, q)`, which is entry `(8000 t + p, q)` of the whole product: it depends on one
  row of the left array only, so the tiling is invisible. The five blocks cover all 40000 rows, hence after the
  region the output array IS the host's `dot_general` of the two arrays as the region found them.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import proofs.«109360_j82085414961196_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product, spelt as the host spells it. -/
abbrev product (x : S40000x128.Idx → EReal) (w : S128x128.Idx → EReal) : S40000x128.Idx → EReal :=
  Host.dotGeneral (F := Ideal) (φ₁ := .f32) (φ₂ := .f32) Cert.ReferenceIdeal.dot_S40000x128_S128x128_S40000x128_1_0_0_1_n_n none x w

/-- The whole product at `(r, q)` is the sum over the contracted coordinate. -/
theorem product_apply (x : S40000x128.Idx → EReal) (w : S128x128.Idx → EReal) (r : Fin 40000) (q : Fin 128) :
    product x w (ix2 r q) = ∑ k : Fin 128, x (ix2 r k) * w (ix2 k q) :=
  PlainDot.dotGeneral_apply (φ₁ := .f32) (φ₂ := .f32) Cert.ReferenceIdeal.dot_S40000x128_S128x128_S40000x128_1_0_0_1_n_n rfl none .single x w r q

/-- One block's payload at `(p, q)`: the block of rows against the weights. -/
theorem block_apply (xb : Vec Ideal S8000x128 .f32) (wb : Vec Ideal S128x128 .f32) (p : Fin 8000) (q : Fin 128) :
    k2_pay1 xb wb (ix2 p q) = ∑ k : Fin 128, xb (ix2 p k) * wb (ix2 k q) := by
  have hmm : matmul (F := Ideal) dot_S8000x128_S128x128_S8000x128_1_0_0_1_n_n none (truncf .bf16 (shapeCast S8000x128 xb shapeCasts_S8000x128_S8000x128) bitsLt_bf16_f32) (truncf .bf16 wb bitsLt_bf16_f32) (constant S8000x128 .f32 0x00000000#32) (ix2 p q) = ∑ k : Fin 128, xb (ix2 p k) * wb (ix2 k q) := by
    rw [shapeCast_self]
    exact PlainDot.matmul_zero_apply (φ₁ := .bf16) (φ₂ := .bf16) dot_S8000x128_S128x128_S8000x128_1_0_0_1_n_n rfl none _ _ p q
  unfold k2_pay1
  exact hmm

/-- The printed index maps over the grid: the left and the output windows move together down the rows, the weight
    window stays put. -/
theorem index_maps : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 4 :=
  (by decide +kernel : ∀ t : Fin grid2.N, _)

/-- Every block of rows is some point's. -/
theorem index_onto : ∀ q0 : Fin 5, ∃ t : Fin cfg2.N, win2_2.index t = ![q0.val, 0] :=
  (by decide +kernel : ∀ q0 : Fin 5, ∃ t : Fin grid2.N, win2_2.index t = ![q0.val, 0])

/-- What point `t` writes back is block `t` of the whole product of the arrays as the region finds them. -/
theorem flushed_eq (c : Dev nD) (t : Fin cfg2.N) :
    (dat2 V c).flushed 2 t = ((cfg2.win 2).blk t).view.read (Elt Ideal) (product (V c main_v47) (V c main_arg6)) := by
  show (cfg2.win 2).cut (grid2.coords t) ((dat2 V c).after 2 t) = _
  rw [after2_2]
  unfold out2_2
  rw [View.canon_unit_zero zero_offsets]
  simp only [View.ld_unit_zero (S := S8000x128) zero_offsets, View.ld_unit_zero (S := S128x128) zero_offsets]
  obtain ⟨e0, e1, e2, e3, e4, e5⟩ := index_maps t
  show (k2_pay1 (iblk2 V c 0 t) (iblk2 V c 1 t) : S8000x128.Idx → EReal)
      = fun y => product (V c main_v47) (V c main_arg6) (((cfg2.win 2).blk t).view.emb y)
  funext j
  obtain ⟨p, q, rfl⟩ : ∃ (p : Fin 8000) (q : Fin 128), j = ix2 p q := ⟨j 0, j 1, eq_ix2 j⟩
  have hp : p.val < 8000 := p.isLt
  have hrow : win2_2.index t (0 : Fin 2) * 8000 + p.val < 40000 := by omega
  have hout : ((cfg2.win 2).blk t).view.emb (ix2 p q) = ix2 (⟨win2_2.index t (0 : Fin 2) * 8000 + p.val, hrow⟩ : Fin 40000) q := by
    funext a; apply Fin.ext
    match a with
    | ⟨0, _⟩ => show win2_2.index t (0 : Fin 2) * 8000 + 1 * p.val = win2_2.index t (0 : Fin 2) * 8000 + p.val; omega
    | ⟨1, _⟩ => show win2_2.index t (1 : Fin 2) * 128 + 1 * q.val = q.val; omega
  have hleft : ∀ k : Fin 128, iblk2 V c 0 t (ix2 p k) = V c main_v47 (ix2 (⟨win2_2.index t (0 : Fin 2) * 8000 + p.val, hrow⟩ : Fin 40000) k) := fun k => by
    show V c main_v47 (((cfg2.win 0).blk t).view.emb (ix2 p k)) = _
    refine congrArg (V c main_v47) ?_
    funext a; apply Fin.ext
    match a with
    | ⟨0, _⟩ => show win2_0.index t (0 : Fin 2) * 8000 + 1 * p.val = win2_2.index t (0 : Fin 2) * 8000 + p.val; omega
    | ⟨1, _⟩ => show win2_0.index t (1 : Fin 2) * 128 + 1 * k.val = k.val; omega
  have hweight : ∀ k : Fin 128, iblk2 V c 1 t (ix2 k q) = V c main_arg6 (ix2 k q) := fun k => by
    show V c main_arg6 (((cfg2.win 1).blk t).view.emb (ix2 k q)) = _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  refine (block_apply (iblk2 V c 0 t) (iblk2 V c 1 t) p q).trans ?_
  rw [hout]
  refine Eq.trans ?_ (product_apply (V c main_v47) (V c main_arg6) _ q).symm
  exact Finset.sum_congr rfl fun k _ => by rw [hleft k, hweight k]

/-- An index of the output array is in point `t`'s block iff each coordinate is in the block's range. -/
theorem mem_block (t : Fin cfg2.N) (i : S40000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v48).slice (win2_2.rect t)).set ↔ _
  rw [View.set_slice_whole, Rect.mem_set_unit]
  exact Iff.rfl

/-- The five blocks of rows cover the output array. -/
theorem covered (i : S40000x128.Idx) :
    ∃ t : Fin cfg2.N, (cfg2.win 2).flush t = true ∧ i ∈ ((cfg2.win 2).blk t).view.set := by
  have hi0 : (i 0).val < 40000 := (i 0).isLt
  have hi1 : (i 1).val < 128 := (i 1).isLt
  obtain ⟨t, ht⟩ := index_onto ⟨(i 0).val / 8000, by omega⟩
  have q0 : win2_2.index t (0 : Fin 2) = (i 0).val / 8000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

/-- After the region the output array is the whole product of the two input arrays as the region found them. -/
theorem final (c : Dev nD) : (dat2 V c).arrAt 2 cfg2.N = product (V c main_v47) (V c main_arg6) :=
  (dat2 V c).arrAt_eq_of_cover 2 (product (V c main_v47) (V c main_arg6)) (fun t _ => flushed_eq V c t) (covered)

end Cert.KernelIdeal.Dense2

end
-- ==== Proof.BiasAct3.lean ====
/-
  Region 3 of the idealized kernel: a bias row added to every row, then the leaky rectifier, tiled over rows.

  The grid has five points; point `t` loads rows `8000 t … 8000 t + 7999` of the 40000×128 array and the one 1×128 bias
  row, and writes back, at `(p, q)`, `v = x (8000 t + p, q) + b (0, q)` passed through `v ↦ if v > 0 then v else 0.01f · v`. That is
  entry `(8000 t + p, q)` of the same pointwise expression over the whole array, so the five blocks, which cover all rows,
  leave in the output array the host's spelling of it: the bias broadcast over the rows, the sum, the comparison with zero, the product with the slope and the selection.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasAct3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row spread over all rows, as the host spells it. -/
def spread (b : S1x128.Idx → EReal) : S40000x128.Idx → EReal :=
  broadcastInDim S40000x128 ![0, 1] Cert.ReferenceIdeal.Gen.bcast_S1x128_S40000x128_0_1 b

/-- A scalar constant spread over the whole array, as the host spells it. -/
def splat (w : BitVec 32) : S40000x128.Idx → EReal :=
  broadcastInDim S40000x128 ![] Cert.ReferenceIdeal.Gen.bcast_S_S40000x128 (constant (F := Ideal) S_ .f32 w)

/-- What the region computes of the whole arrays, in the host's operations. -/
def whole (x : S40000x128.Idx → EReal) (b : S1x128.Idx → EReal) : S40000x128.Idx → EReal :=
  select (cmpf (F := Ideal) (φ := .f32) .ogt (addf (F := Ideal) (φ := .f32) x (spread b)) (splat 0x00000000#32)) (addf (F := Ideal) (φ := .f32) x (spread b))
    (mulf (F := Ideal) (φ := .f32) (splat 0x3C23D70A#32) (addf (F := Ideal) (φ := .f32) x (spread b)))

/-- The same at one entry, as a function of the one sum `v`. -/
def atEntry (v : EReal) : EReal :=
  Scalar.select (FloatOps.cmpf (F := Ideal) (φ := .f32) .ogt v (Ideal.ofBits .f32 0x00000000#32)) v (Ideal.ofBits .f32 0x3C23D70A#32 * v)

theorem spread_apply (b : S1x128.Idx → EReal) (r : Fin 40000) (q : Fin 128) : spread b (ix2 r q) = b (ix2 (0 : Fin 1) q) := by
  unfold spread
  exact broadcastInDim_apply _ Cert.ReferenceIdeal.Gen.bcast_S1x128_S40000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

theorem splat_apply (w : BitVec 32) (i : S40000x128.Idx) : splat w i = Ideal.ofBits .f32 w := by
  unfold splat
  exact broadcastInDim_apply _ Cert.ReferenceIdeal.Gen.bcast_S_S40000x128 (constant (F := Ideal) S_ .f32 w) i ix0 (fun a => a.elim0)

/-- The whole-array expression at `(r, q)`. -/
theorem whole_apply (x : S40000x128.Idx → EReal) (b : S1x128.Idx → EReal) (r : Fin 40000) (q : Fin 128) :
    whole x b (ix2 r q) = atEntry (x (ix2 r q) + b (ix2 (0 : Fin 1) q)) := by
  unfold whole atEntry
  show Scalar.select (FloatOps.cmpf (F := Ideal) (φ := .f32) .ogt (x (ix2 r q) + spread b (ix2 r q)) (splat 0x00000000#32 (ix2 r q))) (x (ix2 r q) + spread b (ix2 r q)) (splat 0x3C23D70A#32 (ix2 r q) * (x (ix2 r q) + spread b (ix2 r q))) = _
  rw [spread_apply, splat_apply, splat_apply]

/-- One block's payload at `(p, q)`. -/
theorem block_apply (xb : Vec Ideal S8000x128 .f32) (bb : Vec Ideal S1x128 .f32) (p : Fin 8000) (q : Fin 128) :
    k3_pay1 xb bb (ix2 p q) = atEntry (xb (ix2 p q) + bb (ix2 (0 : Fin 1) q)) := by
  have hrow : broadcastTo S8000x128 (shapeCast S1x128 bb shapeCasts_S1x128_S1x128) broadcasts_S1x128_S8000x128 (ix2 p q) = bb (ix2 (0 : Fin 1) q) := by
    rw [broadcastTo_1b_ab_apply, shapeCast_self]
  have hx : shapeCast S8000x128 xb shapeCasts_S8000x128_S8000x128 (ix2 p q) = xb (ix2 p q) := by rw [shapeCast_self]
  unfold k3_pay1 atEntry
  show Scalar.select (FloatOps.cmpf (F := Ideal) (φ := .f32) .ogt
      (shapeCast S8000x128 xb shapeCasts_S8000x128_S8000x128 (ix2 p q) + broadcastTo S8000x128 (shapeCast S1x128 bb shapeCasts_S1x128_S1x128) broadcasts_S1x128_S8000x128 (ix2 p q)) (Ideal.ofBits .f32 0x00000000#32))
      (shapeCast S8000x128 xb shapeCasts_S8000x128_S8000x128 (ix2 p q) + broadcastTo S8000x128 (shapeCast S1x128 bb shapeCasts_S1x128_S1x128) broadcasts_S1x128_S8000x128 (ix2 p q))
      (Ideal.ofBits .f32 0x3C23D70A#32 * (shapeCast S8000x128 xb shapeCasts_S8000x128_S8000x128 (ix2 p q) + broadcastTo S8000x128 (shapeCast S1x128 bb shapeCasts_S1x128_S1x128) broadcasts_S1x128_S8000x128 (ix2 p q))) = _
  rw [hrow, hx]

/-- The printed index maps over the grid: the array and the output windows move together down the rows, the bias
    window stays put. -/
theorem index_maps : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 4 :=
  (by decide +kernel : ∀ t : Fin grid3.N, _)

/-- Every block of rows is some point's. -/
theorem index_onto : ∀ q0 : Fin 5, ∃ t : Fin cfg3.N, win3_2.index t = ![q0.val, 0] :=
  (by decide +kernel : ∀ q0 : Fin 5, ∃ t : Fin grid3.N, win3_2.index t = ![q0.val, 0])

/-- What point `t` writes back is block `t` of the whole-array expression of the arrays as the region finds them. -/
theorem flushed_eq (c : Dev nD) (t : Fin cfg3.N) :
    (dat3 V c).flushed 2 t = ((cfg3.win 2).blk t).view.read (Elt Ideal) (whole (V c main_v60) (V c main_v61)) := by
  show (cfg3.win 2).cut (grid3.coords t) ((dat3 V c).after 2 t) = _
  rw [after3_2]
  unfold out3_2
  rw [View.canon_unit_zero zero_offsets]
  simp only [View.ld_unit_zero (S := S8000x128) zero_offsets, View.ld_unit_zero (S := S1x128) zero_offsets]
  obtain ⟨e0, e1, e2, e3, e4, e5⟩ := index_maps t
  show (k3_pay1 (iblk3 V c 0 t) (iblk3 V c 1 t) : S8000x128.Idx → EReal)
      = fun y => whole (V c main_v60) (V c main_v61) (((cfg3.win 2).blk t).view.emb y)
  funext j
  obtain ⟨p, q, rfl⟩ : ∃ (p : Fin 8000) (q : Fin 128), j = ix2 p q := ⟨j 0, j 1, eq_ix2 j⟩
  have hp : p.val < 8000 := p.isLt
  have hrow : win3_2.index t (0 : Fin 2) * 8000 + p.val < 40000 := by omega
  have hout : ((cfg3.win 2).blk t).view.emb (ix2 p q) = ix2 (⟨win3_2.index t (0 : Fin 2) * 8000 + p.val, hrow⟩ : Fin 40000) q := by
    funext a; apply Fin.ext
    match a with
    | ⟨0, _⟩ => show win3_2.index t (0 : Fin 2) * 8000 + 1 * p.val = win3_2.index t (0 : Fin 2) * 8000 + p.val; omega
    | ⟨1, _⟩ => show win3_2.index t (1 : Fin 2) * 128 + 1 * q.val = q.val; omega
  have hx : iblk3 V c 0 t (ix2 p q) = V c main_v60 (ix2 (⟨win3_2.index t (0 : Fin 2) * 8000 + p.val, hrow⟩ : Fin 40000) q) := by
    show V c main_v60 (((cfg3.win 0).blk t).view.emb (ix2 p q)) = _
    refine congrArg (V c main_v60) ?_
    funext a; apply Fin.ext
    match a with
    | ⟨0, _⟩ => show win3_0.index t (0 : Fin 2) * 8000 + 1 * p.val = win3_2.index t (0 : Fin 2) * 8000 + p.val; omega
    | ⟨1, _⟩ => show win3_0.index t (1 : Fin 2) * 128 + 1 * q.val = q.val; omega
  have hb : iblk3 V c 1 t (ix2 (0 : Fin 1) q) = V c main_v61 (ix2 (0 : Fin 1) q) := by
    show V c main_v61 (((cfg3.win 1).blk t).view.emb (ix2 (0 : Fin 1) q)) = _
    refine congrArg (V c main_v61) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  refine (block_apply (iblk3 V c 0 t) (iblk3 V c 1 t) p q).trans ?_
  rw [hout, whole_apply, hx, hb]

/-- An index of the output array is in point `t`'s block iff each coordinate is in the block's range. -/
theorem mem_block (t : Fin cfg3.N) (i : S40000x128.Idx) :
    i ∈ ((cfg3.win 2).blk t).view.set ↔ ∀ a : Fin 2, win3_2.index t a * S8000x128.size a ≤ (i a).val ∧ (i a).val < win3_2.index t a * S8000x128.size a + S8000x128.size a := by
  show i ∈ ((View.whole main_v62).slice (win3_2.rect t)).set ↔ _
  rw [View.set_slice_whole, Rect.mem_set_unit]
  exact Iff.rfl

/-- The five blocks of rows cover the output array. -/
theorem covered (i : S40000x128.Idx) :
    ∃ t : Fin cfg3.N, (cfg3.win 2).flush t = true ∧ i ∈ ((cfg3.win 2).blk t).view.set := by
  have hi0 : (i 0).val < 40000 := (i 0).isLt
  have hi1 : (i 1).val < 128 := (i 1).isLt
  obtain ⟨t, ht⟩ := index_onto ⟨(i 0).val / 8000, by omega⟩
  have q0 : win3_2.index t (0 : Fin 2) = (i 0).val / 8000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 128 ≤ (i 1).val ∧ (i 1).val < win3_2.index t (1 : Fin 2) * 128 + 128; omega

/-- After the region the output array is the whole-array expression of the two input arrays as the region found them. -/
theorem final (c : Dev nD) : (dat3 V c).arrAt 2 cfg3.N = whole (V c main_v60) (V c main_v61) :=
  (dat3 V c).arrAt_eq_of_cover 2 (whole (V c main_v60) (V c main_v61)) (fun t _ => flushed_eq V c t) (covered)

end Cert.KernelIdeal.BiasAct3

end
-- ==== Proof.Dense4.lean ====
/-
  Region 4 of the idealized kernel: a dense product tiled over rows.

  The grid has five points; point `t` loads rows `8000 t … 8000 t + 7999` of the left array (all 128 columns) and the
  whole 128×128 weight array, multiplies them (a reshape to the same shape and the narrowing to bf16 are the identity on extended reals, the
  accumulator is zero) and writes the 8000×128 block back to the same rows of the output. Entry `(p, q)` of a block is
  `∑ k, left (8000 t + p, k) * weight (k, q)`, which is entry `(8000 t + p, q)` of the whole product: it depends on one
  row of the left array only, so the tiling is invisible. The five blocks cover all 40000 rows, hence after the
  region the output array IS the host's `dot_general` of the two arrays as the region found them.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import proofs.«109360_j82085414961196_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Dense4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product, spelt as the host spells it. -/
abbrev product (x : S40000x128.Idx → EReal) (w : S128x128.Idx → EReal) : S40000x128.Idx → EReal :=
  Host.dotGeneral (F := Ideal) (φ₁ := .f32) (φ₂ := .f32) Cert.ReferenceIdeal.dot_S40000x128_S128x128_S40000x128_1_0_0_1_n_n none x w

/-- The whole product at `(r, q)` is the sum over the contracted coordinate. -/
theorem product_apply (x : S40000x128.Idx → EReal) (w : S128x128.Idx → EReal) (r : Fin 40000) (q : Fin 128) :
    product x w (ix2 r q) = ∑ k : Fin 128, x (ix2 r k) * w (ix2 k q) :=
  PlainDot.dotGeneral_apply (φ₁ := .f32) (φ₂ := .f32) Cert.ReferenceIdeal.dot_S40000x128_S128x128_S40000x128_1_0_0_1_n_n rfl none .single x w r q

/-- One block's payload at `(p, q)`: the block of rows against the weights. -/
theorem block_apply (xb : Vec Ideal S8000x128 .f32) (wb : Vec Ideal S128x128 .f32) (p : Fin 8000) (q : Fin 128) :
    k4_pay1 xb wb (ix2 p q) = ∑ k : Fin 128, xb (ix2 p k) * wb (ix2 k q) := by
  have hmm : matmul (F := Ideal) dot_S8000x128_S128x128_S8000x128_1_0_0_1_n_n none (truncf .bf16 (shapeCast S8000x128 xb shapeCasts_S8000x128_S8000x128) bitsLt_bf16_f32) (truncf .bf16 wb bitsLt_bf16_f32) (constant S8000x128 .f32 0x00000000#32) (ix2 p q) = ∑ k : Fin 128, xb (ix2 p k) * wb (ix2 k q) := by
    rw [shapeCast_self]
    exact PlainDot.matmul_zero_apply (φ₁ := .bf16) (φ₂ := .bf16) dot_S8000x128_S128x128_S8000x128_1_0_0_1_n_n rfl none _ _ p q
  unfold k4_pay1
  exact hmm

/-- The printed index maps over the grid: the left and the output windows move together down the rows, the weight
    window stays put. -/
theorem index_maps : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 4 :=
  (by decide +kernel : ∀ t : Fin grid4.N, _)

/-- Every block of rows is some point's. -/
theorem index_onto : ∀ q0 : Fin 5, ∃ t : Fin cfg4.N, win4_2.index t = ![q0.val, 0] :=
  (by decide +kernel : ∀ q0 : Fin 5, ∃ t : Fin grid4.N, win4_2.index t = ![q0.val, 0])

/-- What point `t` writes back is block `t` of the whole product of the arrays as the region finds them. -/
theorem flushed_eq (c : Dev nD) (t : Fin cfg4.N) :
    (dat4 V c).flushed 2 t = ((cfg4.win 2).blk t).view.read (Elt Ideal) (product (V c main_v62) (V c main_arg8)) := by
  show (cfg4.win 2).cut (grid4.coords t) ((dat4 V c).after 2 t) = _
  rw [after4_2]
  unfold out4_2
  rw [View.canon_unit_zero zero_offsets]
  simp only [View.ld_unit_zero (S := S8000x128) zero_offsets, View.ld_unit_zero (S := S128x128) zero_offsets]
  obtain ⟨e0, e1, e2, e3, e4, e5⟩ := index_maps t
  show (k4_pay1 (iblk4 V c 0 t) (iblk4 V c 1 t) : S8000x128.Idx → EReal)
      = fun y => product (V c main_v62) (V c main_arg8) (((cfg4.win 2).blk t).view.emb y)
  funext j
  obtain ⟨p, q, rfl⟩ : ∃ (p : Fin 8000) (q : Fin 128), j = ix2 p q := ⟨j 0, j 1, eq_ix2 j⟩
  have hp : p.val < 8000 := p.isLt
  have hrow : win4_2.index t (0 : Fin 2) * 8000 + p.val < 40000 := by omega
  have hout : ((cfg4.win 2).blk t).view.emb (ix2 p q) = ix2 (⟨win4_2.index t (0 : Fin 2) * 8000 + p.val, hrow⟩ : Fin 40000) q := by
    funext a; apply Fin.ext
    match a with
    | ⟨0, _⟩ => show win4_2.index t (0 : Fin 2) * 8000 + 1 * p.val = win4_2.index t (0 : Fin 2) * 8000 + p.val; omega
    | ⟨1, _⟩ => show win4_2.index t (1 : Fin 2) * 128 + 1 * q.val = q.val; omega
  have hleft : ∀ k : Fin 128, iblk4 V c 0 t (ix2 p k) = V c main_v62 (ix2 (⟨win4_2.index t (0 : Fin 2) * 8000 + p.val, hrow⟩ : Fin 40000) k) := fun k => by
    show V c main_v62 (((cfg4.win 0).blk t).view.emb (ix2 p k)) = _
    refine congrArg (V c main_v62) ?_
    funext a; apply Fin.ext
    match a with
    | ⟨0, _⟩ => show win4_0.index t (0 : Fin 2) * 8000 + 1 * p.val = win4_2.index t (0 : Fin 2) * 8000 + p.val; omega
    | ⟨1, _⟩ => show win4_0.index t (1 : Fin 2) * 128 + 1 * k.val = k.val; omega
  have hweight : ∀ k : Fin 128, iblk4 V c 1 t (ix2 k q) = V c main_arg8 (ix2 k q) := fun k => by
    show V c main_arg8 (((cfg4.win 1).blk t).view.emb (ix2 k q)) = _
    refine congrArg (V c main_arg8) ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  refine (block_apply (iblk4 V c 0 t) (iblk4 V c 1 t) p q).trans ?_
  rw [hout]
  refine Eq.trans ?_ (product_apply (V c main_v62) (V c main_arg8) _ q).symm
  exact Finset.sum_congr rfl fun k _ => by rw [hleft k, hweight k]

/-- An index of the output array is in point `t`'s block iff each coordinate is in the block's range. -/
theorem mem_block (t : Fin cfg4.N) (i : S40000x128.Idx) :
    i ∈ ((cfg4.win 2).blk t).view.set ↔ ∀ a : Fin 2, win4_2.index t a * S8000x128.size a ≤ (i a).val ∧ (i a).val < win4_2.index t a * S8000x128.size a + S8000x128.size a := by
  show i ∈ ((View.whole main_v63).slice (win4_2.rect t)).set ↔ _
  rw [View.set_slice_whole, Rect.mem_set_unit]
  exact Iff.rfl

/-- The five blocks of rows cover the output array. -/
theorem covered (i : S40000x128.Idx) :
    ∃ t : Fin cfg4.N, (cfg4.win 2).flush t = true ∧ i ∈ ((cfg4.win 2).blk t).view.set := by
  have hi0 : (i 0).val < 40000 := (i 0).isLt
  have hi1 : (i 1).val < 128 := (i 1).isLt
  obtain ⟨t, ht⟩ := index_onto ⟨(i 0).val / 8000, by omega⟩
  have q0 : win4_2.index t (0 : Fin 2) = (i 0).val / 8000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

/-- After the region the output array is the whole product of the two input arrays as the region found them. -/
theorem final (c : Dev nD) : (dat4 V c).arrAt 2 cfg4.N = product (V c main_v62) (V c main_arg8) :=
  (dat4 V c).arrAt_eq_of_cover 2 (product (V c main_v62) (V c main_arg8)) (fun t _ => flushed_eq V c t) (covered)

end Cert.KernelIdeal.Dense4

end
-- ==== Proof.BiasAct5.lean ====
/-
  Region 5 of the idealized kernel: a bias row added to every row, tiled over rows.

  The grid has five points; point `t` loads rows `8000 t … 8000 t + 7999` of the 40000×128 array and the one 1×128 bias
  row, and writes back, at `(p, q)`, `v = x (8000 t + p, q) + b (0, q)`. That is
  entry `(8000 t + p, q)` of the same pointwise expression over the whole array, so the five blocks, which cover all rows,
  leave in the output array the host's spelling of it: the bias broadcast over the rows, the sum.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasAct5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row spread over all rows, as the host spells it. -/
def spread (b : S1x128.Idx → EReal) : S40000x128.Idx → EReal :=
  broadcastInDim S40000x128 ![0, 1] Cert.ReferenceIdeal.Gen.bcast_S1x128_S40000x128_0_1 b

/-- A scalar constant spread over the whole array, as the host spells it. -/
def splat (w : BitVec 32) : S40000x128.Idx → EReal :=
  broadcastInDim S40000x128 ![] Cert.ReferenceIdeal.Gen.bcast_S_S40000x128 (constant (F := Ideal) S_ .f32 w)

/-- What the region computes of the whole arrays, in the host's operations. -/
def whole (x : S40000x128.Idx → EReal) (b : S1x128.Idx → EReal) : S40000x128.Idx → EReal :=
  addf (F := Ideal) (φ := .f32) x (spread b)

/-- The same at one entry, as a function of the one sum `v`. -/
def atEntry (v : EReal) : EReal :=
  v

theorem spread_apply (b : S1x128.Idx → EReal) (r : Fin 40000) (q : Fin 128) : spread b (ix2 r q) = b (ix2 (0 : Fin 1) q) := by
  unfold spread
  exact broadcastInDim_apply _ Cert.ReferenceIdeal.Gen.bcast_S1x128_S40000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

theorem splat_apply (w : BitVec 32) (i : S40000x128.Idx) : splat w i = Ideal.ofBits .f32 w := by
  unfold splat
  exact broadcastInDim_apply _ Cert.ReferenceIdeal.Gen.bcast_S_S40000x128 (constant (F := Ideal) S_ .f32 w) i ix0 (fun a => a.elim0)

/-- The whole-array expression at `(r, q)`. -/
theorem whole_apply (x : S40000x128.Idx → EReal) (b : S1x128.Idx → EReal) (r : Fin 40000) (q : Fin 128) :
    whole x b (ix2 r q) = atEntry (x (ix2 r q) + b (ix2 (0 : Fin 1) q)) := by
  unfold whole atEntry
  show x (ix2 r q) + spread b (ix2 r q) = _
  rw [spread_apply]

/-- One block's payload at `(p, q)`. -/
theorem block_apply (xb : Vec Ideal S8000x128 .f32) (bb : Vec Ideal S1x128 .f32) (p : Fin 8000) (q : Fin 128) :
    k5_pay1 xb bb (ix2 p q) = atEntry (xb (ix2 p q) + bb (ix2 (0 : Fin 1) q)) := by
  have hrow : broadcastTo S8000x128 (shapeCast S1x128 bb shapeCasts_S1x128_S1x128) broadcasts_S1x128_S8000x128 (ix2 p q) = bb (ix2 (0 : Fin 1) q) := by
    rw [broadcastTo_1b_ab_apply, shapeCast_self]
  have hx : shapeCast S8000x128 xb shapeCasts_S8000x128_S8000x128 (ix2 p q) = xb (ix2 p q) := by rw [shapeCast_self]
  unfold k5_pay1 atEntry
  show shapeCast S8000x128 xb shapeCasts_S8000x128_S8000x128 (ix2 p q) + broadcastTo S8000x128 (shapeCast S1x128 bb shapeCasts_S1x128_S1x128) broadcasts_S1x128_S8000x128 (ix2 p q) = _
  rw [hrow, hx]

/-- The printed index maps over the grid: the array and the output windows move together down the rows, the bias
    window stays put. -/
theorem index_maps : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 4 :=
  (by decide +kernel : ∀ t : Fin grid5.N, _)

/-- Every block of rows is some point's. -/
theorem index_onto : ∀ q0 : Fin 5, ∃ t : Fin cfg5.N, win5_2.index t = ![q0.val, 0] :=
  (by decide +kernel : ∀ q0 : Fin 5, ∃ t : Fin grid5.N, win5_2.index t = ![q0.val, 0])

/-- What point `t` writes back is block `t` of the whole-array expression of the arrays as the region finds them. -/
theorem flushed_eq (c : Dev nD) (t : Fin cfg5.N) :
    (dat5 V c).flushed 2 t = ((cfg5.win 2).blk t).view.read (Elt Ideal) (whole (V c main_v75) (V c main_v76)) := by
  show (cfg5.win 2).cut (grid5.coords t) ((dat5 V c).after 2 t) = _
  rw [after5_2]
  unfold out5_2
  rw [View.canon_unit_zero zero_offsets]
  simp only [View.ld_unit_zero (S := S8000x128) zero_offsets, View.ld_unit_zero (S := S1x128) zero_offsets]
  obtain ⟨e0, e1, e2, e3, e4, e5⟩ := index_maps t
  show (k5_pay1 (iblk5 V c 0 t) (iblk5 V c 1 t) : S8000x128.Idx → EReal)
      = fun y => whole (V c main_v75) (V c main_v76) (((cfg5.win 2).blk t).view.emb y)
  funext j
  obtain ⟨p, q, rfl⟩ : ∃ (p : Fin 8000) (q : Fin 128), j = ix2 p q := ⟨j 0, j 1, eq_ix2 j⟩
  have hp : p.val < 8000 := p.isLt
  have hrow : win5_2.index t (0 : Fin 2) * 8000 + p.val < 40000 := by omega
  have hout : ((cfg5.win 2).blk t).view.emb (ix2 p q) = ix2 (⟨win5_2.index t (0 : Fin 2) * 8000 + p.val, hrow⟩ : Fin 40000) q := by
    funext a; apply Fin.ext
    match a with
    | ⟨0, _⟩ => show win5_2.index t (0 : Fin 2) * 8000 + 1 * p.val = win5_2.index t (0 : Fin 2) * 8000 + p.val; omega
    | ⟨1, _⟩ => show win5_2.index t (1 : Fin 2) * 128 + 1 * q.val = q.val; omega
  have hx : iblk5 V c 0 t (ix2 p q) = V c main_v75 (ix2 (⟨win5_2.index t (0 : Fin 2) * 8000 + p.val, hrow⟩ : Fin 40000) q) := by
    show V c main_v75 (((cfg5.win 0).blk t).view.emb (ix2 p q)) = _
    refine congrArg (V c main_v75) ?_
    funext a; apply Fin.ext
    match a with
    | ⟨0, _⟩ => show win5_0.index t (0 : Fin 2) * 8000 + 1 * p.val = win5_2.index t (0 : Fin 2) * 8000 + p.val; omega
    | ⟨1, _⟩ => show win5_0.index t (1 : Fin 2) * 128 + 1 * q.val = q.val; omega
  have hb : iblk5 V c 1 t (ix2 (0 : Fin 1) q) = V c main_v76 (ix2 (0 : Fin 1) q) := by
    show V c main_v76 (((cfg5.win 1).blk t).view.emb (ix2 (0 : Fin 1) q)) = _
    refine congrArg (V c main_v76) ?_
    funext a; apply Fin.ext
    match a with
    | ⟨0, _⟩ => show win5_1.index t (0 : Fin 2) * 1 + 1 * 0 = 0; omega
    | ⟨1, _⟩ => show win5_1.index t (1 : Fin 2) * 128 + 1 * q.val = q.val; omega
  refine (block_apply (iblk5 V c 0 t) (iblk5 V c 1 t) p q).trans ?_
  rw [hout, whole_apply, hx, hb]

/-- An index of the output array is in point `t`'s block iff each coordinate is in the block's range. -/
theorem mem_block (t : Fin cfg5.N) (i : S40000x128.Idx) :
    i ∈ ((cfg5.win 2).blk t).view.set ↔ ∀ a : Fin 2, win5_2.index t a * S8000x128.size a ≤ (i a).val ∧ (i a).val < win5_2.index t a * S8000x128.size a + S8000x128.size a := by
  show i ∈ ((View.whole main_v77).slice (win5_2.rect t)).set ↔ _
  rw [View.set_slice_whole, Rect.mem_set_unit]
  exact Iff.rfl

/-- The five blocks of rows cover the output array. -/
theorem covered (i : S40000x128.Idx) :
    ∃ t : Fin cfg5.N, (cfg5.win 2).flush t = true ∧ i ∈ ((cfg5.win 2).blk t).view.set := by
  have hi0 : (i 0).val < 40000 := (i 0).isLt
  have hi1 : (i 1).val < 128 := (i 1).isLt
  obtain ⟨t, ht⟩ := index_onto ⟨(i 0).val / 8000, by omega⟩
  have q0 : win5_2.index t (0 : Fin 2) = (i 0).val / 8000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 8000 ≤ (i 0).val ∧ (i 0).val < win5_2.index t (0 : Fin 2) * 8000 + 8000; omega
  | ⟨1, _⟩ => show win5_2.index t (1 : Fin 2) * 128 ≤ (i 1).val ∧ (i 1).val < win5_2.index t (1 : Fin 2) * 128 + 128; omega

/-- After the region the output array is the whole-array expression of the two input arrays as the region found them. -/
theorem final (c : Dev nD) : (dat5 V c).arrAt 2 cfg5.N = whole (V c main_v75) (V c main_v76) :=
  (dat5 V c).arrAt_eq_of_cover 2 (whole (V c main_v75) (V c main_v76)) (fun t _ => flushed_eq V c t) (covered)

end Cert.KernelIdeal.BiasAct5

end
-- ==== Proof.Head6.lean ====
/-
  Region 6 of the idealized kernel: one layer of the head — a 64×128 by 128×64 product, a bias row, the leaky rectifier.

  The grid has one point and every window's block is its whole array. The body multiplies the two arrays (the narrowing
  to bf16 is the identity on extended reals, the accumulator is zero), adds the 1×64 bias row to every row and passes each
  sum `v` through `v ↦ if v > 0 then v else 0.01f · v`, and stores the 64×64 result. Entry `(p, q)` is
  `(∑ k, x (p, k) * w (k, q)) + b (0, q)` rectified: exactly the host's `dot_general`, broadcast, add, compare, multiply, select at that entry.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import proofs.«109360_j82085414961196_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head6

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row spread over all rows, as the host spells it. -/
def spread (b : S1x64.Idx → EReal) : S64x64.Idx → EReal :=
  broadcastInDim S64x64 ![0, 1] Cert.ReferenceIdeal.Gen.bcast_S1x64_S64x64_0_1 b

/-- A scalar constant spread over the whole array, as the host spells it. -/
def splat (w : BitVec 32) : S64x64.Idx → EReal :=
  broadcastInDim S64x64 ![] Cert.ReferenceIdeal.Gen.bcast_S_S64x64 (constant (F := Ideal) S_ .f32 w)

/-- The product plus the bias, in the host's operations. -/
def affine (x : S64x128.Idx → EReal) (w : S128x64.Idx → EReal) (b : S1x64.Idx → EReal) : S64x64.Idx → EReal :=
  addf (F := Ideal) (φ := .f32) (Host.dotGeneral (F := Ideal) (φ₁ := .f32) (φ₂ := .f32) Cert.ReferenceIdeal.dot_S64x128_S128x64_S64x64_1_0_0_1_n_n none x w) (spread b)

/-- What the region computes of the whole arrays, in the host's operations. -/
def whole (x : S64x128.Idx → EReal) (w : S128x64.Idx → EReal) (b : S1x64.Idx → EReal) : S64x64.Idx → EReal :=
  select (cmpf (F := Ideal) (φ := .f32) .ogt (affine x w b) (splat 0x00000000#32)) (affine x w b) (mulf (F := Ideal) (φ := .f32) (splat 0x3C23D70A#32) (affine x w b))

/-- The same at one entry, as a function of the one sum `v`. -/
def atEntry (v : EReal) : EReal :=
  Scalar.select (FloatOps.cmpf (F := Ideal) (φ := .f32) .ogt v (Ideal.ofBits .f32 0x00000000#32)) v (Ideal.ofBits .f32 0x3C23D70A#32 * v)

theorem spread_apply (b : S1x64.Idx → EReal) (r : Fin 64) (q : Fin 64) : spread b (ix2 r q) = b (ix2 (0 : Fin 1) q) := by
  unfold spread
  exact broadcastInDim_apply _ Cert.ReferenceIdeal.Gen.bcast_S1x64_S64x64_0_1 b (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

theorem splat_apply (w : BitVec 32) (i : S64x64.Idx) : splat w i = Ideal.ofBits .f32 w := by
  unfold splat
  exact broadcastInDim_apply _ Cert.ReferenceIdeal.Gen.bcast_S_S64x64 (constant (F := Ideal) S_ .f32 w) i ix0 (fun a => a.elim0)

theorem affine_apply (X : S64x128.Idx → EReal) (W : S128x64.Idx → EReal) (b : S1x64.Idx → EReal) (P : Fin 64) (q : Fin 64) :
    affine X W b (ix2 P q) = (∑ k : Fin 128, X (ix2 P k) * W (ix2 k q)) + b (ix2 (0 : Fin 1) q) := by
  have hd : Host.dotGeneral (F := Ideal) (φ₁ := .f32) (φ₂ := .f32) Cert.ReferenceIdeal.dot_S64x128_S128x64_S64x64_1_0_0_1_n_n none X W (ix2 P q) = (∑ k : Fin 128, X (ix2 P k) * W (ix2 k q)) :=
    PlainDot.dotGeneral_apply (φ₁ := .f32) (φ₂ := .f32) Cert.ReferenceIdeal.dot_S64x128_S128x64_S64x64_1_0_0_1_n_n rfl none .single X W P q
  unfold affine
  show Host.dotGeneral (F := Ideal) (φ₁ := .f32) (φ₂ := .f32) Cert.ReferenceIdeal.dot_S64x128_S128x64_S64x64_1_0_0_1_n_n none X W (ix2 P q) + spread b (ix2 P q) = _
  rw [hd, spread_apply]

/-- The whole-array expression at `(P, q)`. -/
theorem whole_apply (X : S64x128.Idx → EReal) (W : S128x64.Idx → EReal) (b : S1x64.Idx → EReal) (P : Fin 64) (q : Fin 64) :
    whole X W b (ix2 P q) = atEntry ((∑ k : Fin 128, X (ix2 P k) * W (ix2 k q)) + b (ix2 (0 : Fin 1) q)) := by
  unfold whole atEntry
  show Scalar.select (FloatOps.cmpf (F := Ideal) (φ := .f32) .ogt (affine X W b (ix2 P q)) (splat 0x00000000#32 (ix2 P q))) (affine X W b (ix2 P q)) (splat 0x3C23D70A#32 (ix2 P q) * affine X W b (ix2 P q)) = _
  rw [affine_apply, splat_apply, splat_apply]

/-- The body's payload at `(P, q)`. -/
theorem block_apply (X : Vec Ideal S64x128 .f32) (W : Vec Ideal S128x64 .f32) (bb : Vec Ideal S1x64 .f32) (P : Fin 64) (q : Fin 64) :
    k6_pay1 X W bb (ix2 P q) = atEntry ((∑ k : Fin 128, X (ix2 P k) * W (ix2 k q)) + bb (ix2 (0 : Fin 1) q)) := by
  have hmm : matmul (F := Ideal) dot_S64x128_S128x64_S64x64_1_0_0_1_n_n none (truncf .bf16 (shapeCast S64x128 X shapeCasts_S64x128_S64x128) bitsLt_bf16_f32) (truncf .bf16 W bitsLt_bf16_f32) (constant S64x64 .f32 0x00000000#32) (ix2 P q) = (∑ k : Fin 128, X (ix2 P k) * W (ix2 k q)) := by
    rw [shapeCast_self]
    exact PlainDot.matmul_zero_apply (φ₁ := .bf16) (φ₂ := .bf16) dot_S64x128_S128x64_S64x64_1_0_0_1_n_n rfl none _ _ P q
  have hrow : broadcastTo S64x64 (shapeCast S1x64 bb shapeCasts_S1x64_S1x64) broadcasts_S1x64_S64x64 (ix2 P q) = bb (ix2 (0 : Fin 1) q) := by
    rw [broadcastTo_1b_ab_apply, shapeCast_self]
  unfold k6_pay1 atEntry
  show Scalar.select (FloatOps.cmpf (F := Ideal) (φ := .f32) .ogt
      (matmul (F := Ideal) dot_S64x128_S128x64_S64x64_1_0_0_1_n_n none (truncf .bf16 (shapeCast S64x128 X shapeCasts_S64x128_S64x128) bitsLt_bf16_f32) (truncf .bf16 W bitsLt_bf16_f32) (constant S64x64 .f32 0x00000000#32) (ix2 P q) + broadcastTo S64x64 (shapeCast S1x64 bb shapeCasts_S1x64_S1x64) broadcasts_S1x64_S64x64 (ix2 P q)) (Ideal.ofBits .f32 0x00000000#32))
      (matmul (F := Ideal) dot_S64x128_S128x64_S64x64_1_0_0_1_n_n none (truncf .bf16 (shapeCast S64x128 X shapeCasts_S64x128_S64x128) bitsLt_bf16_f32) (truncf .bf16 W bitsLt_bf16_f32) (constant S64x64 .f32 0x00000000#32) (ix2 P q) + broadcastTo S64x64 (shapeCast S1x64 bb shapeCasts_S1x64_S1x64) broadcasts_S1x64_S64x64 (ix2 P q))
      (Ideal.ofBits .f32 0x3C23D70A#32 * (matmul (F := Ideal) dot_S64x128_S128x64_S64x64_1_0_0_1_n_n none (truncf .bf16 (shapeCast S64x128 X shapeCasts_S64x128_S64x128) bitsLt_bf16_f32) (truncf .bf16 W bitsLt_bf16_f32) (constant S64x64 .f32 0x00000000#32) (ix2 P q) + broadcastTo S64x64 (shapeCast S1x64 bb shapeCasts_S1x64_S1x64) broadcasts_S1x64_S64x64 (ix2 P q))) = _
  rw [hmm, hrow]

/-- The printed index maps at the grid's one point: every window's block is its whole array. -/
theorem index_maps : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The grid has a point. -/
theorem a_point : ∃ t : Fin cfg6.N, win6_3.index t = ![0, 0] :=
  (by decide +kernel : ∃ t : Fin grid6.N, win6_3.index t = ![0, 0])

/-- What the one point writes back is the whole-array expression of the arrays as the region finds them, read through
    the (whole) block. -/
theorem flushed_eq (c : Dev nD) (t : Fin cfg6.N) :
    (dat6 V c).flushed 3 t = ((cfg6.win 3).blk t).view.read (Elt Ideal) (whole (V c main_v89) (V c main_arg10) (V c main_v90)) := by
  show (cfg6.win 3).cut (grid6.coords t) ((dat6 V c).after 3 t) = _
  rw [after6_3]
  unfold out6_3
  rw [View.canon_unit_zero zero_offsets]
  simp only [View.ld_unit_zero (S := S64x128) zero_offsets, View.ld_unit_zero (S := S128x64) zero_offsets, View.ld_unit_zero (S := S1x64) zero_offsets]
  obtain ⟨e0, e1, e2, e3, e4, e5, e6, e7⟩ := index_maps t
  show (k6_pay1 (iblk6 V c 0 t) (iblk6 V c 1 t) (iblk6 V c 2 t) : S64x64.Idx → EReal)
      = fun y => whole (V c main_v89) (V c main_arg10) (V c main_v90) (((cfg6.win 3).blk t).view.emb y)
  funext j
  obtain ⟨p, q, rfl⟩ : ∃ (p : Fin 64) (q : Fin 64), j = ix2 p q := ⟨j 0, j 1, eq_ix2 j⟩
  have hout : ((cfg6.win 3).blk t).view.emb (ix2 p q) = ix2 p q := by
    funext a; apply Fin.ext
    match a with
    | ⟨0, _⟩ => show win6_3.index t (0 : Fin 2) * 64 + 1 * p.val = p.val; omega
    | ⟨1, _⟩ => show win6_3.index t (1 : Fin 2) * 64 + 1 * q.val = q.val; omega
  have hx : ∀ k : Fin 128, iblk6 V c 0 t (ix2 p k) = V c main_v89 (ix2 p k) := fun k => by
    show V c main_v89 (((cfg6.win 0).blk t).view.emb (ix2 p k)) = _
    refine congrArg (V c main_v89) ?_
    funext a; apply Fin.ext
    match a with
    | ⟨0, _⟩ => show win6_0.index t (0 : Fin 2) * 64 + 1 * p.val = p.val; omega
    | ⟨1, _⟩ => show win6_0.index t (1 : Fin 2) * 128 + 1 * k.val = k.val; omega
  have hw : ∀ k : Fin 128, iblk6 V c 1 t (ix2 k q) = V c main_arg10 (ix2 k q) := fun k => by
    show V c main_arg10 (((cfg6.win 1).blk t).view.emb (ix2 k q)) = _
    refine congrArg (V c main_arg10) ?_
    funext a; apply Fin.ext
    match a with
    | ⟨0, _⟩ => show win6_1.index t (0 : Fin 2) * 128 + 1 * k.val = k.val; omega
    | ⟨1, _⟩ => show win6_1.index t (1 : Fin 2) * 64 + 1 * q.val = q.val; omega
  have hb : iblk6 V c 2 t (ix2 (0 : Fin 1) q) = V c main_v90 (ix2 (0 : Fin 1) q) := by
    show V c main_v90 (((cfg6.win 2).blk t).view.emb (ix2 (0 : Fin 1) q)) = _
    refine congrArg (V c main_v90) ?_
    funext a; apply Fin.ext
    match a with
    | ⟨0, _⟩ => show win6_2.index t (0 : Fin 2) * 1 + 1 * 0 = 0; omega
    | ⟨1, _⟩ => show win6_2.index t (1 : Fin 2) * 64 + 1 * q.val = q.val; omega
  refine (block_apply (iblk6 V c 0 t) (iblk6 V c 1 t) (iblk6 V c 2 t) p q).trans ?_
  rw [hout, whole_apply, hb]
  exact congrArg (fun s => atEntry (s + V c main_v90 (ix2 (0 : Fin 1) q))) (Finset.sum_congr rfl fun k _ => by rw [hx k, hw k])

/-- An index of the output array is in the point's block iff each coordinate is in the block's range. -/
theorem mem_block (t : Fin cfg6.N) (i : S64x64.Idx) :
    i ∈ ((cfg6.win 3).blk t).view.set ↔ ∀ a : Fin 2, win6_3.index t a * S64x64.size a ≤ (i a).val ∧ (i a).val < win6_3.index t a * S64x64.size a + S64x64.size a := by
  show i ∈ ((View.whole main_v91).slice (win6_3.rect t)).set ↔ _
  rw [View.set_slice_whole, Rect.mem_set_unit]
  exact Iff.rfl

/-- The one block covers the output array. -/
theorem covered (i : S64x64.Idx) :
    ∃ t : Fin cfg6.N, (cfg6.win 3).flush t = true ∧ i ∈ ((cfg6.win 3).blk t).view.set := by
  have hi0 : (i 0).val < 64 := (i 0).isLt
  have hi1 : (i 1).val < 64 := (i 1).isLt
  obtain ⟨t, ht⟩ := a_point
  have q0 : win6_3.index t (0 : Fin 2) = 0 := congrFun ht 0
  have q1 : win6_3.index t (1 : Fin 2) = 0 := congrFun ht 1
  refine ⟨t, flush6_3 t, ?_⟩
  rw [mem_block]
  intro a
  match a with
  | ⟨0, _⟩ => show win6_3.index t (0 : Fin 2) * 64 ≤ (i 0).val ∧ (i 0).val < win6_3.index t (0 : Fin 2) * 64 + 64; omega
  | ⟨1, _⟩ => show win6_3.index t (1 : Fin 2) * 64 ≤ (i 1).val ∧ (i 1).val < win6_3.index t (1 : Fin 2) * 64 + 64; omega

/-- After the region the output array is the whole-array expression of the three input arrays as the region found them. -/
theorem final (c : Dev nD) : (dat6 V c).arrAt 3 cfg6.N = whole (V c main_v89) (V c main_arg10) (V c main_v90) :=
  (dat6 V c).arrAt_eq_of_cover 3 (whole (V c main_v89) (V c main_arg10) (V c main_v90)) (fun t _ => flushed_eq V c t) (covered)

end Cert.KernelIdeal.Head6

end
-- ==== Proof.Head7.lean ====
/-
  Region 7 of the idealized kernel: one layer of the head — a 64×64 by 64×32 product, a bias row, the leaky rectifier.

  The grid has one point and every window's block is its whole array. The body multiplies the two arrays (the narrowing
  to bf16 is the identity on extended reals, the accumulator is zero), adds the 1×32 bias row to every row and passes each
  sum `v` through `v ↦ if v > 0 then v else 0.01f · v`, and stores the 64×32 result. Entry `(p, q)` is
  `(∑ k, x (p, k) * w (k, q)) + b (0, q)` rectified: exactly the host's `dot_general`, broadcast, add, compare, multiply, select at that entry.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import proofs.«109360_j82085414961196_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head7

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row spread over all rows, as the host spells it. -/
def spread (b : S1x32.Idx → EReal) : S64x32.Idx → EReal :=
  broadcastInDim S64x32 ![0, 1] Cert.ReferenceIdeal.Gen.bcast_S1x32_S64x32_0_1 b

/-- A scalar constant spread over the whole array, as the host spells it. -/
def splat (w : BitVec 32) : S64x32.Idx → EReal :=
  broadcastInDim S64x32 ![] Cert.ReferenceIdeal.Gen.bcast_S_S64x32 (constant (F := Ideal) S_ .f32 w)

/-- The product plus the bias, in the host's operations. -/
def affine (x : S64x64.Idx → EReal) (w : S64x32.Idx → EReal) (b : S1x32.Idx → EReal) : S64x32.Idx → EReal :=
  addf (F := Ideal) (φ := .f32) (Host.dotGeneral (F := Ideal) (φ₁ := .f32) (φ₂ := .f32) Cert.ReferenceIdeal.dot_S64x64_S64x32_S64x32_1_0_0_1_n_n none x w) (spread b)

/-- What the region computes of the whole arrays, in the host's operations. -/
def whole (x : S64x64.Idx → EReal) (w : S64x32.Idx → EReal) (b : S1x32.Idx → EReal) : S64x32.Idx → EReal :=
  select (cmpf (F := Ideal) (φ := .f32) .ogt (affine x w b) (splat 0x00000000#32)) (affine x w b) (mulf (F := Ideal) (φ := .f32) (splat 0x3C23D70A#32) (affine x w b))

/-- The same at one entry, as a function of the one sum `v`. -/
def atEntry (v : EReal) : EReal :=
  Scalar.select (FloatOps.cmpf (F := Ideal) (φ := .f32) .ogt v (Ideal.ofBits .f32 0x00000000#32)) v (Ideal.ofBits .f32 0x3C23D70A#32 * v)

theorem spread_apply (b : S1x32.Idx → EReal) (r : Fin 64) (q : Fin 32) : spread b (ix2 r q) = b (ix2 (0 : Fin 1) q) := by
  unfold spread
  exact broadcastInDim_apply _ Cert.ReferenceIdeal.Gen.bcast_S1x32_S64x32_0_1 b (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])

theorem splat_apply (w : BitVec 32) (i : S64x32.Idx) : splat w i = Ideal.ofBits .f32 w := by
  unfold splat
  exact broadcastInDim_apply _ Cert.ReferenceIdeal.Gen.bcast_S_S64x32 (constant (F := Ideal) S_ .f32 w) i ix0 (fun a => a.elim0)

theorem affine_apply (X : S64x64.Idx → EReal) (W : S64x32.Idx → EReal) (b : S1x32.Idx → EReal) (P : Fin 64) (q : Fin 32) :
    affine X W b (ix2 P q) = (∑ k : Fin 64, X (ix2 P k) * W (ix2 k q)) + b (ix2 (0 : Fin 1) q) := by
  have hd : Host.dotGeneral (F := Ideal) (φ₁ := .f32) (φ₂ := .f32) Cert.ReferenceIdeal.dot_S64x64_S64x32_S64x32_1_0_0_1_n_n none X W (ix2 P q) = (∑ k : Fin 64, X (ix2 P k) * W (ix2 k q)) :=
    PlainDot.dotGeneral_apply (φ₁ := .f32) (φ₂ := .f32) Cert.ReferenceIdeal.dot_S64x64_S64x32_S64x32_1_0_0_1_n_n rfl none .single X W P q
  unfold affine
  show Host.dotGeneral (F := Ideal) (φ₁ := .f32) (φ₂ := .f32) Cert.ReferenceIdeal.dot_S64x64_S64x32_S64x32_1_0_0_1_n_n none X W (ix2 P q) + spread b (ix2 P q) = _
  rw [hd, spread_apply]

/-- The whole-array expression at `(P, q)`. -/
theorem whole_apply (X : S64x64.Idx → EReal) (W : S64x32.Idx → EReal) (b : S1x32.Idx → EReal) (P : Fin 64) (q : Fin 32) :
    whole X W b (ix2 P q) = atEntry ((∑ k : Fin 64, X (ix2 P k) * W (ix2 k q)) + b (ix2 (0 : Fin 1) q)) := by
  unfold whole atEntry
  show Scalar.select (FloatOps.cmpf (F := Ideal) (φ := .f32) .ogt (affine X W b (ix2 P q)) (splat 0x00000000#32 (ix2 P q))) (affine X W b (ix2 P q)) (splat 0x3C23D70A#32 (ix2 P q) * affine X W b (ix2 P q)) = _
  rw [affine_apply, splat_apply, splat_apply]

/-- The body's payload at `(P, q)`. -/
theorem block_apply (X : Vec Ideal S64x64 .f32) (W : Vec Ideal S64x32 .f32) (bb : Vec Ideal S1x32 .f32) (P : Fin 64) (q : Fin 32) :
    k7_pay1 X W bb (ix2 P q) = atEntry ((∑ k : Fin 64, X (ix2 P k) * W (ix2 k q)) + bb (ix2 (0 : Fin 1) q)) := by
  have hmm : matmul (F := Ideal) dot_S64x64_S64x32_S64x32_1_0_0_1_n_n none (truncf .bf16 (shapeCast S64x64 X shapeCasts_S64x64_S64x64) bitsLt_bf16_f32) (truncf .bf16 W bitsLt_bf16_f32) (constant S64x32 .f32 0x00000000#32) (ix2 P q) = (∑ k : Fin 64, X (ix2 P k) * W (ix2 k q)) := by
    rw [shapeCast_self]
    exact PlainDot.matmul_zero_apply (φ₁ := .bf16) (φ₂ := .bf16) dot_S64x64_S64x32_S64x32_1_0_0_1_n_n rfl none _ _ P q
  have hrow : broadcastTo S64x32 (shapeCast S1x32 bb shapeCasts_S1x32_S1x32) broadcasts_S1x32_S64x32 (ix2 P q) = bb (ix2 (0 : Fin 1) q) := by
    rw [broadcastTo_1b_ab_apply, shapeCast_self]
  unfold k7_pay1 atEntry
  show Scalar.select (FloatOps.cmpf (F := Ideal) (φ := .f32) .ogt
      (matmul (F := Ideal) dot_S64x64_S64x32_S64x32_1_0_0_1_n_n none (truncf .bf16 (shapeCast S64x64 X shapeCasts_S64x64_S64x64) bitsLt_bf16_f32) (truncf .bf16 W bitsLt_bf16_f32) (constant S64x32 .f32 0x00000000#32) (ix2 P q) + broadcastTo S64x32 (shapeCast S1x32 bb shapeCasts_S1x32_S1x32) broadcasts_S1x32_S64x32 (ix2 P q)) (Ideal.ofBits .f32 0x00000000#32))
      (matmul (F := Ideal) dot_S64x64_S64x32_S64x32_1_0_0_1_n_n none (truncf .bf16 (shapeCast S64x64 X shapeCasts_S64x64_S64x64) bitsLt_bf16_f32) (truncf .bf16 W bitsLt_bf16_f32) (constant S64x32 .f32 0x00000000#32) (ix2 P q) + broadcastTo S64x32 (shapeCast S1x32 bb shapeCasts_S1x32_S1x32) broadcasts_S1x32_S64x32 (ix2 P q))
      (Ideal.ofBits .f32 0x3C23D70A#32 * (matmul (F := Ideal) dot_S64x64_S64x32_S64x32_1_0_0_1_n_n none (truncf .bf16 (shapeCast S64x64 X shapeCasts_S64x64_S64x64) bitsLt_bf16_f32) (truncf .bf16 W bitsLt_bf16_f32) (constant S64x32 .f32 0x00000000#32) (ix2 P q) + broadcastTo S64x32 (shapeCast S1x32 bb shapeCasts_S1x32_S1x32) broadcasts_S1x32_S64x32 (ix2 P q))) = _
  rw [hmm, hrow]

/-- The printed index maps at the grid's one point: every window's block is its whole array. -/
theorem index_maps : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- The grid has a point. -/
theorem a_point : ∃ t : Fin cfg7.N, win7_3.index t = ![0, 0] :=
  (by decide +kernel : ∃ t : Fin grid7.N, win7_3.index t = ![0, 0])

/-- What the one point writes back is the whole-array expression of the arrays as the region finds them, read through
    the (whole) block. -/
theorem flushed_eq (c : Dev nD) (t : Fin cfg7.N) :
    (dat7 V c).flushed 3 t = ((cfg7.win 3).blk t).view.read (Elt Ideal) (whole (V c main_v91) (V c main_arg12) (V c main_v92)) := by
  show (cfg7.win 3).cut (grid7.coords t) ((dat7 V c).after 3 t) = _
  rw [after7_3]
  unfold out7_3
  rw [View.canon_unit_zero zero_offsets]
  simp only [View.ld_unit_zero (S := S64x64) zero_offsets, View.ld_unit_zero (S := S64x32) zero_offsets, View.ld_unit_zero (S := S1x32) zero_offsets]
  obtain ⟨e0, e1, e2, e3, e4, e5, e6, e7⟩ := index_maps t
  show (k7_pay1 (iblk7 V c 0 t) (iblk7 V c 1 t) (iblk7 V c 2 t) : S64x32.Idx → EReal)
      = fun y => whole (V c main_v91) (V c main_arg12) (V c main_v92) (((cfg7.win 3).blk t).view.emb y)
  funext j
  obtain ⟨p, q, rfl⟩ : ∃ (p : Fin 64) (q : Fin 32), j = ix2 p q := ⟨j 0, j 1, eq_ix2 j⟩
  have hout : ((cfg7.win 3).blk t).view.emb (ix2 p q) = ix2 p q := by
    funext a; apply Fin.ext
    match a with
    | ⟨0, _⟩ => show win7_3.index t (0 : Fin 2) * 64 + 1 * p.val = p.val; omega
    | ⟨1, _⟩ => show win7_3.index t (1 : Fin 2) * 32 + 1 * q.val = q.val; omega
  have hx : ∀ k : Fin 64, iblk7 V c 0 t (ix2 p k) = V c main_v91 (ix2 p k) := fun k => by
    show V c main_v91 (((cfg7.win 0).blk t).view.emb (ix2 p k)) = _
    refine congrArg (V c main_v91) ?_
    funext a; apply Fin.ext
    match a with
    | ⟨0, _⟩ => show win7_0.index t (0 : Fin 2) * 64 + 1 * p.val = p.val; omega
    | ⟨1, _⟩ => show win7_0.index t (1 : Fin 2) * 64 + 1 * k.val = k.val; omega
  have hw : ∀ k : Fin 64, iblk7 V c 1 t (ix2 k q) = V c main_arg12 (ix2 k q) := fun k => by
    show V c main_arg12 (((cfg7.win 1).blk t).view.emb (ix2 k q)) = _
    refine congrArg (V c main_arg12) ?_
    funext a; apply Fin.ext
    match a with
    | ⟨0, _⟩ => show win7_1.index t (0 : Fin 2) * 64 + 1 * k.val = k.val; omega
    | ⟨1, _⟩ => show win7_1.index t (1 : Fin 2) * 32 + 1 * q.val = q.val; omega
  have hb : iblk7 V c 2 t (ix2 (0 : Fin 1) q) = V c main_v92 (ix2 (0 : Fin 1) q) := by
    show V c main_v92 (((cfg7.win 2).blk t).view.emb (ix2 (0 : Fin 1) q)) = _
    refine congrArg (V c main_v92) ?_
    funext a; apply Fin.ext
    match a with
    | ⟨0, _⟩ => show win7_2.index t (0 : Fin 2) * 1 + 1 * 0 = 0; omega
    | ⟨1, _⟩ => show win7_2.index t (1 : Fin 2) * 32 + 1 * q.val = q.val; omega
  refine (block_apply (iblk7 V c 0 t) (iblk7 V c 1 t) (iblk7 V c 2 t) p q).trans ?_
  rw [hout, whole_apply, hb]
  exact congrArg (fun s => atEntry (s + V c main_v92 (ix2 (0 : Fin 1) q))) (Finset.sum_congr rfl fun k _ => by rw [hx k, hw k])

/-- An index of the output array is in the point's block iff each coordinate is in the block's range. -/
theorem mem_block (t : Fin cfg7.N) (i : S64x32.Idx) :
    i ∈ ((cfg7.win 3).blk t).view.set ↔ ∀ a : Fin 2, win7_3.index t a * S64x32.size a ≤ (i a).val ∧ (i a).val < win7_3.index t a * S64x32.size a + S64x32.size a := by
  show i ∈ ((View.whole main_v93).slice (win7_3.rect t)).set ↔ _
  rw [View.set_slice_whole, Rect.mem_set_unit]
  exact Iff.rfl

/-- The one block covers the output array. -/
theorem covered (i : S64x32.Idx) :
    ∃ t : Fin cfg7.N, (cfg7.win 3).flush t = true ∧ i ∈ ((cfg7.win 3).blk t).view.set := by
  have hi0 : (i 0).val < 64 := (i 0).isLt
  have hi1 : (i 1).val < 32 := (i 1).isLt
  obtain ⟨t, ht⟩ := a_point
  have q0 : win7_3.index t (0 : Fin 2) = 0 := congrFun ht 0
  have q1 : win7_3.index t (1 : Fin 2) = 0 := congrFun ht 1
  refine ⟨t, flush7_3 t, ?_⟩
  rw [mem_block]
  intro a
  match a with
  | ⟨0, _⟩ => show win7_3.index t (0 : Fin 2) * 64 ≤ (i 0).val ∧ (i 0).val < win7_3.index t (0 : Fin 2) * 64 + 64; omega
  | ⟨1, _⟩ => show win7_3.index t (1 : Fin 2) * 32 ≤ (i 1).val ∧ (i 1).val < win7_3.index t (1 : Fin 2) * 32 + 32; omega

/-- After the region the output array is the whole-array expression of the three input arrays as the region found them. -/
theorem final (c : Dev nD) : (dat7 V c).arrAt 3 cfg7.N = whole (V c main_v91) (V c main_arg12) (V c main_v92) :=
  (dat7 V c).arrAt_eq_of_cover 3 (whole (V c main_v91) (V c main_arg12) (V c main_v92)) (fun t _ => flushed_eq V c t) (covered)

end Cert.KernelIdeal.Head7

end
-- ==== Proof.Head8.lean ====
/-
  Region 8 of the idealized kernel: one layer of the head — a 64×32 by 32×2 product, a bias row.

  The grid has one point and every window's block is its whole array. The body multiplies the two arrays (the narrowing
  to bf16 is the identity on extended reals, the accumulator is zero), adds the 1×2 bias row to every row, and stores the 64×2 result. Entry `(p, q)` is
  `(∑ k, x (p, k) * w (k, q)) + b (0, q)`: exactly the host's `dot_general`, broadcast, add at that entry.
-/
import proofs.«109360_j82085414961196_1_alg».proof.Proof.Gen.KernelIdeal.Frame
import proofs.«109360_j82085414961196_1_alg».proof.ReferenceIdeal
import proofs.«109360_j82085414961196_1_alg».proof.Proof.Gen.ReferenceIdeal
import proofs.«109360_j82085414961196_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head8

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row spread over all rows, as the host spells it. -/
def spread (b : S1x2.Idx → EReal) : S64x2.Idx → EReal :=
  broadcastInDim S64x2 ![0, 1] Cert.ReferenceIdeal.Gen.bcast_S1x2_S64x2_0_1 b

/-- The product plus the bias, in the host's operations. -/
def affine (x : S64x32.Idx → EReal) (w : S32x2.Idx → EReal) (b : S1x2.Idx → EReal) : S64x2.Idx → EReal :=
  addf (F := Ideal) (φ := .f32) (Host.dotGeneral (F := Ideal) (φ₁ := .f32) (φ₂ := .f32) Cert.ReferenceIdeal.dot_S64x32_S32x2_S64x2_1_0_0_1_n_n none x w) (spread b)

/-- What the region computes of the whole arrays, in the host's operations. -/
def whole (x : S64x32.Idx → EReal) (w : S32x2.Idx → EReal) (b : S1x2.Idx → EReal) : S64x2.Idx → EReal :=
  affine x w b

/-- The same at one entry, as a function of the one sum `v`. -/
def atEntry (v : EReal) : EReal :=
  v

theorem spread_apply (b : S1x2.Idx → EReal) (r : Fin 64) (q : Fin 2) : spread b (ix2 r q) = b (ix2 (0 : Fin 1) q) := by
  unfold spread
  exact broadcastInDim_apply _ Cert.ReferenceIdeal.Gen.bcast_S1x2_S64x2_0_1 b (ix2 r q) (ix2 (0 : Fin 1) q) (fun a => match a with
    | ⟨0, _⟩ => by show 0 = if (1 : Nat) = 1 then 0 else r.val; rw [if_pos rfl]
    | ⟨1, _⟩ => by show q.val = if (2 : Nat) = 1 then 0 else q.val; rw [if_neg (by decide)])

theorem affine_apply (X : S64x32.Idx → EReal) (W : S32x2.Idx → EReal) (b : S1x2.Idx → EReal) (P : Fin 64) (q : Fin 2) :
    affine X W b (ix2 P q) = (∑ k : Fin 32, X (ix2 P k) * W (ix2 k q)) + b (ix2 (0 : Fin 1) q) := by
  have hd : Host.dotGeneral (F := Ideal) (φ₁ := .f32) (φ₂ := .f32) Cert.ReferenceIdeal.dot_S64x32_S32x2_S64x2_1_0_0_1_n_n none X W (ix2 P q) = (∑ k : Fin 32, X (ix2 P k) * W (ix2 k q)) :=
    PlainDot.dotGeneral_apply (φ₁ := .f32) (φ₂ := .f32) Cert.ReferenceIdeal.dot_S64x32_S32x2_S64x2_1_0_0_1_n_n rfl none .single X W P q
  unfold affine
  show Host.dotGeneral (F := Ideal) (φ₁ := .f32) (φ₂ := .f32) Cert.ReferenceIdeal.dot_S64x32_S32x2_S64x2_1_0_0_1_n_n none X W (ix2 P q) + spread b (ix2 P q) = _
  rw [hd, spread_apply]

/-- The whole-array expression at `(P, q)`. -/
theorem whole_apply (X : S64x32.Idx → EReal) (W : S32x2.Idx → EReal) (b : S1x2.Idx → EReal) (P : Fin 64) (q : Fin 2) :
    whole X W b (ix2 P q) = atEntry ((∑ k : Fin 32, X (ix2 P k) * W (ix2 k q)) + b (ix2 (0 : Fin 1) q)) := by
  unfold whole atEntry
  exact affine_apply X W b P q

/-- The body's payload at `(P, q)`. -/
theorem block_apply (X : Vec Ideal S64x32 .f32) (W : Vec Ideal S32x2 .f32) (bb : Vec Ideal S1x2 .f32) (P : Fin 64) (q : Fin 2) :
    k8_pay1 X W bb (ix2 P q) = atEntry ((∑ k : Fin 32, X (ix2 P k) * W (ix2 k q)) + bb (ix2 (0 : Fin 1) q)) := by
  have hmm : matmul (F := Ideal) dot_S64x32_S32x2_S64x2_1_0_0_1_n_n none (truncf .bf16 (shapeCast S64x32 X shapeCasts_S64x32_S64x32) bitsLt_bf16_f32) (truncf .bf16 W bitsLt_bf16_f32) (constant S64x2 .f32 0x00000000#32) (ix2 P q) = (∑ k : Fin 32, X (ix2 P k) * W (ix2 k q)) := by
    rw [shapeCast_self]
    exact PlainDot.matmul_zero_apply (φ₁ := .bf16) (φ₂ := .bf16) dot_S64x32_S32x2_S64x2_1_0_0_1_n_n rfl none _ _ P q
  have hrow : broadcastTo S64x2 (shapeCast S1x2 bb shapeCasts_S1x2_S1x2) broadcasts_S1x2_S64x2 (ix2 P q) = bb (ix2 (0 : Fin 1) q) := by
    rw [broadcastTo_1b_ab_apply, shapeCast_self]
  unfold k8_pay1 atEntry
  show matmul (F := Ideal) dot_S64x32_S32x2_S64x2_1_0_0_1_n_n none (truncf .bf16 (shapeCast S64x32 X shapeCasts_S64x32_S64x32) bitsLt_bf16_f32) (truncf .bf16 W bitsLt_bf16_f32) (constant S64x2 .f32 0x00000000#32) (ix2 P q) + broadcastTo S64x2 (shapeCast S1x2 bb shapeCasts_S1x2_S1x2) broadcasts_S1x2_S64x2 (ix2 P q) = _
  rw [hmm, hrow]

/-- The printed index maps at the grid's one point: every window's block is its whole array. -/
theorem index_maps : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

/-- The grid has a point. -/
theorem a_point : ∃ t : Fin cfg8.N, win8_3.index t = ![0, 0] :=
  (by decide +kernel : ∃ t : Fin grid8.N, win8_3.index t = ![0, 0])

/-- What the one point writes back is the whole-array expression of the arrays as the region finds them, read through
    the (whole) block. -/
theorem flushed_eq (c : Dev nD) (t : Fin cfg8.N) :
    (dat8 V c).flushed 3 t = ((cfg8.win 3).blk t).view.read (Elt Ideal) (whole (V c main_v93) (V c main_arg14) (V c main_v94)) := by
  show (cfg8.win 3).cut (grid8.coords t) ((dat8 V c).after 3 t) = _
  rw [after8_3]
  unfold out8_3
  rw [View.canon_unit_zero zero_offsets]
  simp only [View.ld_unit_zero (S := S64x32) zero_offsets, View.ld_unit_zero (S := S32x2) zero_offsets, View.ld_unit_zero (S := S1x2) zero_offsets]
  obtain ⟨e0, e1, e2, e3, e4, e5, e6, e7⟩ := index_maps t
  show (k8_pay1 (iblk8 V c 0 t) (iblk8 V c 1 t) (iblk8 V c 2 t) : S64x2.Idx → EReal)
      = fun y => whole (V c main_v93) (V c main_arg14) (V c main_v94) (((cfg8.win 3).blk t).view.emb y)
  funext j
  obtain ⟨p, q, rfl⟩ : ∃ (p : Fin 64) (q : Fin 2), j = ix2 p q := ⟨j 0, j 1, eq_ix2 j⟩
  have hout : ((cfg8.win 3).blk t).view.emb (ix2 p q) = ix2 p q := by
    funext a; apply Fin.ext
    match a with
    | ⟨0, _⟩ => show win8_3.index t (0 : Fin 2) * 64 + 1 * p.val = p.val; omega
    | ⟨1, _⟩ => show win8_3.index t (1 : Fin 2) * 2 + 1 * q.val = q.val; omega
  have hx : ∀ k : Fin 32, iblk8 V c 0 t (ix2 p k) = V c main_v93 (ix2 p k) := fun k => by
    show V c main_v93 (((cfg8.win 0).blk t).view.emb (ix2 p k)) = _
    refine congrArg (V c main_v93) ?_
    funext a; apply Fin.ext
    match a with
    | ⟨0, _⟩ => show win8_0.index t (0 : Fin 2) * 64 + 1 * p.val = p.val; omega
    | ⟨1, _⟩ => show win8_0.index t (1 : Fin 2) * 32 + 1 * k.val = k.val; omega
  have hw : ∀ k : Fin 32, iblk8 V c 1 t (ix2 k q) = V c main_arg14 (ix2 k q) := fun k => by
    show V c main_arg14 (((cfg8.win 1).blk t).view.emb (ix2 k q)) = _
    refine congrArg (V c main_arg14) ?_
    funext a; apply Fin.ext
    match a with
    | ⟨0, _⟩ => show win8_1.index t (0 : Fin 2) * 32 + 1 * k.val = k.val; omega
    | ⟨1, _⟩ => show win8_1.index t (1 : Fin 2) * 2 + 1 * q.val = q.val; omega
  have hb : iblk8 V c 2 t (ix2 (0 : Fin 1) q) = V c main_v94 (ix2 (0 : Fin 1) q) := by
    show V c main_v94 (((cfg8.win 2).blk t).view.emb (ix2 (0 : Fin 1) q)) = _
    refine congrArg (V c main_v94) ?_
    funext a; apply Fin.ext
    match a with
    | ⟨0, _⟩ => show win8_2.index t (0 : Fin 2) * 1 + 1 * 0 = 0; omega
    | ⟨1, _⟩ => show win8_2.index t (1 : Fin 2) * 2 + 1 * q.val = q.val; omega
  refine (block_apply (iblk8 V c 0 t) (iblk8 V c 1 t) (iblk8 V c 2 t) p q).trans ?_
  rw [hout, whole_apply, hb]
  exact congrArg (fun s => atEntry (s + V c main_v94 (ix2 (0 : Fin 1) q))) (Finset.sum_congr rfl fun k _ => by rw [hx k, hw k])

/-- An index of the output array is in the point's block iff each coordinate is in the block's range. -/
theorem mem_block (t : Fin cfg8.N) (i : S64x2.Idx) :
    i ∈ ((cfg8.win 3).blk t).view.set ↔ ∀ a : Fin 2, win8_3.index t a * S64x2.size a ≤ (i a).val ∧ (i a).val < win8_3.index t a * S64x2.size a + S64x2.size a := by
  show i ∈ ((View.whole main_v95).slice (win8_3.rect t)).set ↔ _
  rw [View.set_slice_whole, Rect.mem_set_unit]
  exact Iff.rfl

/-- The one block covers the output array. -/
theorem covered (i : S64x2.Idx) :
    ∃ t : Fin cfg8.N, (cfg8.win 3).flush t = true ∧ i ∈ ((cfg8.win 3).blk t).view.set := by
  have hi0 : (i 0).val < 64 := (i 0).isLt
  have hi1 : (i 1).val < 2 := (i 1).isLt
  obtain ⟨t, ht⟩ := a_point
  have q0 : win8_3.index t (0 : Fin 2) = 0 := congrFun ht 0
  have q1 : win8_3.index t (1 : Fin 2) = 0 := congrFun ht 1
  refine ⟨t, flush8_3 t, ?_⟩
  rw [mem_block]
  intro a
  match a with
  | ⟨0, _⟩ => show win8_3.index t (0 : Fin 2) * 64 ≤ (i 0).val ∧ (i 0).val < win8_3.index t (0 : Fin 2) * 64 + 64; omega
  | ⟨1, _⟩ => show win8_3.index t (1 : Fin 2) * 2 ≤ (i 1).val ∧ (i 1).val < win8_3.index t (1 : Fin 2) * 2 + 2; omega

/-- After the region the output array is the whole-array expression of the three input arrays as the region found them. -/
theorem final (c : Dev nD) : (dat8 V c).arrAt 3 cfg8.N = whole (V c main_v93) (V c main_arg14) (V c main_v94) :=
  (dat8 V c).arrAt_eq_of_cover 3 (whole (V c main_v93) (V c main_arg14) (V c main_v94)) (fun t _ => flushed_eq V c t) (covered)

end Cert.KernelIdeal.Head8

end
-- ==== Proof.Layers.lean ====
/-
  The idealized kernel's buffers, boundary by boundary, as stages of the specification.

  The kernel's host operations are, one for one, the specification's (same gathers, same scatter-adds, same constants); the
  kernel only hands nine pieces to grid regions: each layer's dense product, each layer's bias (+ rectifier), and each
  head layer's product + bias (+ rectifier). A region leaves in its output array the host's expression of the arrays it
  read (the per-region modules), so, walking @main's boundaries in order, every buffer that matters holds a named stage
  of the specification applied to the launch memory's arguments: the graph's indices and normalisation after the first
  stretch; then product, aggregate, bias row, activated layer, three times (the third without a rectifier); the mean pool;
  the three head layers, the last of which is the result buffer.

  No law of arithmetic is used beyond reading a product at an entry: nothing is reassociated across blocks (the grids tile
  rows, never the contracted axis), so the precondition is never opened.
-/
import proofs.«109360_j82085414961196_1_alg».proof.Proof.Gen.KernelIdeal.Frame
import proofs.«109360_j82085414961196_1_alg».proof.Proof.Spec
import proofs.«109360_j82085414961196_1_alg».proof.Proof.Carry
import proofs.«109360_j82085414961196_1_alg».proof.Proof.LibRowOfVector
import proofs.«109360_j82085414961196_1_alg».proof.Proof.LibJoinedPair
import proofs.«109360_j82085414961196_1_alg».proof.Proof.Dense0
import proofs.«109360_j82085414961196_1_alg».proof.Proof.BiasAct1
import proofs.«109360_j82085414961196_1_alg».proof.Proof.Dense2
import proofs.«109360_j82085414961196_1_alg».proof.Proof.BiasAct3
import proofs.«109360_j82085414961196_1_alg».proof.Proof.Dense4
import proofs.«109360_j82085414961196_1_alg».proof.Proof.BiasAct5
import proofs.«109360_j82085414961196_1_alg».proof.Proof.Head6
import proofs.«109360_j82085414961196_1_alg».proof.Proof.Head7
import proofs.«109360_j82085414961196_1_alg».proof.Proof.Head8
import Idealize.ShloMosaic.Lib.StableHlo.Run

set_option maxRecDepth 16384

noncomputable section

namespace Cert.KernelIdeal.Layers

open Cert.KernelIdeal Cert.KernelIdeal.Gen Cert.KernelIdeal.Carry
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## A typed reference's transport of contents is the identity

A module-local function's operations (an inlined `where`) move contents between a value's type and its buffer's type
along the equation of the two; at each literal buffer below the two types are the same, so the transport does nothing. -/

theorem toBuf_main_cst_2 {Val : EltTy → Type} (h1 : main_cst_2.ty = ⟨S_, .f32⟩) (h2 : main_cst_2.space ≠ .host) (h3 : main_cst_2.isScoped = false) (v : (⟨S_, .f32⟩ : BufTy).Contents Val) :
    (TRef.of (sig := sig) (T := ⟨S_, .f32⟩) main_cst_2 h1 h2 h3).toBuf v = v := rfl
theorem ofBuf_main_cst_2 {Val : EltTy → Type} (h1 : main_cst_2.ty = ⟨S_, .f32⟩) (h2 : main_cst_2.space ≠ .host) (h3 : main_cst_2.isScoped = false) (v : (⟨S_, .f32⟩ : BufTy).Contents Val) :
    (TRef.of (sig := sig) (T := ⟨S_, .f32⟩) main_cst_2 h1 h2 h3).ofBuf v = v := rfl
theorem toBuf_main_call0_v0 {Val : EltTy → Type} (h1 : main_call0_v0.ty = ⟨S_, .f32⟩) (h2 : main_call0_v0.space ≠ .host) (h3 : main_call0_v0.isScoped = false) (v : (⟨S_, .f32⟩ : BufTy).Contents Val) :
    (TRef.of (sig := sig) (T := ⟨S_, .f32⟩) main_call0_v0 h1 h2 h3).toBuf v = v := rfl
theorem ofBuf_main_call0_v0 {Val : EltTy → Type} (h1 : main_call0_v0.ty = ⟨S_, .f32⟩) (h2 : main_call0_v0.space ≠ .host) (h3 : main_call0_v0.isScoped = false) (v : (⟨S_, .f32⟩ : BufTy).Contents Val) :
    (TRef.of (sig := sig) (T := ⟨S_, .f32⟩) main_call0_v0 h1 h2 h3).ofBuf v = v := rfl
theorem toBuf_main_call0_v1 {Val : EltTy → Type} (h1 : main_call0_v1.ty = ⟨S40000, .f32⟩) (h2 : main_call0_v1.space ≠ .host) (h3 : main_call0_v1.isScoped = false) (v : (⟨S40000, .f32⟩ : BufTy).Contents Val) :
    (TRef.of (sig := sig) (T := ⟨S40000, .f32⟩) main_call0_v1 h1 h2 h3).toBuf v = v := rfl
theorem ofBuf_main_call0_v1 {Val : EltTy → Type} (h1 : main_call0_v1.ty = ⟨S40000, .f32⟩) (h2 : main_call0_v1.space ≠ .host) (h3 : main_call0_v1.isScoped = false) (v : (⟨S40000, .f32⟩ : BufTy).Contents Val) :
    (TRef.of (sig := sig) (T := ⟨S40000, .f32⟩) main_call0_v1 h1 h2 h3).ofBuf v = v := rfl
theorem toBuf_main_v13 {Val : EltTy → Type} (h1 : main_v13.ty = ⟨S40000, .i1⟩) (h2 : main_v13.space ≠ .host) (h3 : main_v13.isScoped = false) (v : (⟨S40000, .i1⟩ : BufTy).Contents Val) :
    (TRef.of (sig := sig) (T := ⟨S40000, .i1⟩) main_v13 h1 h2 h3).toBuf v = v := rfl
theorem ofBuf_main_v13 {Val : EltTy → Type} (h1 : main_v13.ty = ⟨S40000, .i1⟩) (h2 : main_v13.space ≠ .host) (h3 : main_v13.isScoped = false) (v : (⟨S40000, .i1⟩ : BufTy).Contents Val) :
    (TRef.of (sig := sig) (T := ⟨S40000, .i1⟩) main_v13 h1 h2 h3).ofBuf v = v := rfl
theorem toBuf_main_v14 {Val : EltTy → Type} (h1 : main_v14.ty = ⟨S40000, .f32⟩) (h2 : main_v14.space ≠ .host) (h3 : main_v14.isScoped = false) (v : (⟨S40000, .f32⟩ : BufTy).Contents Val) :
    (TRef.of (sig := sig) (T := ⟨S40000, .f32⟩) main_v14 h1 h2 h3).toBuf v = v := rfl
theorem ofBuf_main_v14 {Val : EltTy → Type} (h1 : main_v14.ty = ⟨S40000, .f32⟩) (h2 : main_v14.space ≠ .host) (h3 : main_v14.isScoped = false) (v : (⟨S40000, .f32⟩ : BufTy).Contents Val) :
    (TRef.of (sig := sig) (T := ⟨S40000, .f32⟩) main_v14 h1 h2 h3).ofBuf v = v := rfl
theorem toBuf_main_v15 {Val : EltTy → Type} (h1 : main_v15.ty = ⟨S40000, .f32⟩) (h2 : main_v15.space ≠ .host) (h3 : main_v15.isScoped = false) (v : (⟨S40000, .f32⟩ : BufTy).Contents Val) :
    (TRef.of (sig := sig) (T := ⟨S40000, .f32⟩) main_v15 h1 h2 h3).toBuf v = v := rfl
theorem ofBuf_main_v15 {Val : EltTy → Type} (h1 : main_v15.ty = ⟨S40000, .f32⟩) (h2 : main_v15.space ≠ .host) (h3 : main_v15.isScoped = false) (v : (⟨S40000, .f32⟩ : BufTy).Contents Val) :
    (TRef.of (sig := sig) (T := ⟨S40000, .f32⟩) main_v15 h1 h2 h3).ofBuf v = v := rfl

/-! ## The first stretch: the graph's indices and its normalisation -/

/-- The source indices, self-loops appended. -/
theorem row3 : W3 m ρ c (Proc.devRef .tc main_v3) = Spec.sources (F := Ideal) (arg m c main_arg1) := by
  dsimp only [W3, W2, W1]
  read_fold
  rfl

/-- The target indices, self-loops appended. -/
theorem col3 : W3 m ρ c (Proc.devRef .tc main_v6) = Spec.targets (F := Ideal) (arg m c main_arg1) := by
  dsimp only [W3, W2, W1]
  read_fold
  rfl

/-- After the first two lists of the stretch: the source indices, -/
theorem sources2 : W2 m ρ c (Proc.devRef .tc main_v3) = Spec.sources (F := Ideal) (arg m c main_arg1) := by
  dsimp only [W2, W1]
  read_fold
  rfl

/-- the target indices, -/
theorem targets2 : W2 m ρ c (Proc.devRef .tc main_v6) = Spec.targets (F := Ideal) (arg m c main_arg1) := by
  dsimp only [W2, W1]
  read_fold
  rfl

/-- the weights with a one per self-loop, -/
theorem weights2 : W2 m ρ c (Proc.devRef .tc main_v8) = Spec.weights (F := Ideal) (arg m c main_arg2) := by
  dsimp only [W2, W1]
  read_fold
  rfl

/-- and `1/√degree` where the degree is positive. -/
theorem invSqrtDeg2 : W2 m ρ c (Proc.devRef .tc main_v15) = Spec.invSqrtDeg (F := Ideal) (arg m c main_arg1) (arg m c main_arg2) := by
  dsimp only [W2, W1]
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15]
  rfl

/-- The normalisation column `invSqrtDeg[sources] · weights · invSqrtDeg[targets]`: the stretch's last list over those. -/
theorem norm3 : W3 m ρ c (Proc.devRef .tc main_v32) = Spec.norm (F := Ideal) (arg m c main_arg1) (arg m c main_arg2) := by
  dsimp only [W3]
  generalize hX : W2 m ρ c = X
  read_fold
  subst hX
  rw [sources2 m ρ c, targets2 m ρ c, weights2 m ρ c, invSqrtDeg2 m ρ c]
  rfl

/-! ## Layer 1 -/

/-- Region 0: the features times the first weights. -/
theorem prod4 : W4 m ρ c (Proc.devRef .tc main_v33) = Spec.product (F := Ideal) (arg m c main_arg0) (arg m c main_arg4) :=
  (W4_arr m ρ c 2).trans ((Dense0.final (V3 m ρ) c).trans (by
    show Dense0.product (W3 m ρ c (Proc.devRef .tc main_arg0)) (W3 m ρ c (Proc.devRef .tc main_arg4)) = _
    rw [arg_at3 m ρ c main_arg0 (by decide), arg_at3 m ρ c main_arg4 (by decide)]
    rfl))

/-- The first aggregation: gather the products at the sources, scale by the normalisation, scatter-add at the targets. -/
theorem agg5 : W5 m ρ c (Proc.devRef .tc main_v45) = Spec.aggregate (F := Ideal) (Spec.sources (F := Ideal) (arg m c main_arg1)) (Spec.targets (F := Ideal) (arg m c main_arg1)) (Spec.norm (F := Ideal) (arg m c main_arg1) (arg m c main_arg2)) (Spec.product (F := Ideal) (arg m c main_arg0) (arg m c main_arg4)) := by
  have hrow : W4 m ρ c (Proc.devRef .tc main_v3) = Spec.sources (F := Ideal) (arg m c main_arg1) := ((since3_4 m ρ c main_v3 (by decide)).trans (row3 m ρ c))
  have hcol : W4 m ρ c (Proc.devRef .tc main_v6) = Spec.targets (F := Ideal) (arg m c main_arg1) := ((since3_4 m ρ c main_v6 (by decide)).trans (col3 m ρ c))
  have hnorm : W4 m ρ c (Proc.devRef .tc main_v32) = Spec.norm (F := Ideal) (arg m c main_arg1) (arg m c main_arg2) := ((since3_4 m ρ c main_v32 (by decide)).trans (norm3 m ρ c))
  dsimp only [W5]
  read_fold
  rw [hrow, hcol, hnorm, prod4 m ρ c]
  rfl

/-- The bias vector laid out as one row: the kernel reshapes it, the specification broadcasts it. -/
theorem biasrow5 : W5 m ρ c (Proc.devRef .tc main_v46) = Spec.biasRow128 (F := Ideal) (arg m c main_arg5) := by
  have harg : W4 m ρ c (Proc.devRef .tc main_arg5) = arg m c main_arg5 := ((since3_4 m ρ c main_arg5 (by decide)).trans (arg_at3 m ρ c main_arg5 (by decide)))
  dsimp only [W5]
  read_fold
  rw [harg]
  exact RowOfVector.shapeCast_eq_broadcastInDim 128 _ _ _

/-- Region 1: bias and rectifier of layer 1. -/
theorem act6 : W6 m ρ c (Proc.devRef .tc main_v47) = Spec.hidden1 (F := Ideal) (arg m c main_arg0) (arg m c main_arg1) (arg m c main_arg2) (arg m c main_arg4) (arg m c main_arg5) :=
  (W6_arr m ρ c 2).trans ((BiasAct1.final (V5 m ρ) c).trans (by
    show BiasAct1.whole (W5 m ρ c (Proc.devRef .tc main_v45)) (W5 m ρ c (Proc.devRef .tc main_v46)) = _
    rw [agg5 m ρ c, biasrow5 m ρ c]
    rfl))

/-! ## Layer 2 -/

/-- Region 2: layer 1's output times the second weights. -/
theorem prod7 : W7 m ρ c (Proc.devRef .tc main_v48) = Spec.product (F := Ideal) (Spec.hidden1 (F := Ideal) (arg m c main_arg0) (arg m c main_arg1) (arg m c main_arg2) (arg m c main_arg4) (arg m c main_arg5)) (arg m c main_arg6) :=
  (W7_arr m ρ c 2).trans ((Dense2.final (V6 m ρ) c).trans (by
    show Dense2.product (W6 m ρ c (Proc.devRef .tc main_v47)) (W6 m ρ c (Proc.devRef .tc main_arg6)) = _
    rw [act6 m ρ c, ((since3_6 m ρ c main_arg6 (by decide)).trans (arg_at3 m ρ c main_arg6 (by decide)))]
    rfl))

/-- The second aggregation. -/
theorem agg8 : W8 m ρ c (Proc.devRef .tc main_v60) = Spec.aggregate (F := Ideal) (Spec.sources (F := Ideal) (arg m c main_arg1)) (Spec.targets (F := Ideal) (arg m c main_arg1)) (Spec.norm (F := Ideal) (arg m c main_arg1) (arg m c main_arg2)) (Spec.product (F := Ideal) (Spec.hidden1 (F := Ideal) (arg m c main_arg0) (arg m c main_arg1) (arg m c main_arg2) (arg m c main_arg4) (arg m c main_arg5)) (arg m c main_arg6)) := by
  have hrow : W7 m ρ c (Proc.devRef .tc main_v3) = Spec.sources (F := Ideal) (arg m c main_arg1) := ((since3_7 m ρ c main_v3 (by decide)).trans (row3 m ρ c))
  have hcol : W7 m ρ c (Proc.devRef .tc main_v6) = Spec.targets (F := Ideal) (arg m c main_arg1) := ((since3_7 m ρ c main_v6 (by decide)).trans (col3 m ρ c))
  have hnorm : W7 m ρ c (Proc.devRef .tc main_v32) = Spec.norm (F := Ideal) (arg m c main_arg1) (arg m c main_arg2) := ((since3_7 m ρ c main_v32 (by decide)).trans (norm3 m ρ c))
  dsimp only [W8]
  read_fold
  rw [hrow, hcol, hnorm, prod7 m ρ c]
  rfl

/-- The bias vector laid out as one row: the kernel reshapes it, the specification broadcasts it. -/
theorem biasrow8 : W8 m ρ c (Proc.devRef .tc main_v61) = Spec.biasRow128 (F := Ideal) (arg m c main_arg7) := by
  have harg : W7 m ρ c (Proc.devRef .tc main_arg7) = arg m c main_arg7 := ((since3_7 m ρ c main_arg7 (by decide)).trans (arg_at3 m ρ c main_arg7 (by decide)))
  dsimp only [W8]
  read_fold
  rw [harg]
  exact RowOfVector.shapeCast_eq_broadcastInDim 128 _ _ _

/-- Region 3: bias and rectifier of layer 2. -/
theorem act9 : W9 m ρ c (Proc.devRef .tc main_v62) = Spec.hidden2 (F := Ideal) (arg m c main_arg0) (arg m c main_arg1) (arg m c main_arg2) (arg m c main_arg4) (arg m c main_arg5) (arg m c main_arg6) (arg m c main_arg7) :=
  (W9_arr m ρ c 2).trans ((BiasAct3.final (V8 m ρ) c).trans (by
    show BiasAct3.whole (W8 m ρ c (Proc.devRef .tc main_v60)) (W8 m ρ c (Proc.devRef .tc main_v61)) = _
    rw [agg8 m ρ c, biasrow8 m ρ c]
    rfl))

/-! ## Layer 3 -/

/-- Region 4: layer 2's output times the third weights. -/
theorem prod10 : W10 m ρ c (Proc.devRef .tc main_v63) = Spec.product (F := Ideal) (Spec.hidden2 (F := Ideal) (arg m c main_arg0) (arg m c main_arg1) (arg m c main_arg2) (arg m c main_arg4) (arg m c main_arg5) (arg m c main_arg6) (arg m c main_arg7)) (arg m c main_arg8) :=
  (W10_arr m ρ c 2).trans ((Dense4.final (V9 m ρ) c).trans (by
    show Dense4.product (W9 m ρ c (Proc.devRef .tc main_v62)) (W9 m ρ c (Proc.devRef .tc main_arg8)) = _
    rw [act9 m ρ c, ((since3_9 m ρ c main_arg8 (by decide)).trans (arg_at3 m ρ c main_arg8 (by decide)))]
    rfl))

/-- The third aggregation. -/
theorem agg11 : W11 m ρ c (Proc.devRef .tc main_v75) = Spec.aggregate (F := Ideal) (Spec.sources (F := Ideal) (arg m c main_arg1)) (Spec.targets (F := Ideal) (arg m c main_arg1)) (Spec.norm (F := Ideal) (arg m c main_arg1) (arg m c main_arg2)) (Spec.product (F := Ideal) (Spec.hidden2 (F := Ideal) (arg m c main_arg0) (arg m c main_arg1) (arg m c main_arg2) (arg m c main_arg4) (arg m c main_arg5) (arg m c main_arg6) (arg m c main_arg7)) (arg m c main_arg8)) := by
  have hrow : W10 m ρ c (Proc.devRef .tc main_v3) = Spec.sources (F := Ideal) (arg m c main_arg1) := ((since3_10 m ρ c main_v3 (by decide)).trans (row3 m ρ c))
  have hcol : W10 m ρ c (Proc.devRef .tc main_v6) = Spec.targets (F := Ideal) (arg m c main_arg1) := ((since3_10 m ρ c main_v6 (by decide)).trans (col3 m ρ c))
  have hnorm : W10 m ρ c (Proc.devRef .tc main_v32) = Spec.norm (F := Ideal) (arg m c main_arg1) (arg m c main_arg2) := ((since3_10 m ρ c main_v32 (by decide)).trans (norm3 m ρ c))
  dsimp only [W11]
  read_fold
  rw [hrow, hcol, hnorm, prod10 m ρ c]
  rfl

/-- The bias vector laid out as one row: the kernel reshapes it, the specification broadcasts it. -/
theorem biasrow11 : W11 m ρ c (Proc.devRef .tc main_v76) = Spec.biasRow128 (F := Ideal) (arg m c main_arg9) := by
  have harg : W10 m ρ c (Proc.devRef .tc main_arg9) = arg m c main_arg9 := ((since3_10 m ρ c main_arg9 (by decide)).trans (arg_at3 m ρ c main_arg9 (by decide)))
  dsimp only [W11]
  read_fold
  rw [harg]
  exact RowOfVector.shapeCast_eq_broadcastInDim 128 _ _ _

/-- Region 5: the bias of layer 3 (no rectifier). -/
theorem bias12 : W12 m ρ c (Proc.devRef .tc main_v77) = Spec.hidden3 (F := Ideal) (arg m c main_arg0) (arg m c main_arg1) (arg m c main_arg2) (arg m c main_arg4) (arg m c main_arg5) (arg m c main_arg6) (arg m c main_arg7) (arg m c main_arg8) (arg m c main_arg9) :=
  (W12_arr m ρ c 2).trans ((BiasAct5.final (V11 m ρ) c).trans (by
    show BiasAct5.whole (W11 m ρ c (Proc.devRef .tc main_v75)) (W11 m ρ c (Proc.devRef .tc main_v76)) = _
    rw [agg11 m ρ c, biasrow11 m ρ c]
    rfl))

/-! ## The mean over each graph's nodes -/

/-- Sums per graph divided by the clamped node counts. -/
theorem pool13 : W13 m ρ c (Proc.devRef .tc main_v89) = Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9)) := by
  have hbatch : W12 m ρ c (Proc.devRef .tc main_arg3) = arg m c main_arg3 := ((since3_12 m ρ c main_arg3 (by decide)).trans (arg_at3 m ρ c main_arg3 (by decide)))
  dsimp only [W13]
  read_fold
  rw [hbatch, bias12 m ρ c]
  rfl

/-- The bias vector laid out as one row: the kernel reshapes it, the specification broadcasts it. -/
theorem biasrow13 : W13 m ρ c (Proc.devRef .tc main_v90) = Spec.biasRow64 (F := Ideal) (arg m c main_arg11) := by
  have harg : W12 m ρ c (Proc.devRef .tc main_arg11) = arg m c main_arg11 := ((since3_12 m ρ c main_arg11 (by decide)).trans (arg_at3 m ρ c main_arg11 (by decide)))
  dsimp only [W13]
  read_fold
  rw [harg]
  exact RowOfVector.shapeCast_eq_broadcastInDim 64 _ _ _

/-! ## The head -/

/-- Region 6: the head's first layer. -/
theorem head14 : W14 m ρ c (Proc.devRef .tc main_v91) = Spec.head1 (F := Ideal) (Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9))) (arg m c main_arg10) (Spec.biasRow64 (F := Ideal) (arg m c main_arg11)) :=
  (W14_arr m ρ c 3).trans ((Head6.final (V13 m ρ) c).trans (by
    show Head6.whole (W13 m ρ c (Proc.devRef .tc main_v89)) (W13 m ρ c (Proc.devRef .tc main_arg10)) (W13 m ρ c (Proc.devRef .tc main_v90)) = _
    rw [pool13 m ρ c, ((since3_13 m ρ c main_arg10 (by decide)).trans (arg_at3 m ρ c main_arg10 (by decide))), biasrow13 m ρ c]
    rfl))

/-- The bias vector laid out as one row: the kernel reshapes it, the specification broadcasts it. -/
theorem biasrow15 : W15 m ρ c (Proc.devRef .tc main_v92) = Spec.biasRow32 (F := Ideal) (arg m c main_arg13) := by
  have harg : W14 m ρ c (Proc.devRef .tc main_arg13) = arg m c main_arg13 := ((since3_14 m ρ c main_arg13 (by decide)).trans (arg_at3 m ρ c main_arg13 (by decide)))
  dsimp only [W15]
  read_fold
  rw [harg]
  exact RowOfVector.shapeCast_eq_broadcastInDim 32 _ _ _

/-- The one-operation stretch before region 7 leaves region 6's output alone. -/
theorem head15 : W15 m ρ c (Proc.devRef .tc main_v91) = Spec.head1 (F := Ideal) (Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9))) (arg m c main_arg10) (Spec.biasRow64 (F := Ideal) (arg m c main_arg11)) :=
  (by untouched_by hostOps7 : W15 m ρ c (Proc.devRef .tc main_v91) = W14 m ρ c (Proc.devRef .tc main_v91)).trans (head14 m ρ c)

/-- Region 7: the head's second layer. -/
theorem head16 : W16 m ρ c (Proc.devRef .tc main_v93) = Spec.head2 (F := Ideal) (Spec.head1 (F := Ideal) (Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9))) (arg m c main_arg10) (Spec.biasRow64 (F := Ideal) (arg m c main_arg11))) (arg m c main_arg12) (Spec.biasRow32 (F := Ideal) (arg m c main_arg13)) :=
  (W16_arr m ρ c 3).trans ((Head7.final (V15 m ρ) c).trans (by
    show Head7.whole (W15 m ρ c (Proc.devRef .tc main_v91)) (W15 m ρ c (Proc.devRef .tc main_arg12)) (W15 m ρ c (Proc.devRef .tc main_v92)) = _
    rw [head15 m ρ c, ((since3_15 m ρ c main_arg12 (by decide)).trans (arg_at3 m ρ c main_arg12 (by decide))), biasrow15 m ρ c]
    rfl))

/-- The bias vector laid out as one row: the kernel reshapes it, the specification broadcasts it. -/
theorem biasrow17 : W17 m ρ c (Proc.devRef .tc main_v94) = Spec.biasRow2 (F := Ideal) (arg m c main_arg15) := by
  have harg : W16 m ρ c (Proc.devRef .tc main_arg15) = arg m c main_arg15 := ((since3_16 m ρ c main_arg15 (by decide)).trans (arg_at3 m ρ c main_arg15 (by decide)))
  dsimp only [W17]
  read_fold
  rw [harg]
  exact RowOfVector.shapeCast_eq_broadcastInDim 2 _ _ _

/-- The one-operation stretch before region 8 leaves region 7's output alone. -/
theorem head17 : W17 m ρ c (Proc.devRef .tc main_v93) = Spec.head2 (F := Ideal) (Spec.head1 (F := Ideal) (Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9))) (arg m c main_arg10) (Spec.biasRow64 (F := Ideal) (arg m c main_arg11))) (arg m c main_arg12) (Spec.biasRow32 (F := Ideal) (arg m c main_arg13)) :=
  (by untouched_by hostOps8 : W17 m ρ c (Proc.devRef .tc main_v93) = W16 m ρ c (Proc.devRef .tc main_v93)).trans (head16 m ρ c)

/-- Region 8: the head's last layer — the result buffer at the last boundary is the specification's network. -/
theorem result : W18 m ρ c (Proc.devRef .tc main_v95) = Spec.network (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) :=
  (W18_arr m ρ c 3).trans ((Head8.final (V17 m ρ) c).trans (by
    show Head8.whole (W17 m ρ c (Proc.devRef .tc main_v93)) (W17 m ρ c (Proc.devRef .tc main_arg14)) (W17 m ρ c (Proc.devRef .tc main_v94)) = _
    rw [head17 m ρ c, ((since3_17 m ρ c main_arg14 (by decide)).trans (arg_at3 m ρ c main_arg14 (by decide))), biasrow17 m ρ c]
    rfl))

end Cert.KernelIdeal.Layers

end
-- ==== Proof.RefLine.lean ====
/-
  The reference's run.

  The reference's @main is a straight line of 242 host operations. Every weakly fair execution of such a program
  terminates, and each buffer ends at the fold of the operations' pure functions over the launch contents
  (`StableHlo.run_seq`). The line is cut here into ten segments, at the stages the value proof names — after the first
  product, after each layer's activation, after each recomputation of the graph's normalisation, after the pooling and
  after each head layer — and the fold over the whole line is the folds over the segments one after the other
  (`after_append`). What each segment leaves is read elsewhere, one segment at a time: the composed term of all 242
  operations is never written out.
-/
import proofs.«109360_j82085414961196_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Folding a line of operations cut in two is folding the first part, then the second. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Operations 1–44 of @main: the graph's indices, weights, degrees and normalisation; the first product. -/
abbrev seg1 : List (HloOp τ sig (Elt F)) :=
  [ nullary main_v0 (iotaInDim S40000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    nullary main_cst (constant S_ .f32 0x3F800000#32),
    unary main_cst main_v7 (broadcastInDim S40000 ![] bcast_S_S40000 : (⟨S_, .f32⟩ : BufTy).Contents (Elt F) → (⟨S40000, .f32⟩ : BufTy).Contents (Elt F)),
    binary main_arg2 main_v7 main_v8 ((fun a b => concatenate S680000 0 [⟨S640000, a⟩, ⟨S40000, b⟩] concatenates_S640000_S40000_S680000_d0) : (⟨S640000, .f32⟩ : BufTy).Contents (Elt F) → (⟨S40000, .f32⟩ : BufTy).Contents (Elt F) → (⟨S680000, .f32⟩ : BufTy).Contents (Elt F)),
    nullary main_cst_0 (constant S_ .f32 0x00000000#32),
    unary main_cst_0 main_v9 (broadcastInDim S40000 ![] bcast_S_S40000 : (⟨S_, .f32⟩ : BufTy).Contents (Elt F) → (⟨S40000, .f32⟩ : BufTy).Contents (Elt F)),
    unary main_v6 main_v10 (broadcastInDim S680000x1 ![0] bcast_S680000_S680000x1_0 : (⟨S680000, .i32⟩ : BufTy).Contents (Elt F) → (⟨S680000x1, .i32⟩ : BufTy).Contents (Elt F)),
    ternary main_v9 main_v10 main_v8 main_v11 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    nullary main_cst_1 (constant S_ .f32 0x00000000#32),
    unary main_cst_1 main_v12 (broadcastInDim S40000 ![] bcast_S_S40000 : (⟨S_, .f32⟩ : BufTy).Contents (Elt F) → (⟨S40000, .f32⟩ : BufTy).Contents (Elt F)),
    binary main_v11 main_v12 main_v13 (cmpf .ogt : (⟨S40000, .f32⟩ : BufTy).Contents (Elt F) → (⟨S40000, .f32⟩ : BufTy).Contents (Elt F) → (⟨S40000, .i1⟩ : BufTy).Contents (Elt F)),
    unary main_v11 main_v14 (Host.rsqrt : (⟨S40000, .f32⟩ : BufTy).Contents (Elt F) → (⟨S40000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S40000, .f32⟩) main_call0_v1) (broadcastInDim S40000 ![] bcast_S_S40000),
    TRef.ternary (TRef.of (T := ⟨S40000, .i1⟩) main_v13) (TRef.of (T := ⟨S40000, .f32⟩) main_v14) (TRef.of (T := ⟨S40000, .f32⟩) main_call0_v1) (TRef.of (T := ⟨S40000, .f32⟩) main_v15) select,
    nullary main_c (constantI S_ 32 0#32),
    unary main_c main_v16 (broadcastInDim S680000 ![] bcast_S_S680000 : (⟨S_, .i32⟩ : BufTy).Contents (Elt F) → (⟨S680000, .i32⟩ : BufTy).Contents (Elt F)),
    binary main_v3 main_v16 main_v17 (cmpi .slt : (⟨S680000, .i32⟩ : BufTy).Contents (Elt F) → (⟨S680000, .i32⟩ : BufTy).Contents (Elt F) → (⟨S680000, .i1⟩ : BufTy).Contents (Elt F)),
    nullary main_c_3 (constantI S_ 32 40000#32),
    unary main_c_3 main_v18 (broadcastInDim S680000 ![] bcast_S_S680000 : (⟨S_, .i32⟩ : BufTy).Contents (Elt F) → (⟨S680000, .i32⟩ : BufTy).Contents (Elt F)),
    binary main_v3 main_v18 main_v19 (addi : (⟨S680000, .i32⟩ : BufTy).Contents (Elt F) → (⟨S680000, .i32⟩ : BufTy).Contents (Elt F) → (⟨S680000, .i32⟩ : BufTy).Contents (Elt F)),
    ternary main_v17 main_v19 main_v3 main_v20 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v20 main_v21 (broadcastInDim S680000x1 ![0] bcast_S680000_S680000x1_0 : (⟨S680000, .i32⟩ : BufTy).Contents (Elt F) → (⟨S680000x1, .i32⟩ : BufTy).Contents (Elt F)),
    binary main_v15 main_v21 main_v22 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    binary main_v22 main_v8 main_v23 (mulf : (⟨S680000, .f32⟩ : BufTy).Contents (Elt F) → (⟨S680000, .f32⟩ : BufTy).Contents (Elt F) → (⟨S680000, .f32⟩ : BufTy).Contents (Elt F)),
    nullary main_c_4 (constantI S_ 32 0#32),
    unary main_c_4 main_v24 (broadcastInDim S680000 ![] bcast_S_S680000 : (⟨S_, .i32⟩ : BufTy).Contents (Elt F) → (⟨S680000, .i32⟩ : BufTy).Contents (Elt F)),
    binary main_v6 main_v24 main_v25 (cmpi .slt : (⟨S680000, .i32⟩ : BufTy).Contents (Elt F) → (⟨S680000, .i32⟩ : BufTy).Contents (Elt F) → (⟨S680000, .i1⟩ : BufTy).Contents (Elt F)),
    nullary main_c_5 (constantI S_ 32 40000#32),
    unary main_c_5 main_v26 (broadcastInDim S680000 ![] bcast_S_S680000 : (⟨S_, .i32⟩ : BufTy).Contents (Elt F) → (⟨S680000, .i32⟩ : BufTy).Contents (Elt F)),
    binary main_v6 main_v26 main_v27 (addi : (⟨S680000, .i32⟩ : BufTy).Contents (Elt F) → (⟨S680000, .i32⟩ : BufTy).Contents (Elt F) → (⟨S680000, .i32⟩ : BufTy).Contents (Elt F)),
    ternary main_v25 main_v27 main_v6 main_v28 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v28 main_v29 (broadcastInDim S680000x1 ![0] bcast_S680000_S680000x1_0 : (⟨S680000, .i32⟩ : BufTy).Contents (Elt F) → (⟨S680000x1, .i32⟩ : BufTy).Contents (Elt F)),
    binary main_v15 main_v29 main_v30 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    binary main_v23 main_v30 main_v31 (mulf : (⟨S680000, .f32⟩ : BufTy).Contents (Elt F) → (⟨S680000, .f32⟩ : BufTy).Contents (Elt F) → (⟨S680000, .f32⟩ : BufTy).Contents (Elt F)),
    binary main_arg0 main_arg4 main_v32 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_v31 main_v33 (broadcastInDim S680000x1 ![0] bcast_S680000_S680000x1_0 : (⟨S680000, .f32⟩ : BufTy).Contents (Elt F) → (⟨S680000x1, .f32⟩ : BufTy).Contents (Elt F)) ]
theorem seg1_sub : (seg1 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub ..⟩
theorem seg1_fresh : ∀ op ∈ (seg1 : List (HloOp τ sig (Elt F))), op.fresh = ∅ := by
  intro _ h; (repeat (cases h with | head => rfl | tail _ h => ?_)); exact nomatch h

/-- Operations 45–69 of @main: the first aggregation, its bias and rectifier. -/
abbrev seg2 : List (HloOp τ sig (Elt F)) :=
  [ nullary main_c_6 (constantI S_ 32 0#32),
    unary main_c_6 main_v34 (broadcastInDim S680000 ![] bcast_S_S680000 : (⟨S_, .i32⟩ : BufTy).Contents (Elt F) → (⟨S680000, .i32⟩ : BufTy).Contents (Elt F)),
    binary main_v3 main_v34 main_v35 (cmpi .slt : (⟨S680000, .i32⟩ : BufTy).Contents (Elt F) → (⟨S680000, .i32⟩ : BufTy).Contents (Elt F) → (⟨S680000, .i1⟩ : BufTy).Contents (Elt F)),
    nullary main_c_7 (constantI S_ 32 40000#32),
    unary main_c_7 main_v36 (broadcastInDim S680000 ![] bcast_S_S680000 : (⟨S_, .i32⟩ : BufTy).Contents (Elt F) → (⟨S680000, .i32⟩ : BufTy).Contents (Elt F)),
    binary main_v3 main_v36 main_v37 (addi : (⟨S680000, .i32⟩ : BufTy).Contents (Elt F) → (⟨S680000, .i32⟩ : BufTy).Contents (Elt F) → (⟨S680000, .i32⟩ : BufTy).Contents (Elt F)),
    ternary main_v35 main_v37 main_v3 main_v38 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v38 main_v39 (broadcastInDim S680000x1 ![0] bcast_S680000_S680000x1_0 : (⟨S680000, .i32⟩ : BufTy).Contents (Elt F) → (⟨S680000x1, .i32⟩ : BufTy).Contents (Elt F)),
    binary main_v32 main_v39 main_v40 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    unary main_v33 main_v41 (broadcastInDim S680000x128 ![0, 1] bcast_S680000x1_S680000x128_0_1 : (⟨S680000x1, .f32⟩ : BufTy).Contents (Elt F) → (⟨S680000x128, .f32⟩ : BufTy).Contents (Elt F)),
    binary main_v41 main_v40 main_v42 (mulf : (⟨S680000x128, .f32⟩ : BufTy).Contents (Elt F) → (⟨S680000x128, .f32⟩ : BufTy).Contents (Elt F) → (⟨S680000x128, .f32⟩ : BufTy).Contents (Elt F)),
    nullary main_cst_8 (constant S_ .f32 0x00000000#32),
    unary main_cst_8 main_v43 (broadcastInDim S40000x128 ![] bcast_S_S40000x128 : (⟨S_, .f32⟩ : BufTy).Contents (Elt F) → (⟨S40000x128, .f32⟩ : BufTy).Contents (Elt F)),
    unary main_v6 main_v44 (broadcastInDim S680000x1 ![0] bcast_S680000_S680000x1_0 : (⟨S680000, .i32⟩ : BufTy).Contents (Elt F) → (⟨S680000x1, .i32⟩ : BufTy).Contents (Elt F)),
    ternary main_v43 main_v44 main_v42 main_v45 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S40000x128 ![0, 1] bcast_S1x128_S40000x128_0_1 : (⟨S1x128, .f32⟩ : BufTy).Contents (Elt F) → (⟨S40000x128, .f32⟩ : BufTy).Contents (Elt F)),
    binary main_v45 main_v47 main_v48 (addf : (⟨S40000x128, .f32⟩ : BufTy).Contents (Elt F) → (⟨S40000x128, .f32⟩ : BufTy).Contents (Elt F) → (⟨S40000x128, .f32⟩ : BufTy).Contents (Elt F)),
    nullary main_cst_9 (constant S_ .f32 0x00000000#32),
    unary main_cst_9 main_v49 (broadcastInDim S40000x128 ![] bcast_S_S40000x128 : (⟨S_, .f32⟩ : BufTy).Contents (Elt F) → (⟨S40000x128, .f32⟩ : BufTy).Contents (Elt F)),
    binary main_v48 main_v49 main_v50 (cmpf .ogt : (⟨S40000x128, .f32⟩ : BufTy).Contents (Elt F) → (⟨S40000x128, .f32⟩ : BufTy).Contents (Elt F) → (⟨S40000x128, .i1⟩ : BufTy).Contents (Elt F)),
    nullary main_cst_10 (constant S_ .f32 0x3C23D70A#32),
    unary main_cst_10 main_v51 (broadcastInDim S40000x128 ![] bcast_S_S40000x128 : (⟨S_, .f32⟩ : BufTy).Contents (Elt F) → (⟨S40000x128, .f32⟩ : BufTy).Contents (Elt F)),
    binary main_v51 main_v48 main_v52 (mulf : (⟨S40000x128, .f32⟩ : BufTy).Contents (Elt F) → (⟨S40000x128, .f32⟩ : BufTy).Contents (Elt F) → (⟨S40000x128, .f32⟩ : BufTy).Contents (Elt F)),
    TRef.ternary (TRef.of (T := ⟨S40000x128, .i1⟩) main_v50) (TRef.of (T := ⟨S40000x128, .f32⟩) main_v48) (TRef.of (T := ⟨S40000x128, .f32⟩) main_v52) (TRef.of (T := ⟨S40000x128, .f32⟩) main_v53) select ]
theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem seg2_fresh : ∀ op ∈ (seg2 : List (HloOp τ sig (Elt F))), op.fresh = ∅ := by
  intro _ h; (repeat (cases h with | head => rfl | tail _ h => ?_)); exact nomatch h

/-- Operations 70–113 of @main: the indices and normalisation again; the second product. -/
abbrev seg3 : List (HloOp τ sig (Elt F)) :=
  [ nullary main_v54 (iotaInDim S40000 32 0),
    unary main_arg1 main_v55 ((extractStridedSlice S1x640000 ![0, 0] · slices_S2x640000_S1x640000_0_0) : (⟨S2x640000, .i32⟩ : BufTy).Contents (Elt F) → (⟨S1x640000, .i32⟩ : BufTy).Contents (Elt F)),
    reshape main_v55 main_v56 rfl shapeCasts_S1x640000_S640000,
    binary main_v56 main_v54 main_v57 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    unary main_arg1 main_v58 ((extractStridedSlice S1x640000 ![1, 0] · slices_S2x640000_S1x640000_1_0) : (⟨S2x640000, .i32⟩ : BufTy).Contents (Elt F) → (⟨S1x640000, .i32⟩ : BufTy).Contents (Elt F)),
    reshape main_v58 main_v59 rfl shapeCasts_S1x640000_S640000,
    binary main_v59 main_v54 main_v60 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    nullary main_cst_11 (constant S_ .f32 0x3F800000#32),
    unary main_cst_11 main_v61 (broadcastInDim S40000 ![] bcast_S_S40000 : (⟨S_, .f32⟩ : BufTy).Contents (Elt F) → (⟨S40000, .f32⟩ : BufTy).Contents (Elt F)),
    binary main_arg2 main_v61 main_v62 ((fun a b => concatenate S680000 0 [⟨S640000, a⟩, ⟨S40000, b⟩] concatenates_S640000_S40000_S680000_d0) : (⟨S640000, .f32⟩ : BufTy).Contents (Elt F) → (⟨S40000, .f32⟩ : BufTy).Contents (Elt F) → (⟨S680000, .f32⟩ : BufTy).Contents (Elt F)),
    nullary main_cst_12 (constant S_ .f32 0x00000000#32),
    unary main_cst_12 main_v63 (broadcastInDim S40000 ![] bcast_S_S40000 : (⟨S_, .f32⟩ : BufTy).Contents (Elt F) → (⟨S40000, .f32⟩ : BufTy).Contents (Elt F)),
    unary main_v60 main_v64 (broadcastInDim S680000x1 ![0] bcast_S680000_S680000x1_0 : (⟨S680000, .i32⟩ : BufTy).Contents (Elt F) → (⟨S680000x1, .i32⟩ : BufTy).Contents (Elt F)),
    ternary main_v63 main_v64 main_v62 main_v65 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    nullary main_cst_13 (constant S_ .f32 0x00000000#32),
    unary main_cst_13 main_v66 (broadcastInDim S40000 ![] bcast_S_S40000 : (⟨S_, .f32⟩ : BufTy).Contents (Elt F) → (⟨S40000, .f32⟩ : BufTy).Contents (Elt F)),
    binary main_v65 main_v66 main_v67 (cmpf .ogt : (⟨S40000, .f32⟩ : BufTy).Contents (Elt F) → (⟨S40000, .f32⟩ : BufTy).Contents (Elt F) → (⟨S40000, .i1⟩ : BufTy).Contents (Elt F)),
    unary main_v65 main_v68 (Host.rsqrt : (⟨S40000, .f32⟩ : BufTy).Contents (Elt F) → (⟨S40000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S40000, .f32⟩) main_call2_v1) (broadcastInDim S40000 ![] bcast_S_S40000),
    TRef.ternary (TRef.of (T := ⟨S40000, .i1⟩) main_v67) (TRef.of (T := ⟨S40000, .f32⟩) main_v68) (TRef.of (T := ⟨S40000, .f32⟩) main_call2_v1) (TRef.of (T := ⟨S40000, .f32⟩) main_v69) select,
    nullary main_c_15 (constantI S_ 32 0#32),
    unary main_c_15 main_v70 (broadcastInDim S680000 ![] bcast_S_S680000 : (⟨S_, .i32⟩ : BufTy).Contents (Elt F) → (⟨S680000, .i32⟩ : BufTy).Contents (Elt F)),
    binary main_v57 main_v70 main_v71 (cmpi .slt : (⟨S680000, .i32⟩ : BufTy).Contents (Elt F) → (⟨S680000, .i32⟩ : BufTy).Contents (Elt F) → (⟨S680000, .i1⟩ : BufTy).Contents (Elt F)),
    nullary main_c_16 (constantI S_ 32 40000#32),
    unary main_c_16 main_v72 (broadcastInDim S680000 ![] bcast_S_S680000 : (⟨S_, .i32⟩ : BufTy).Contents (Elt F) → (⟨S680000, .i32⟩ : BufTy).Contents (Elt F)),
    binary main_v57 main_v72 main_v73 (addi : (⟨S680000, .i32⟩ : BufTy).Contents (Elt F) → (⟨S680000, .i32⟩ : BufTy).Contents (Elt F) → (⟨S680000, .i32⟩ : BufTy).Contents (Elt F)),
    ternary main_v71 main_v73 main_v57 main_v74 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v74 main_v75 (broadcastInDim S680000x1 ![0] bcast_S680000_S680000x1_0 : (⟨S680000, .i32⟩ : BufTy).Contents (Elt F) → (⟨S680000x1, .i32⟩ : BufTy).Contents (Elt F)),
    binary main_v69 main_v75 main_v76 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    binary main_v76 main_v62 main_v77 (mulf : (⟨S680000, .f32⟩ : BufTy).Contents (Elt F) → (⟨S680000, .f32⟩ : BufTy).Contents (Elt F) → (⟨S680000, .f32⟩ : BufTy).Contents (Elt F)),
    nullary main_c_17 (constantI S_ 32 0#32),
    unary main_c_17 main_v78 (broadcastInDim S680000 ![] bcast_S_S680000 : (⟨S_, .i32⟩ : BufTy).Contents (Elt F) → (⟨S680000, .i32⟩ : BufTy).Contents (Elt F)),
    binary main_v60 main_v78 main_v79 (cmpi .slt : (⟨S680000, .i32⟩ : BufTy).Contents (Elt F) → (⟨S680000, .i32⟩ : BufTy).Contents (Elt F) → (⟨S680000, .i1⟩ : BufTy).Contents (Elt F)),
    nullary main_c_18 (constantI S_ 32 40000#32),
    unary main_c_18 main_v80 (broadcastInDim S680000 ![] bcast_S_S680000 : (⟨S_, .i32⟩ : BufTy).Contents (Elt F) → (⟨S680000, .i32⟩ : BufTy).Contents (Elt F)),
    binary main_v60 main_v80 main_v81 (addi : (⟨S680000, .i32⟩ : BufTy).Contents (Elt F) → (⟨S680000, .i32⟩ : BufTy).Contents (Elt F) → (⟨S680000, .i32⟩ : BufTy).Contents (Elt F)),
    ternary main_v79 main_v81 main_v60 main_v82 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v82 main_v83 (broadcastInDim S680000x1 ![0] bcast_S680000_S680000x1_0 : (⟨S680000, .i32⟩ : BufTy).Contents (Elt F) → (⟨S680000x1, .i32⟩ : BufTy).Contents (Elt F)),
    binary main_v69 main_v83 main_v84 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    binary main_v77 main_v84 main_v85 (mulf : (⟨S680000, .f32⟩ : BufTy).Contents (Elt F) → (⟨S680000, .f32⟩ : BufTy).Contents (Elt F) → (⟨S680000, .f32⟩ : BufTy).Contents (Elt F)),
    binary main_v53 main_arg6 main_v86 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_v85 main_v87 (broadcastInDim S680000x1 ![0] bcast_S680000_S680000x1_0 : (⟨S680000, .f32⟩ : BufTy).Contents (Elt F) → (⟨S680000x1, .f32⟩ : BufTy).Contents (Elt F)) ]
theorem seg3_sub : (seg3 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub ..⟩
theorem seg3_fresh : ∀ op ∈ (seg3 : List (HloOp τ sig (Elt F))), op.fresh = ∅ := by
  intro _ h; (repeat (cases h with | head => rfl | tail _ h => ?_)); exact nomatch h

/-- Operations 114–138 of @main: the second aggregation, its bias and rectifier. -/
abbrev seg4 : List (HloOp τ sig (Elt F)) :=
  [ nullary main_c_19 (constantI S_ 32 0#32),
    unary main_c_19 main_v88 (broadcastInDim S680000 ![] bcast_S_S680000 : (⟨S_, .i32⟩ : BufTy).Contents (Elt F) → (⟨S680000, .i32⟩ : BufTy).Contents (Elt F)),
    binary main_v57 main_v88 main_v89 (cmpi .slt : (⟨S680000, .i32⟩ : BufTy).Contents (Elt F) → (⟨S680000, .i32⟩ : BufTy).Contents (Elt F) → (⟨S680000, .i1⟩ : BufTy).Contents (Elt F)),
    nullary main_c_20 (constantI S_ 32 40000#32),
    unary main_c_20 main_v90 (broadcastInDim S680000 ![] bcast_S_S680000 : (⟨S_, .i32⟩ : BufTy).Contents (Elt F) → (⟨S680000, .i32⟩ : BufTy).Contents (Elt F)),
    binary main_v57 main_v90 main_v91 (addi : (⟨S680000, .i32⟩ : BufTy).Contents (Elt F) → (⟨S680000, .i32⟩ : BufTy).Contents (Elt F) → (⟨S680000, .i32⟩ : BufTy).Contents (Elt F)),
    ternary main_v89 main_v91 main_v57 main_v92 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v92 main_v93 (broadcastInDim S680000x1 ![0] bcast_S680000_S680000x1_0 : (⟨S680000, .i32⟩ : BufTy).Contents (Elt F) → (⟨S680000x1, .i32⟩ : BufTy).Contents (Elt F)),
    binary main_v86 main_v93 main_v94 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    unary main_v87 main_v95 (broadcastInDim S680000x128 ![0, 1] bcast_S680000x1_S680000x128_0_1 : (⟨S680000x1, .f32⟩ : BufTy).Contents (Elt F) → (⟨S680000x128, .f32⟩ : BufTy).Contents (Elt F)),
    binary main_v95 main_v94 main_v96 (mulf : (⟨S680000x128, .f32⟩ : BufTy).Contents (Elt F) → (⟨S680000x128, .f32⟩ : BufTy).Contents (Elt F) → (⟨S680000x128, .f32⟩ : BufTy).Contents (Elt F)),
    nullary main_cst_21 (constant S_ .f32 0x00000000#32),
    unary main_cst_21 main_v97 (broadcastInDim S40000x128 ![] bcast_S_S40000x128 : (⟨S_, .f32⟩ : BufTy).Contents (Elt F) → (⟨S40000x128, .f32⟩ : BufTy).Contents (Elt F)),
    unary main_v60 main_v98 (broadcastInDim S680000x1 ![0] bcast_S680000_S680000x1_0 : (⟨S680000, .i32⟩ : BufTy).Contents (Elt F) → (⟨S680000x1, .i32⟩ : BufTy).Contents (Elt F)),
    ternary main_v97 main_v98 main_v96 main_v99 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    unary main_arg7 main_v100 (broadcastInDim S1x128 ![1] bcast_S128_S1x128_1 : (⟨S128, .f32⟩ : BufTy).Contents (Elt F) → (⟨S1x128, .f32⟩ : BufTy).Contents (Elt F)),
    unary main_v100 main_v101 (broadcastInDim S40000x128 ![0, 1] bcast_S1x128_S40000x128_0_1 : (⟨S1x128, .f32⟩ : BufTy).Contents (Elt F) → (⟨S40000x128, .f32⟩ : BufTy).Contents (Elt F)),
    binary main_v99 main_v101 main_v102 (addf : (⟨S40000x128, .f32⟩ : BufTy).Contents (Elt F) → (⟨S40000x128, .f32⟩ : BufTy).Contents (Elt F) → (⟨S40000x128, .f32⟩ : BufTy).Contents (Elt F)),
    nullary main_cst_22 (constant S_ .f32 0x00000000#32),
    unary main_cst_22 main_v103 (broadcastInDim S40000x128 ![] bcast_S_S40000x128 : (⟨S_, .f32⟩ : BufTy).Contents (Elt F) → (⟨S40000x128, .f32⟩ : BufTy).Contents (Elt F)),
    binary main_v102 main_v103 main_v104 (cmpf .ogt : (⟨S40000x128, .f32⟩ : BufTy).Contents (Elt F) → (⟨S40000x128, .f32⟩ : BufTy).Contents (Elt F) → (⟨S40000x128, .i1⟩ : BufTy).Contents (Elt F)),
    nullary main_cst_23 (constant S_ .f32 0x3C23D70A#32),
    unary main_cst_23 main_v105 (broadcastInDim S40000x128 ![] bcast_S_S40000x128 : (⟨S_, .f32⟩ : BufTy).Contents (Elt F) → (⟨S40000x128, .f32⟩ : BufTy).Contents (Elt F)),
    binary main_v105 main_v102 main_v106 (mulf : (⟨S40000x128, .f32⟩ : BufTy).Contents (Elt F) → (⟨S40000x128, .f32⟩ : BufTy).Contents (Elt F) → (⟨S40000x128, .f32⟩ : BufTy).Contents (Elt F)),
    TRef.ternary (TRef.of (T := ⟨S40000x128, .i1⟩) main_v104) (TRef.of (T := ⟨S40000x128, .f32⟩) main_v102) (TRef.of (T := ⟨S40000x128, .f32⟩) main_v106) (TRef.of (T := ⟨S40000x128, .f32⟩) main_v107) select ]
theorem seg4_sub : (seg4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem seg4_fresh : ∀ op ∈ (seg4 : List (HloOp τ sig (Elt F))), op.fresh = ∅ := by
  intro _ h; (repeat (cases h with | head => rfl | tail _ h => ?_)); exact nomatch h

/-- Operations 139–182 of @main: the indices and normalisation a third time; the third product. -/
abbrev seg5 : List (HloOp τ sig (Elt F)) :=
  [ nullary main_v108 (iotaInDim S40000 32 0),
    unary main_arg1 main_v109 ((extractStridedSlice S1x640000 ![0, 0] · slices_S2x640000_S1x640000_0_0) : (⟨S2x640000, .i32⟩ : BufTy).Contents (Elt F) → (⟨S1x640000, .i32⟩ : BufTy).Contents (Elt F)),
    reshape main_v109 main_v110 rfl shapeCasts_S1x640000_S640000,
    binary main_v110 main_v108 main_v111 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    unary main_arg1 main_v112 ((extractStridedSlice S1x640000 ![1, 0] · slices_S2x640000_S1x640000_1_0) : (⟨S2x640000, .i32⟩ : BufTy).Contents (Elt F) → (⟨S1x640000, .i32⟩ : BufTy).Contents (Elt F)),
    reshape main_v112 main_v113 rfl shapeCasts_S1x640000_S640000,
    binary main_v113 main_v108 main_v114 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    nullary main_cst_24 (constant S_ .f32 0x3F800000#32),
    unary main_cst_24 main_v115 (broadcastInDim S40000 ![] bcast_S_S40000 : (⟨S_, .f32⟩ : BufTy).Contents (Elt F) → (⟨S40000, .f32⟩ : BufTy).Contents (Elt F)),
    binary main_arg2 main_v115 main_v116 ((fun a b => concatenate S680000 0 [⟨S640000, a⟩, ⟨S40000, b⟩] concatenates_S640000_S40000_S680000_d0) : (⟨S640000, .f32⟩ : BufTy).Contents (Elt F) → (⟨S40000, .f32⟩ : BufTy).Contents (Elt F) → (⟨S680000, .f32⟩ : BufTy).Contents (Elt F)),
    nullary main_cst_25 (constant S_ .f32 0x00000000#32),
    unary main_cst_25 main_v117 (broadcastInDim S40000 ![] bcast_S_S40000 : (⟨S_, .f32⟩ : BufTy).Contents (Elt F) → (⟨S40000, .f32⟩ : BufTy).Contents (Elt F)),
    unary main_v114 main_v118 (broadcastInDim S680000x1 ![0] bcast_S680000_S680000x1_0 : (⟨S680000, .i32⟩ : BufTy).Contents (Elt F) → (⟨S680000x1, .i32⟩ : BufTy).Contents (Elt F)),
    ternary main_v117 main_v118 main_v116 main_v119 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    nullary main_cst_26 (constant S_ .f32 0x00000000#32),
    unary main_cst_26 main_v120 (broadcastInDim S40000 ![] bcast_S_S40000 : (⟨S_, .f32⟩ : BufTy).Contents (Elt F) → (⟨S40000, .f32⟩ : BufTy).Contents (Elt F)),
    binary main_v119 main_v120 main_v121 (cmpf .ogt : (⟨S40000, .f32⟩ : BufTy).Contents (Elt F) → (⟨S40000, .f32⟩ : BufTy).Contents (Elt F) → (⟨S40000, .i1⟩ : BufTy).Contents (Elt F)),
    unary main_v119 main_v122 (Host.rsqrt : (⟨S40000, .f32⟩ : BufTy).Contents (Elt F) → (⟨S40000, .f32⟩ : BufTy).Contents (Elt F)),
    nullary main_cst_27 (constant S_ .f32 0x00000000#32),
    TRef.unary (TRef.of (T := ⟨S_, .f32⟩) main_cst_27) (TRef.of (T := ⟨S_, .f32⟩) main_call4_v0) id,
    TRef.unary (TRef.of (T := ⟨S_, .f32⟩) main_call4_v0) (TRef.of (T := ⟨S40000, .f32⟩) main_call4_v1) (broadcastInDim S40000 ![] bcast_S_S40000),
    TRef.ternary (TRef.of (T := ⟨S40000, .i1⟩) main_v121) (TRef.of (T := ⟨S40000, .f32⟩) main_v122) (TRef.of (T := ⟨S40000, .f32⟩) main_call4_v1) (TRef.of (T := ⟨S40000, .f32⟩) main_v123) select,
    nullary main_c_28 (constantI S_ 32 0#32),
    unary main_c_28 main_v124 (broadcastInDim S680000 ![] bcast_S_S680000 : (⟨S_, .i32⟩ : BufTy).Contents (Elt F) → (⟨S680000, .i32⟩ : BufTy).Contents (Elt F)),
    binary main_v111 main_v124 main_v125 (cmpi .slt : (⟨S680000, .i32⟩ : BufTy).Contents (Elt F) → (⟨S680000, .i32⟩ : BufTy).Contents (Elt F) → (⟨S680000, .i1⟩ : BufTy).Contents (Elt F)),
    nullary main_c_29 (constantI S_ 32 40000#32),
    unary main_c_29 main_v126 (broadcastInDim S680000 ![] bcast_S_S680000 : (⟨S_, .i32⟩ : BufTy).Contents (Elt F) → (⟨S680000, .i32⟩ : BufTy).Contents (Elt F)),
    binary main_v111 main_v126 main_v127 (addi : (⟨S680000, .i32⟩ : BufTy).Contents (Elt F) → (⟨S680000, .i32⟩ : BufTy).Contents (Elt F) → (⟨S680000, .i32⟩ : BufTy).Contents (Elt F)),
    ternary main_v125 main_v127 main_v111 main_v128 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v128 main_v129 (broadcastInDim S680000x1 ![0] bcast_S680000_S680000x1_0 : (⟨S680000, .i32⟩ : BufTy).Contents (Elt F) → (⟨S680000x1, .i32⟩ : BufTy).Contents (Elt F)),
    binary main_v123 main_v129 main_v130 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    binary main_v130 main_v116 main_v131 (mulf : (⟨S680000, .f32⟩ : BufTy).Contents (Elt F) → (⟨S680000, .f32⟩ : BufTy).Contents (Elt F) → (⟨S680000, .f32⟩ : BufTy).Contents (Elt F)),
    nullary main_c_30 (constantI S_ 32 0#32),
    unary main_c_30 main_v132 (broadcastInDim S680000 ![] bcast_S_S680000 : (⟨S_, .i32⟩ : BufTy).Contents (Elt F) → (⟨S680000, .i32⟩ : BufTy).Contents (Elt F)),
    binary main_v114 main_v132 main_v133 (cmpi .slt : (⟨S680000, .i32⟩ : BufTy).Contents (Elt F) → (⟨S680000, .i32⟩ : BufTy).Contents (Elt F) → (⟨S680000, .i1⟩ : BufTy).Contents (Elt F)),
    nullary main_c_31 (constantI S_ 32 40000#32),
    unary main_c_31 main_v134 (broadcastInDim S680000 ![] bcast_S_S680000 : (⟨S_, .i32⟩ : BufTy).Contents (Elt F) → (⟨S680000, .i32⟩ : BufTy).Contents (Elt F)),
    binary main_v114 main_v134 main_v135 (addi : (⟨S680000, .i32⟩ : BufTy).Contents (Elt F) → (⟨S680000, .i32⟩ : BufTy).Contents (Elt F) → (⟨S680000, .i32⟩ : BufTy).Contents (Elt F)),
    ternary main_v133 main_v135 main_v114 main_v136 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v136 main_v137 (broadcastInDim S680000x1 ![0] bcast_S680000_S680000x1_0 : (⟨S680000, .i32⟩ : BufTy).Contents (Elt F) → (⟨S680000x1, .i32⟩ : BufTy).Contents (Elt F)),
    binary main_v123 main_v137 main_v138 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    binary main_v131 main_v138 main_v139 (mulf : (⟨S680000, .f32⟩ : BufTy).Contents (Elt F) → (⟨S680000, .f32⟩ : BufTy).Contents (Elt F) → (⟨S680000, .f32⟩ : BufTy).Contents (Elt F)),
    binary main_v107 main_arg8 main_v140 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_v139 main_v141 (broadcastInDim S680000x1 ![0] bcast_S680000_S680000x1_0 : (⟨S680000, .f32⟩ : BufTy).Contents (Elt F) → (⟨S680000x1, .f32⟩ : BufTy).Contents (Elt F)) ]
theorem seg5_sub : (seg5 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub ..⟩
theorem seg5_fresh : ∀ op ∈ (seg5 : List (HloOp τ sig (Elt F))), op.fresh = ∅ := by
  intro _ h; (repeat (cases h with | head => rfl | tail _ h => ?_)); exact nomatch h

/-- Operations 183–200 of @main: the third aggregation and its bias. -/
abbrev seg6 : List (HloOp τ sig (Elt F)) :=
  [ nullary main_c_32 (constantI S_ 32 0#32),
    unary main_c_32 main_v142 (broadcastInDim S680000 ![] bcast_S_S680000 : (⟨S_, .i32⟩ : BufTy).Contents (Elt F) → (⟨S680000, .i32⟩ : BufTy).Contents (Elt F)),
    binary main_v111 main_v142 main_v143 (cmpi .slt : (⟨S680000, .i32⟩ : BufTy).Contents (Elt F) → (⟨S680000, .i32⟩ : BufTy).Contents (Elt F) → (⟨S680000, .i1⟩ : BufTy).Contents (Elt F)),
    nullary main_c_33 (constantI S_ 32 40000#32),
    unary main_c_33 main_v144 (broadcastInDim S680000 ![] bcast_S_S680000 : (⟨S_, .i32⟩ : BufTy).Contents (Elt F) → (⟨S680000, .i32⟩ : BufTy).Contents (Elt F)),
    binary main_v111 main_v144 main_v145 (addi : (⟨S680000, .i32⟩ : BufTy).Contents (Elt F) → (⟨S680000, .i32⟩ : BufTy).Contents (Elt F) → (⟨S680000, .i32⟩ : BufTy).Contents (Elt F)),
    ternary main_v143 main_v145 main_v111 main_v146 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    unary main_v146 main_v147 (broadcastInDim S680000x1 ![0] bcast_S680000_S680000x1_0 : (⟨S680000, .i32⟩ : BufTy).Contents (Elt F) → (⟨S680000x1, .i32⟩ : BufTy).Contents (Elt F)),
    binary main_v140 main_v147 main_v148 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    unary main_v141 main_v149 (broadcastInDim S680000x128 ![0, 1] bcast_S680000x1_S680000x128_0_1 : (⟨S680000x1, .f32⟩ : BufTy).Contents (Elt F) → (⟨S680000x128, .f32⟩ : BufTy).Contents (Elt F)),
    binary main_v149 main_v148 main_v150 (mulf : (⟨S680000x128, .f32⟩ : BufTy).Contents (Elt F) → (⟨S680000x128, .f32⟩ : BufTy).Contents (Elt F) → (⟨S680000x128, .f32⟩ : BufTy).Contents (Elt F)),
    nullary main_cst_34 (constant S_ .f32 0x00000000#32),
    unary main_cst_34 main_v151 (broadcastInDim S40000x128 ![] bcast_S_S40000x128 : (⟨S_, .f32⟩ : BufTy).Contents (Elt F) → (⟨S40000x128, .f32⟩ : BufTy).Contents (Elt F)),
    unary main_v114 main_v152 (broadcastInDim S680000x1 ![0] bcast_S680000_S680000x1_0 : (⟨S680000, .i32⟩ : BufTy).Contents (Elt F) → (⟨S680000x1, .i32⟩ : BufTy).Contents (Elt F)),
    ternary main_v151 main_v152 main_v150 main_v153 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    unary main_arg9 main_v154 (broadcastInDim S1x128 ![1] bcast_S128_S1x128_1 : (⟨S128, .f32⟩ : BufTy).Contents (Elt F) → (⟨S1x128, .f32⟩ : BufTy).Contents (Elt F)),
    unary main_v154 main_v155 (broadcastInDim S40000x128 ![0, 1] bcast_S1x128_S40000x128_0_1 : (⟨S1x128, .f32⟩ : BufTy).Contents (Elt F) → (⟨S40000x128, .f32⟩ : BufTy).Contents (Elt F)),
    binary main_v153 main_v155 main_v156 (addf : (⟨S40000x128, .f32⟩ : BufTy).Contents (Elt F) → (⟨S40000x128, .f32⟩ : BufTy).Contents (Elt F) → (⟨S40000x128, .f32⟩ : BufTy).Contents (Elt F)) ]
theorem seg6_sub : (seg6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem seg6_fresh : ∀ op ∈ (seg6 : List (HloOp τ sig (Elt F))), op.fresh = ∅ := by
  intro _ h; (repeat (cases h with | head => rfl | tail _ h => ?_)); exact nomatch h

/-- Operations 201–216 of @main: the mean over each graph's nodes. -/
abbrev seg7 : List (HloOp τ sig (Elt F)) :=
  [ nullary main_cst_35 (constant S_ .f32 0x00000000#32),
    unary main_cst_35 main_v157 (broadcastInDim S64x128 ![] bcast_S_S64x128 : (⟨S_, .f32⟩ : BufTy).Contents (Elt F) → (⟨S64x128, .f32⟩ : BufTy).Contents (Elt F)),
    unary main_arg3 main_v158 (broadcastInDim S40000x1 ![0] bcast_S40000_S40000x1_0 : (⟨S40000, .i32⟩ : BufTy).Contents (Elt F) → (⟨S40000x1, .i32⟩ : BufTy).Contents (Elt F)),
    ternary main_v157 main_v158 main_v156 main_v159 ((fun x i u => Host.scatterAdd scatter_S64x128_S40000x1_S40000x128_1_0_0_1 x i u) : (⟨S64x128, .f32⟩ : BufTy).Contents (Elt F) → (⟨S40000x1, .i32⟩ : BufTy).Contents (Elt F) → (⟨S40000x128, .f32⟩ : BufTy).Contents (Elt F) → (⟨S64x128, .f32⟩ : BufTy).Contents (Elt F)),
    nullary main_cst_36 (constant S_ .f32 0x3F800000#32),
    unary main_cst_36 main_v160 (broadcastInDim S40000 ![] bcast_S_S40000 : (⟨S_, .f32⟩ : BufTy).Contents (Elt F) → (⟨S40000, .f32⟩ : BufTy).Contents (Elt F)),
    nullary main_cst_37 (constant S_ .f32 0x00000000#32),
    unary main_cst_37 main_v161 (broadcastInDim S64 ![] bcast_S_S64 : (⟨S_, .f32⟩ : BufTy).Contents (Elt F) → (⟨S64, .f32⟩ : BufTy).Contents (Elt F)),
    unary main_arg3 main_v162 (broadcastInDim S40000x1 ![0] bcast_S40000_S40000x1_0 : (⟨S40000, .i32⟩ : BufTy).Contents (Elt F) → (⟨S40000x1, .i32⟩ : BufTy).Contents (Elt F)),
    ternary main_v161 main_v162 main_v160 main_v163 ((fun x i u => Host.scatterAdd scatter_S64_S40000x1_S40000_n_0_0_1 x i u) : (⟨S64, .f32⟩ : BufTy).Contents (Elt F) → (⟨S40000x1, .i32⟩ : BufTy).Contents (Elt F) → (⟨S40000, .f32⟩ : BufTy).Contents (Elt F) → (⟨S64, .f32⟩ : BufTy).Contents (Elt F)),
    nullary main_cst_38 (constant S_ .f32 0x3F800000#32),
    unary main_cst_38 main_v164 (broadcastInDim S64 ![] bcast_S_S64 : (⟨S_, .f32⟩ : BufTy).Contents (Elt F) → (⟨S64, .f32⟩ : BufTy).Contents (Elt F)),
    binary main_v163 main_v164 main_v165 (maximumf : (⟨S64, .f32⟩ : BufTy).Contents (Elt F) → (⟨S64, .f32⟩ : BufTy).Contents (Elt F) → (⟨S64, .f32⟩ : BufTy).Contents (Elt F)),
    unary main_v165 main_v166 (broadcastInDim S64x1 ![0] bcast_S64_S64x1_0 : (⟨S64, .f32⟩ : BufTy).Contents (Elt F) → (⟨S64x1, .f32⟩ : BufTy).Contents (Elt F)),
    unary main_v166 main_v167 (broadcastInDim S64x128 ![0, 1] bcast_S64x1_S64x128_0_1 : (⟨S64x1, .f32⟩ : BufTy).Contents (Elt F) → (⟨S64x128, .f32⟩ : BufTy).Contents (Elt F)),
    binary main_v159 main_v167 main_v168 (Host.divf : (⟨S64x128, .f32⟩ : BufTy).Contents (Elt F) → (⟨S64x128, .f32⟩ : BufTy).Contents (Elt F) → (⟨S64x128, .f32⟩ : BufTy).Contents (Elt F)) ]
theorem seg7_sub : (seg7 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem seg7_fresh : ∀ op ∈ (seg7 : List (HloOp τ sig (Elt F))), op.fresh = ∅ := by
  intro _ h; (repeat (cases h with | head => rfl | tail _ h => ?_)); exact nomatch h

/-- Operations 217–227 of @main: the head's first layer. -/
abbrev seg8 : List (HloOp τ sig (Elt F)) :=
  [ binary main_v168 main_arg10 main_v169 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg11 main_v170 (broadcastInDim S1x64 ![1] bcast_S64_S1x64_1 : (⟨S64, .f32⟩ : BufTy).Contents (Elt F) → (⟨S1x64, .f32⟩ : BufTy).Contents (Elt F)),
    unary main_v170 main_v171 (broadcastInDim S64x64 ![0, 1] bcast_S1x64_S64x64_0_1 : (⟨S1x64, .f32⟩ : BufTy).Contents (Elt F) → (⟨S64x64, .f32⟩ : BufTy).Contents (Elt F)),
    binary main_v169 main_v171 main_v172 (addf : (⟨S64x64, .f32⟩ : BufTy).Contents (Elt F) → (⟨S64x64, .f32⟩ : BufTy).Contents (Elt F) → (⟨S64x64, .f32⟩ : BufTy).Contents (Elt F)),
    nullary main_cst_39 (constant S_ .f32 0x00000000#32),
    unary main_cst_39 main_v173 (broadcastInDim S64x64 ![] bcast_S_S64x64 : (⟨S_, .f32⟩ : BufTy).Contents (Elt F) → (⟨S64x64, .f32⟩ : BufTy).Contents (Elt F)),
    binary main_v172 main_v173 main_v174 (cmpf .ogt : (⟨S64x64, .f32⟩ : BufTy).Contents (Elt F) → (⟨S64x64, .f32⟩ : BufTy).Contents (Elt F) → (⟨S64x64, .i1⟩ : BufTy).Contents (Elt F)),
    nullary main_cst_40 (constant S_ .f32 0x3C23D70A#32),
    unary main_cst_40 main_v175 (broadcastInDim S64x64 ![] bcast_S_S64x64 : (⟨S_, .f32⟩ : BufTy).Contents (Elt F) → (⟨S64x64, .f32⟩ : BufTy).Contents (Elt F)),
    binary main_v175 main_v172 main_v176 (mulf : (⟨S64x64, .f32⟩ : BufTy).Contents (Elt F) → (⟨S64x64, .f32⟩ : BufTy).Contents (Elt F) → (⟨S64x64, .f32⟩ : BufTy).Contents (Elt F)),
    TRef.ternary (TRef.of (T := ⟨S64x64, .i1⟩) main_v174) (TRef.of (T := ⟨S64x64, .f32⟩) main_v172) (TRef.of (T := ⟨S64x64, .f32⟩) main_v176) (TRef.of (T := ⟨S64x64, .f32⟩) main_v177) select ]
theorem seg8_sub : (seg8 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem seg8_fresh : ∀ op ∈ (seg8 : List (HloOp τ sig (Elt F))), op.fresh = ∅ := by
  intro _ h; (repeat (cases h with | head => rfl | tail _ h => ?_)); exact nomatch h

/-- Operations 228–238 of @main: the head's second layer. -/
abbrev seg9 : List (HloOp τ sig (Elt F)) :=
  [ binary main_v177 main_arg12 main_v178 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    unary main_arg13 main_v179 (broadcastInDim S1x32 ![1] bcast_S32_S1x32_1 : (⟨S32, .f32⟩ : BufTy).Contents (Elt F) → (⟨S1x32, .f32⟩ : BufTy).Contents (Elt F)),
    unary main_v179 main_v180 (broadcastInDim S64x32 ![0, 1] bcast_S1x32_S64x32_0_1 : (⟨S1x32, .f32⟩ : BufTy).Contents (Elt F) → (⟨S64x32, .f32⟩ : BufTy).Contents (Elt F)),
    binary main_v178 main_v180 main_v181 (addf : (⟨S64x32, .f32⟩ : BufTy).Contents (Elt F) → (⟨S64x32, .f32⟩ : BufTy).Contents (Elt F) → (⟨S64x32, .f32⟩ : BufTy).Contents (Elt F)),
    nullary main_cst_41 (constant S_ .f32 0x00000000#32),
    unary main_cst_41 main_v182 (broadcastInDim S64x32 ![] bcast_S_S64x32 : (⟨S_, .f32⟩ : BufTy).Contents (Elt F) → (⟨S64x32, .f32⟩ : BufTy).Contents (Elt F)),
    binary main_v181 main_v182 main_v183 (cmpf .ogt : (⟨S64x32, .f32⟩ : BufTy).Contents (Elt F) → (⟨S64x32, .f32⟩ : BufTy).Contents (Elt F) → (⟨S64x32, .i1⟩ : BufTy).Contents (Elt F)),
    nullary main_cst_42 (constant S_ .f32 0x3C23D70A#32),
    unary main_cst_42 main_v184 (broadcastInDim S64x32 ![] bcast_S_S64x32 : (⟨S_, .f32⟩ : BufTy).Contents (Elt F) → (⟨S64x32, .f32⟩ : BufTy).Contents (Elt F)),
    binary main_v184 main_v181 main_v185 (mulf : (⟨S64x32, .f32⟩ : BufTy).Contents (Elt F) → (⟨S64x32, .f32⟩ : BufTy).Contents (Elt F) → (⟨S64x32, .f32⟩ : BufTy).Contents (Elt F)),
    TRef.ternary (TRef.of (T := ⟨S64x32, .i1⟩) main_v183) (TRef.of (T := ⟨S64x32, .f32⟩) main_v181) (TRef.of (T := ⟨S64x32, .f32⟩) main_v185) (TRef.of (T := ⟨S64x32, .f32⟩) main_v186) select ]
theorem seg9_sub : (seg9 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem seg9_fresh : ∀ op ∈ (seg9 : List (HloOp τ sig (Elt F))), op.fresh = ∅ := by
  intro _ h; (repeat (cases h with | head => rfl | tail _ h => ?_)); exact nomatch h

/-- Operations 239–242 of @main: the head's last layer. -/
abbrev seg10 : List (HloOp τ sig (Elt F)) :=
  [ binary main_v186 main_arg14 main_v187 ((fun l r => Host.dotGeneral dot_S64x32_S32x2_S64x2_1_0_0_1_n_n none l r) : (⟨S64x32, .f32⟩ : BufTy).Contents (Elt F) → (⟨S32x2, .f32⟩ : BufTy).Contents (Elt F) → (⟨S64x2, .f32⟩ : BufTy).Contents (Elt F)),
    unary main_arg15 main_v188 (broadcastInDim S1x2 ![1] bcast_S2_S1x2_1 : (⟨S2, .f32⟩ : BufTy).Contents (Elt F) → (⟨S1x2, .f32⟩ : BufTy).Contents (Elt F)),
    unary main_v188 main_v189 (broadcastInDim S64x2 ![0, 1] bcast_S1x2_S64x2_0_1 : (⟨S1x2, .f32⟩ : BufTy).Contents (Elt F) → (⟨S64x2, .f32⟩ : BufTy).Contents (Elt F)),
    binary main_v187 main_v189 main_v190 (addf : (⟨S64x2, .f32⟩ : BufTy).Contents (Elt F) → (⟨S64x2, .f32⟩ : BufTy).Contents (Elt F) → (⟨S64x2, .f32⟩ : BufTy).Contents (Elt F)) ]
theorem seg10_sub : (seg10 : List (HloOp τ sig (Elt F))).Forall fun op => op.bufs ⊆ tcRefs τ sig :=
  ⟨binary_bufs_sub .., unary_bufs_sub .., unary_bufs_sub .., binary_bufs_sub ..⟩
theorem seg10_fresh : ∀ op ∈ (seg10 : List (HloOp τ sig (Elt F))), op.fresh = ∅ := by
  intro _ h; (repeat (cases h with | head => rfl | tail _ h => ?_)); exact nomatch h

/-- @main's 242 operations, in order (a called function's operations stand in its call's place). -/
abbrev ops : List (HloOp τ sig (Elt F)) := seg1 ++ (seg2 ++ (seg3 ++ (seg4 ++ (seg5 ++ (seg6 ++ (seg7 ++ (seg8 ++ (seg9 ++ (seg10)))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append_of {α : Type} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

theorem ops_sub : (ops : List (HloOp τ sig (Elt F))).Forall fun op => op.bufs ⊆ tcRefs τ sig :=
  forall_append_of seg1_sub (forall_append_of seg2_sub (forall_append_of seg3_sub (forall_append_of seg4_sub (forall_append_of seg5_sub (forall_append_of seg6_sub (forall_append_of seg7_sub (forall_append_of seg8_sub (forall_append_of seg9_sub (seg10_sub)))))))))

theorem ops_fresh : ∀ op ∈ (ops : List (HloOp τ sig (Elt F))), op.fresh = ∅ := by
  intro op h
  simp only [ops, List.mem_append] at h
  rcases h with h | h | h | h | h | h | h | h | h | h
  · exact seg1_fresh op h
  · exact seg2_fresh op h
  · exact seg3_fresh op h
  · exact seg4_fresh op h
  · exact seg5_fresh op h
  · exact seg6_fresh op h
  · exact seg7_fresh op h
  · exact seg8_fresh op h
  · exact seg9_fresh op h
  · exact seg10_fresh op h

/-- The fold over the whole line is the folds over the ten segments in turn. -/
theorem fold_segments (V : Valuation τ sig (Elt F)) :
    after (ops (F := F)) V = after seg10 (after seg9 (after seg8 (after seg7 (after seg6 (after seg5 (after seg4 (after seg3 (after seg2 (after seg1 (V)))))))))) := by
  simp only [ops, after_append]

/-- On every device, for any float values, from any memory with zero counters: every weakly fair execution of @main
    terminates, and every buffer ends at the ten segments' folds over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = (after seg10 (after seg9 (after seg8 (after seg7 (after seg6 (after seg5 (after seg4 (after seg3 (after seg2 (after seg1 (launchContents m c))))))))))) (Proc.devRef .tc b) :=
  (θ_run defs _ _).mono (fun _ h c b => (h c b).trans (congrFun (fold_segments (launchContents m c)) _))
    (run_seq scopedRefs_eq scopedSems_eq defs main (fun _ => ops) main_eq (fun _ => ops_sub) m ρ (fun _ => ops_fresh))

end Cert.ReferenceIdeal.Line

end
-- ==== Proof.RefStages.lean ====
/-
  The reference's buffers, segment by segment, as stages of the specification.

  The reference's straight line of host operations is the specification written out: the graph's indices, weights,
  degrees and normalisation (which it computes again before each layer, from the same arguments — so each time they are
  the same stages), a product, an aggregation, a bias and a rectifier per layer, the mean pool, the head. Reading what each
  of the ten segments leaves in the buffers the next segments read — by the operations' functions, one segment at a time
  — identifies each with a stage; the last buffer written is the network's value. The argument arrays are written by no
  operation, so at every cut they hold what the launch memory held.
-/
import proofs.«109360_j82085414961196_1_alg».proof.Proof.RefLine
import proofs.«109360_j82085414961196_1_alg».proof.Proof.Spec
import proofs.«109360_j82085414961196_1_alg».proof.Proof.Carry
import proofs.«109360_j82085414961196_1_alg».proof.Proof.LibJoinedPair
import Idealize.ShloMosaic.Lib.StableHlo.Run
import Idealize.ShloMosaic.PureOps.Ideal

set_option maxRecDepth 16384

noncomputable section

namespace Cert.ReferenceIdeal.Stages

open Cert.ReferenceIdeal Cert.ReferenceIdeal.Gen Cert.ReferenceIdeal.Line
open Idealize.ShloMosaic Idealize.ShloMosaic.TcCoe Idealize.SL.Sem Idealize.ShloMosaic.StableHlo

variable (m : (ℓ : Loc nD τ sig) → Buf (Elt Ideal) ℓ) (c : Dev nD)

/-- An argument array as launched. -/
abbrev arg (b : Ref sig .tc) : Buf (Elt Ideal) ((c.tc : Thread nD τ).loc b) := m ((c.tc : Thread nD τ).loc b)

/-- The argument arrays. -/
def argRefs : List (Ref sig .tc) := [main_arg0, main_arg1, main_arg2, main_arg3, main_arg4, main_arg5, main_arg6, main_arg7, main_arg8, main_arg9, main_arg10, main_arg11, main_arg12, main_arg13, main_arg14, main_arg15]

/-- The launch contents of core `c`'s buffers. -/
def U0 : Valuation τ sig (Elt Ideal) := launchContents m c
/-- The buffers after segment 1. -/
def U1 : Valuation τ sig (Elt Ideal) := after seg1 (U0 m c)
/-- The buffers after segment 2. -/
def U2 : Valuation τ sig (Elt Ideal) := after seg2 (U1 m c)
/-- The buffers after segment 3. -/
def U3 : Valuation τ sig (Elt Ideal) := after seg3 (U2 m c)
/-- The buffers after segment 4. -/
def U4 : Valuation τ sig (Elt Ideal) := after seg4 (U3 m c)
/-- The buffers after segment 5. -/
def U5 : Valuation τ sig (Elt Ideal) := after seg5 (U4 m c)
/-- The buffers after segment 6. -/
def U6 : Valuation τ sig (Elt Ideal) := after seg6 (U5 m c)
/-- The buffers after segment 7. -/
def U7 : Valuation τ sig (Elt Ideal) := after seg7 (U6 m c)
/-- The buffers after segment 8. -/
def U8 : Valuation τ sig (Elt Ideal) := after seg8 (U7 m c)
/-- The buffers after segment 9. -/
def U9 : Valuation τ sig (Elt Ideal) := after seg9 (U8 m c)
/-- The buffers after segment 10. -/
def U10 : Valuation τ sig (Elt Ideal) := after seg10 (U9 m c)

/-! ## The arguments are never written -/

set_option maxHeartbeats 2000000 in
/-- Segment 1 writes no argument array. -/
theorem keep1 : ∀ b ∈ argRefs, U1 m c (Proc.devRef .tc b) = U0 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U1; untouched_by seg1)

set_option maxHeartbeats 2000000 in
/-- Segment 2 writes no argument array. -/
theorem keep2 : ∀ b ∈ argRefs, U2 m c (Proc.devRef .tc b) = U1 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U2; untouched_by seg2)

set_option maxHeartbeats 2000000 in
/-- Segment 3 writes no argument array. -/
theorem keep3 : ∀ b ∈ argRefs, U3 m c (Proc.devRef .tc b) = U2 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U3; untouched_by seg3)

set_option maxHeartbeats 2000000 in
/-- Segment 4 writes no argument array. -/
theorem keep4 : ∀ b ∈ argRefs, U4 m c (Proc.devRef .tc b) = U3 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U4; untouched_by seg4)

set_option maxHeartbeats 2000000 in
/-- Segment 5 writes no argument array. -/
theorem keep5 : ∀ b ∈ argRefs, U5 m c (Proc.devRef .tc b) = U4 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U5; untouched_by seg5)

set_option maxHeartbeats 2000000 in
/-- Segment 6 writes no argument array. -/
theorem keep6 : ∀ b ∈ argRefs, U6 m c (Proc.devRef .tc b) = U5 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U6; untouched_by seg6)

set_option maxHeartbeats 2000000 in
/-- Segment 7 writes no argument array. -/
theorem keep7 : ∀ b ∈ argRefs, U7 m c (Proc.devRef .tc b) = U6 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U7; untouched_by seg7)

set_option maxHeartbeats 2000000 in
/-- Segment 8 writes no argument array. -/
theorem keep8 : ∀ b ∈ argRefs, U8 m c (Proc.devRef .tc b) = U7 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U8; untouched_by seg8)

set_option maxHeartbeats 2000000 in
/-- Segment 9 writes no argument array. -/
theorem keep9 : ∀ b ∈ argRefs, U9 m c (Proc.devRef .tc b) = U8 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U9; untouched_by seg9)

set_option maxHeartbeats 2000000 in
/-- Segment 10 writes no argument array. -/
theorem keep10 : ∀ b ∈ argRefs, U10 m c (Proc.devRef .tc b) = U9 m c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals (unfold U10; untouched_by seg10)

/-- The launch contents of an argument array are the launch memory's. -/
theorem arg_at0 : ∀ b ∈ argRefs, U0 m c (Proc.devRef .tc b) = arg m c b := fun _ _ => rfl
theorem arg_at1 : ∀ b ∈ argRefs, U1 m c (Proc.devRef .tc b) = arg m c b :=
  fun b hb => (keep1 m c b hb).trans (arg_at0 m c b hb)
theorem arg_at2 : ∀ b ∈ argRefs, U2 m c (Proc.devRef .tc b) = arg m c b :=
  fun b hb => (keep2 m c b hb).trans (arg_at1 m c b hb)
theorem arg_at3 : ∀ b ∈ argRefs, U3 m c (Proc.devRef .tc b) = arg m c b :=
  fun b hb => (keep3 m c b hb).trans (arg_at2 m c b hb)
theorem arg_at4 : ∀ b ∈ argRefs, U4 m c (Proc.devRef .tc b) = arg m c b :=
  fun b hb => (keep4 m c b hb).trans (arg_at3 m c b hb)
theorem arg_at5 : ∀ b ∈ argRefs, U5 m c (Proc.devRef .tc b) = arg m c b :=
  fun b hb => (keep5 m c b hb).trans (arg_at4 m c b hb)
theorem arg_at6 : ∀ b ∈ argRefs, U6 m c (Proc.devRef .tc b) = arg m c b :=
  fun b hb => (keep6 m c b hb).trans (arg_at5 m c b hb)
theorem arg_at7 : ∀ b ∈ argRefs, U7 m c (Proc.devRef .tc b) = arg m c b :=
  fun b hb => (keep7 m c b hb).trans (arg_at6 m c b hb)
theorem arg_at8 : ∀ b ∈ argRefs, U8 m c (Proc.devRef .tc b) = arg m c b :=
  fun b hb => (keep8 m c b hb).trans (arg_at7 m c b hb)
theorem arg_at9 : ∀ b ∈ argRefs, U9 m c (Proc.devRef .tc b) = arg m c b :=
  fun b hb => (keep9 m c b hb).trans (arg_at8 m c b hb)
theorem arg_at10 : ∀ b ∈ argRefs, U10 m c (Proc.devRef .tc b) = arg m c b :=
  fun b hb => (keep10 m c b hb).trans (arg_at9 m c b hb)

/-! ## A typed reference's transport of contents is the identity

A module-local function's operations (an inlined `where`) move contents between a value's type and its buffer's type
along the equation of the two; at each literal buffer below the two types are the same, so the transport does nothing. -/

theorem toBuf_main_cst_2 {Val : EltTy → Type} (h1 : main_cst_2.ty = ⟨S_, .f32⟩) (h2 : main_cst_2.space ≠ .host) (h3 : main_cst_2.isScoped = false) (v : (⟨S_, .f32⟩ : BufTy).Contents Val) :
    (TRef.of (sig := sig) (T := ⟨S_, .f32⟩) main_cst_2 h1 h2 h3).toBuf v = v := rfl
theorem ofBuf_main_cst_2 {Val : EltTy → Type} (h1 : main_cst_2.ty = ⟨S_, .f32⟩) (h2 : main_cst_2.space ≠ .host) (h3 : main_cst_2.isScoped = false) (v : (⟨S_, .f32⟩ : BufTy).Contents Val) :
    (TRef.of (sig := sig) (T := ⟨S_, .f32⟩) main_cst_2 h1 h2 h3).ofBuf v = v := rfl
theorem toBuf_main_call0_v0 {Val : EltTy → Type} (h1 : main_call0_v0.ty = ⟨S_, .f32⟩) (h2 : main_call0_v0.space ≠ .host) (h3 : main_call0_v0.isScoped = false) (v : (⟨S_, .f32⟩ : BufTy).Contents Val) :
    (TRef.of (sig := sig) (T := ⟨S_, .f32⟩) main_call0_v0 h1 h2 h3).toBuf v = v := rfl
theorem ofBuf_main_call0_v0 {Val : EltTy → Type} (h1 : main_call0_v0.ty = ⟨S_, .f32⟩) (h2 : main_call0_v0.space ≠ .host) (h3 : main_call0_v0.isScoped = false) (v : (⟨S_, .f32⟩ : BufTy).Contents Val) :
    (TRef.of (sig := sig) (T := ⟨S_, .f32⟩) main_call0_v0 h1 h2 h3).ofBuf v = v := rfl
theorem toBuf_main_call0_v1 {Val : EltTy → Type} (h1 : main_call0_v1.ty = ⟨S40000, .f32⟩) (h2 : main_call0_v1.space ≠ .host) (h3 : main_call0_v1.isScoped = false) (v : (⟨S40000, .f32⟩ : BufTy).Contents Val) :
    (TRef.of (sig := sig) (T := ⟨S40000, .f32⟩) main_call0_v1 h1 h2 h3).toBuf v = v := rfl
theorem ofBuf_main_call0_v1 {Val : EltTy → Type} (h1 : main_call0_v1.ty = ⟨S40000, .f32⟩) (h2 : main_call0_v1.space ≠ .host) (h3 : main_call0_v1.isScoped = false) (v : (⟨S40000, .f32⟩ : BufTy).Contents Val) :
    (TRef.of (sig := sig) (T := ⟨S40000, .f32⟩) main_call0_v1 h1 h2 h3).ofBuf v = v := rfl
theorem toBuf_main_v13 {Val : EltTy → Type} (h1 : main_v13.ty = ⟨S40000, .i1⟩) (h2 : main_v13.space ≠ .host) (h3 : main_v13.isScoped = false) (v : (⟨S40000, .i1⟩ : BufTy).Contents Val) :
    (TRef.of (sig := sig) (T := ⟨S40000, .i1⟩) main_v13 h1 h2 h3).toBuf v = v := rfl
theorem ofBuf_main_v13 {Val : EltTy → Type} (h1 : main_v13.ty = ⟨S40000, .i1⟩) (h2 : main_v13.space ≠ .host) (h3 : main_v13.isScoped = false) (v : (⟨S40000, .i1⟩ : BufTy).Contents Val) :
    (TRef.of (sig := sig) (T := ⟨S40000, .i1⟩) main_v13 h1 h2 h3).ofBuf v = v := rfl
theorem toBuf_main_v14 {Val : EltTy → Type} (h1 : main_v14.ty = ⟨S40000, .f32⟩) (h2 : main_v14.space ≠ .host) (h3 : main_v14.isScoped = false) (v : (⟨S40000, .f32⟩ : BufTy).Contents Val) :
    (TRef.of (sig := sig) (T := ⟨S40000, .f32⟩) main_v14 h1 h2 h3).toBuf v = v := rfl
theorem ofBuf_main_v14 {Val : EltTy → Type} (h1 : main_v14.ty = ⟨S40000, .f32⟩) (h2 : main_v14.space ≠ .host) (h3 : main_v14.isScoped = false) (v : (⟨S40000, .f32⟩ : BufTy).Contents Val) :
    (TRef.of (sig := sig) (T := ⟨S40000, .f32⟩) main_v14 h1 h2 h3).ofBuf v = v := rfl
theorem toBuf_main_v15 {Val : EltTy → Type} (h1 : main_v15.ty = ⟨S40000, .f32⟩) (h2 : main_v15.space ≠ .host) (h3 : main_v15.isScoped = false) (v : (⟨S40000, .f32⟩ : BufTy).Contents Val) :
    (TRef.of (sig := sig) (T := ⟨S40000, .f32⟩) main_v15 h1 h2 h3).toBuf v = v := rfl
theorem ofBuf_main_v15 {Val : EltTy → Type} (h1 : main_v15.ty = ⟨S40000, .f32⟩) (h2 : main_v15.space ≠ .host) (h3 : main_v15.isScoped = false) (v : (⟨S40000, .f32⟩ : BufTy).Contents Val) :
    (TRef.of (sig := sig) (T := ⟨S40000, .f32⟩) main_v15 h1 h2 h3).ofBuf v = v := rfl
theorem toBuf_main_v50 {Val : EltTy → Type} (h1 : main_v50.ty = ⟨S40000x128, .i1⟩) (h2 : main_v50.space ≠ .host) (h3 : main_v50.isScoped = false) (v : (⟨S40000x128, .i1⟩ : BufTy).Contents Val) :
    (TRef.of (sig := sig) (T := ⟨S40000x128, .i1⟩) main_v50 h1 h2 h3).toBuf v = v := rfl
theorem ofBuf_main_v50 {Val : EltTy → Type} (h1 : main_v50.ty = ⟨S40000x128, .i1⟩) (h2 : main_v50.space ≠ .host) (h3 : main_v50.isScoped = false) (v : (⟨S40000x128, .i1⟩ : BufTy).Contents Val) :
    (TRef.of (sig := sig) (T := ⟨S40000x128, .i1⟩) main_v50 h1 h2 h3).ofBuf v = v := rfl
theorem toBuf_main_v48 {Val : EltTy → Type} (h1 : main_v48.ty = ⟨S40000x128, .f32⟩) (h2 : main_v48.space ≠ .host) (h3 : main_v48.isScoped = false) (v : (⟨S40000x128, .f32⟩ : BufTy).Contents Val) :
    (TRef.of (sig := sig) (T := ⟨S40000x128, .f32⟩) main_v48 h1 h2 h3).toBuf v = v := rfl
theorem ofBuf_main_v48 {Val : EltTy → Type} (h1 : main_v48.ty = ⟨S40000x128, .f32⟩) (h2 : main_v48.space ≠ .host) (h3 : main_v48.isScoped = false) (v : (⟨S40000x128, .f32⟩ : BufTy).Contents Val) :
    (TRef.of (sig := sig) (T := ⟨S40000x128, .f32⟩) main_v48 h1 h2 h3).ofBuf v = v := rfl
theorem toBuf_main_v52 {Val : EltTy → Type} (h1 : main_v52.ty = ⟨S40000x128, .f32⟩) (h2 : main_v52.space ≠ .host) (h3 : main_v52.isScoped = false) (v : (⟨S40000x128, .f32⟩ : BufTy).Contents Val) :
    (TRef.of (sig := sig) (T := ⟨S40000x128, .f32⟩) main_v52 h1 h2 h3).toBuf v = v := rfl
theorem ofBuf_main_v52 {Val : EltTy → Type} (h1 : main_v52.ty = ⟨S40000x128, .f32⟩) (h2 : main_v52.space ≠ .host) (h3 : main_v52.isScoped = false) (v : (⟨S40000x128, .f32⟩ : BufTy).Contents Val) :
    (TRef.of (sig := sig) (T := ⟨S40000x128, .f32⟩) main_v52 h1 h2 h3).ofBuf v = v := rfl
theorem toBuf_main_v53 {Val : EltTy → Type} (h1 : main_v53.ty = ⟨S40000x128, .f32⟩) (h2 : main_v53.space ≠ .host) (h3 : main_v53.isScoped = false) (v : (⟨S40000x128, .f32⟩ : BufTy).Contents Val) :
    (TRef.of (sig := sig) (T := ⟨S40000x128, .f32⟩) main_v53 h1 h2 h3).toBuf v = v := rfl
theorem ofBuf_main_v53 {Val : EltTy → Type} (h1 : main_v53.ty = ⟨S40000x128, .f32⟩) (h2 : main_v53.space ≠ .host) (h3 : main_v53.isScoped = false) (v : (⟨S40000x128, .f32⟩ : BufTy).Contents Val) :
    (TRef.of (sig := sig) (T := ⟨S40000x128, .f32⟩) main_v53 h1 h2 h3).ofBuf v = v := rfl
theorem toBuf_main_cst_14 {Val : EltTy → Type} (h1 : main_cst_14.ty = ⟨S_, .f32⟩) (h2 : main_cst_14.space ≠ .host) (h3 : main_cst_14.isScoped = false) (v : (⟨S_, .f32⟩ : BufTy).Contents Val) :
    (TRef.of (sig := sig) (T := ⟨S_, .f32⟩) main_cst_14 h1 h2 h3).toBuf v = v := rfl
theorem ofBuf_main_cst_14 {Val : EltTy → Type} (h1 : main_cst_14.ty = ⟨S_, .f32⟩) (h2 : main_cst_14.space ≠ .host) (h3 : main_cst_14.isScoped = false) (v : (⟨S_, .f32⟩ : BufTy).Contents Val) :
    (TRef.of (sig := sig) (T := ⟨S_, .f32⟩) main_cst_14 h1 h2 h3).ofBuf v = v := rfl
theorem toBuf_main_call2_v0 {Val : EltTy → Type} (h1 : main_call2_v0.ty = ⟨S_, .f32⟩) (h2 : main_call2_v0.space ≠ .host) (h3 : main_call2_v0.isScoped = false) (v : (⟨S_, .f32⟩ : BufTy).Contents Val) :
    (TRef.of (sig := sig) (T := ⟨S_, .f32⟩) main_call2_v0 h1 h2 h3).toBuf v = v := rfl
theorem ofBuf_main_call2_v0 {Val : EltTy → Type} (h1 : main_call2_v0.ty = ⟨S_, .f32⟩) (h2 : main_call2_v0.space ≠ .host) (h3 : main_call2_v0.isScoped = false) (v : (⟨S_, .f32⟩ : BufTy).Contents Val) :
    (TRef.of (sig := sig) (T := ⟨S_, .f32⟩) main_call2_v0 h1 h2 h3).ofBuf v = v := rfl
theorem toBuf_main_call2_v1 {Val : EltTy → Type} (h1 : main_call2_v1.ty = ⟨S40000, .f32⟩) (h2 : main_call2_v1.space ≠ .host) (h3 : main_call2_v1.isScoped = false) (v : (⟨S40000, .f32⟩ : BufTy).Contents Val) :
    (TRef.of (sig := sig) (T := ⟨S40000, .f32⟩) main_call2_v1 h1 h2 h3).toBuf v = v := rfl
theorem ofBuf_main_call2_v1 {Val : EltTy → Type} (h1 : main_call2_v1.ty = ⟨S40000, .f32⟩) (h2 : main_call2_v1.space ≠ .host) (h3 : main_call2_v1.isScoped = false) (v : (⟨S40000, .f32⟩ : BufTy).Contents Val) :
    (TRef.of (sig := sig) (T := ⟨S40000, .f32⟩) main_call2_v1 h1 h2 h3).ofBuf v = v := rfl
theorem toBuf_main_v67 {Val : EltTy → Type} (h1 : main_v67.ty = ⟨S40000, .i1⟩) (h2 : main_v67.space ≠ .host) (h3 : main_v67.isScoped = false) (v : (⟨S40000, .i1⟩ : BufTy).Contents Val) :
    (TRef.of (sig := sig) (T := ⟨S40000, .i1⟩) main_v67 h1 h2 h3).toBuf v = v := rfl
theorem ofBuf_main_v67 {Val : EltTy → Type} (h1 : main_v67.ty = ⟨S40000, .i1⟩) (h2 : main_v67.space ≠ .host) (h3 : main_v67.isScoped = false) (v : (⟨S40000, .i1⟩ : BufTy).Contents Val) :
    (TRef.of (sig := sig) (T := ⟨S40000, .i1⟩) main_v67 h1 h2 h3).ofBuf v = v := rfl
theorem toBuf_main_v68 {Val : EltTy → Type} (h1 : main_v68.ty = ⟨S40000, .f32⟩) (h2 : main_v68.space ≠ .host) (h3 : main_v68.isScoped = false) (v : (⟨S40000, .f32⟩ : BufTy).Contents Val) :
    (TRef.of (sig := sig) (T := ⟨S40000, .f32⟩) main_v68 h1 h2 h3).toBuf v = v := rfl
theorem ofBuf_main_v68 {Val : EltTy → Type} (h1 : main_v68.ty = ⟨S40000, .f32⟩) (h2 : main_v68.space ≠ .host) (h3 : main_v68.isScoped = false) (v : (⟨S40000, .f32⟩ : BufTy).Contents Val) :
    (TRef.of (sig := sig) (T := ⟨S40000, .f32⟩) main_v68 h1 h2 h3).ofBuf v = v := rfl
theorem toBuf_main_v69 {Val : EltTy → Type} (h1 : main_v69.ty = ⟨S40000, .f32⟩) (h2 : main_v69.space ≠ .host) (h3 : main_v69.isScoped = false) (v : (⟨S40000, .f32⟩ : BufTy).Contents Val) :
    (TRef.of (sig := sig) (T := ⟨S40000, .f32⟩) main_v69 h1 h2 h3).toBuf v = v := rfl
theorem ofBuf_main_v69 {Val : EltTy → Type} (h1 : main_v69.ty = ⟨S40000, .f32⟩) (h2 : main_v69.space ≠ .host) (h3 : main_v69.isScoped = false) (v : (⟨S40000, .f32⟩ : BufTy).Contents Val) :
    (TRef.of (sig := sig) (T := ⟨S40000, .f32⟩) main_v69 h1 h2 h3).ofBuf v = v := rfl
theorem toBuf_main_v104 {Val : EltTy → Type} (h1 : main_v104.ty = ⟨S40000x128, .i1⟩) (h2 : main_v104.space ≠ .host) (h3 : main_v104.isScoped = false) (v : (⟨S40000x128, .i1⟩ : BufTy).Contents Val) :
    (TRef.of (sig := sig) (T := ⟨S40000x128, .i1⟩) main_v104 h1 h2 h3).toBuf v = v := rfl
theorem ofBuf_main_v104 {Val : EltTy → Type} (h1 : main_v104.ty = ⟨S40000x128, .i1⟩) (h2 : main_v104.space ≠ .host) (h3 : main_v104.isScoped = false) (v : (⟨S40000x128, .i1⟩ : BufTy).Contents Val) :
    (TRef.of (sig := sig) (T := ⟨S40000x128, .i1⟩) main_v104 h1 h2 h3).ofBuf v = v := rfl
theorem toBuf_main_v102 {Val : EltTy → Type} (h1 : main_v102.ty = ⟨S40000x128, .f32⟩) (h2 : main_v102.space ≠ .host) (h3 : main_v102.isScoped = false) (v : (⟨S40000x128, .f32⟩ : BufTy).Contents Val) :
    (TRef.of (sig := sig) (T := ⟨S40000x128, .f32⟩) main_v102 h1 h2 h3).toBuf v = v := rfl
theorem ofBuf_main_v102 {Val : EltTy → Type} (h1 : main_v102.ty = ⟨S40000x128, .f32⟩) (h2 : main_v102.space ≠ .host) (h3 : main_v102.isScoped = false) (v : (⟨S40000x128, .f32⟩ : BufTy).Contents Val) :
    (TRef.of (sig := sig) (T := ⟨S40000x128, .f32⟩) main_v102 h1 h2 h3).ofBuf v = v := rfl
theorem toBuf_main_v106 {Val : EltTy → Type} (h1 : main_v106.ty = ⟨S40000x128, .f32⟩) (h2 : main_v106.space ≠ .host) (h3 : main_v106.isScoped = false) (v : (⟨S40000x128, .f32⟩ : BufTy).Contents Val) :
    (TRef.of (sig := sig) (T := ⟨S40000x128, .f32⟩) main_v106 h1 h2 h3).toBuf v = v := rfl
theorem ofBuf_main_v106 {Val : EltTy → Type} (h1 : main_v106.ty = ⟨S40000x128, .f32⟩) (h2 : main_v106.space ≠ .host) (h3 : main_v106.isScoped = false) (v : (⟨S40000x128, .f32⟩ : BufTy).Contents Val) :
    (TRef.of (sig := sig) (T := ⟨S40000x128, .f32⟩) main_v106 h1 h2 h3).ofBuf v = v := rfl
theorem toBuf_main_v107 {Val : EltTy → Type} (h1 : main_v107.ty = ⟨S40000x128, .f32⟩) (h2 : main_v107.space ≠ .host) (h3 : main_v107.isScoped = false) (v : (⟨S40000x128, .f32⟩ : BufTy).Contents Val) :
    (TRef.of (sig := sig) (T := ⟨S40000x128, .f32⟩) main_v107 h1 h2 h3).toBuf v = v := rfl
theorem ofBuf_main_v107 {Val : EltTy → Type} (h1 : main_v107.ty = ⟨S40000x128, .f32⟩) (h2 : main_v107.space ≠ .host) (h3 : main_v107.isScoped = false) (v : (⟨S40000x128, .f32⟩ : BufTy).Contents Val) :
    (TRef.of (sig := sig) (T := ⟨S40000x128, .f32⟩) main_v107 h1 h2 h3).ofBuf v = v := rfl
theorem toBuf_main_cst_27 {Val : EltTy → Type} (h1 : main_cst_27.ty = ⟨S_, .f32⟩) (h2 : main_cst_27.space ≠ .host) (h3 : main_cst_27.isScoped = false) (v : (⟨S_, .f32⟩ : BufTy).Contents Val) :
    (TRef.of (sig := sig) (T := ⟨S_, .f32⟩) main_cst_27 h1 h2 h3).toBuf v = v := rfl
theorem ofBuf_main_cst_27 {Val : EltTy → Type} (h1 : main_cst_27.ty = ⟨S_, .f32⟩) (h2 : main_cst_27.space ≠ .host) (h3 : main_cst_27.isScoped = false) (v : (⟨S_, .f32⟩ : BufTy).Contents Val) :
    (TRef.of (sig := sig) (T := ⟨S_, .f32⟩) main_cst_27 h1 h2 h3).ofBuf v = v := rfl
theorem toBuf_main_call4_v0 {Val : EltTy → Type} (h1 : main_call4_v0.ty = ⟨S_, .f32⟩) (h2 : main_call4_v0.space ≠ .host) (h3 : main_call4_v0.isScoped = false) (v : (⟨S_, .f32⟩ : BufTy).Contents Val) :
    (TRef.of (sig := sig) (T := ⟨S_, .f32⟩) main_call4_v0 h1 h2 h3).toBuf v = v := rfl
theorem ofBuf_main_call4_v0 {Val : EltTy → Type} (h1 : main_call4_v0.ty = ⟨S_, .f32⟩) (h2 : main_call4_v0.space ≠ .host) (h3 : main_call4_v0.isScoped = false) (v : (⟨S_, .f32⟩ : BufTy).Contents Val) :
    (TRef.of (sig := sig) (T := ⟨S_, .f32⟩) main_call4_v0 h1 h2 h3).ofBuf v = v := rfl
theorem toBuf_main_call4_v1 {Val : EltTy → Type} (h1 : main_call4_v1.ty = ⟨S40000, .f32⟩) (h2 : main_call4_v1.space ≠ .host) (h3 : main_call4_v1.isScoped = false) (v : (⟨S40000, .f32⟩ : BufTy).Contents Val) :
    (TRef.of (sig := sig) (T := ⟨S40000, .f32⟩) main_call4_v1 h1 h2 h3).toBuf v = v := rfl
theorem ofBuf_main_call4_v1 {Val : EltTy → Type} (h1 : main_call4_v1.ty = ⟨S40000, .f32⟩) (h2 : main_call4_v1.space ≠ .host) (h3 : main_call4_v1.isScoped = false) (v : (⟨S40000, .f32⟩ : BufTy).Contents Val) :
    (TRef.of (sig := sig) (T := ⟨S40000, .f32⟩) main_call4_v1 h1 h2 h3).ofBuf v = v := rfl
theorem toBuf_main_v121 {Val : EltTy → Type} (h1 : main_v121.ty = ⟨S40000, .i1⟩) (h2 : main_v121.space ≠ .host) (h3 : main_v121.isScoped = false) (v : (⟨S40000, .i1⟩ : BufTy).Contents Val) :
    (TRef.of (sig := sig) (T := ⟨S40000, .i1⟩) main_v121 h1 h2 h3).toBuf v = v := rfl
theorem ofBuf_main_v121 {Val : EltTy → Type} (h1 : main_v121.ty = ⟨S40000, .i1⟩) (h2 : main_v121.space ≠ .host) (h3 : main_v121.isScoped = false) (v : (⟨S40000, .i1⟩ : BufTy).Contents Val) :
    (TRef.of (sig := sig) (T := ⟨S40000, .i1⟩) main_v121 h1 h2 h3).ofBuf v = v := rfl
theorem toBuf_main_v122 {Val : EltTy → Type} (h1 : main_v122.ty = ⟨S40000, .f32⟩) (h2 : main_v122.space ≠ .host) (h3 : main_v122.isScoped = false) (v : (⟨S40000, .f32⟩ : BufTy).Contents Val) :
    (TRef.of (sig := sig) (T := ⟨S40000, .f32⟩) main_v122 h1 h2 h3).toBuf v = v := rfl
theorem ofBuf_main_v122 {Val : EltTy → Type} (h1 : main_v122.ty = ⟨S40000, .f32⟩) (h2 : main_v122.space ≠ .host) (h3 : main_v122.isScoped = false) (v : (⟨S40000, .f32⟩ : BufTy).Contents Val) :
    (TRef.of (sig := sig) (T := ⟨S40000, .f32⟩) main_v122 h1 h2 h3).ofBuf v = v := rfl
theorem toBuf_main_v123 {Val : EltTy → Type} (h1 : main_v123.ty = ⟨S40000, .f32⟩) (h2 : main_v123.space ≠ .host) (h3 : main_v123.isScoped = false) (v : (⟨S40000, .f32⟩ : BufTy).Contents Val) :
    (TRef.of (sig := sig) (T := ⟨S40000, .f32⟩) main_v123 h1 h2 h3).toBuf v = v := rfl
theorem ofBuf_main_v123 {Val : EltTy → Type} (h1 : main_v123.ty = ⟨S40000, .f32⟩) (h2 : main_v123.space ≠ .host) (h3 : main_v123.isScoped = false) (v : (⟨S40000, .f32⟩ : BufTy).Contents Val) :
    (TRef.of (sig := sig) (T := ⟨S40000, .f32⟩) main_v123 h1 h2 h3).ofBuf v = v := rfl
theorem toBuf_main_v174 {Val : EltTy → Type} (h1 : main_v174.ty = ⟨S64x64, .i1⟩) (h2 : main_v174.space ≠ .host) (h3 : main_v174.isScoped = false) (v : (⟨S64x64, .i1⟩ : BufTy).Contents Val) :
    (TRef.of (sig := sig) (T := ⟨S64x64, .i1⟩) main_v174 h1 h2 h3).toBuf v = v := rfl
theorem ofBuf_main_v174 {Val : EltTy → Type} (h1 : main_v174.ty = ⟨S64x64, .i1⟩) (h2 : main_v174.space ≠ .host) (h3 : main_v174.isScoped = false) (v : (⟨S64x64, .i1⟩ : BufTy).Contents Val) :
    (TRef.of (sig := sig) (T := ⟨S64x64, .i1⟩) main_v174 h1 h2 h3).ofBuf v = v := rfl
theorem toBuf_main_v172 {Val : EltTy → Type} (h1 : main_v172.ty = ⟨S64x64, .f32⟩) (h2 : main_v172.space ≠ .host) (h3 : main_v172.isScoped = false) (v : (⟨S64x64, .f32⟩ : BufTy).Contents Val) :
    (TRef.of (sig := sig) (T := ⟨S64x64, .f32⟩) main_v172 h1 h2 h3).toBuf v = v := rfl
theorem ofBuf_main_v172 {Val : EltTy → Type} (h1 : main_v172.ty = ⟨S64x64, .f32⟩) (h2 : main_v172.space ≠ .host) (h3 : main_v172.isScoped = false) (v : (⟨S64x64, .f32⟩ : BufTy).Contents Val) :
    (TRef.of (sig := sig) (T := ⟨S64x64, .f32⟩) main_v172 h1 h2 h3).ofBuf v = v := rfl
theorem toBuf_main_v176 {Val : EltTy → Type} (h1 : main_v176.ty = ⟨S64x64, .f32⟩) (h2 : main_v176.space ≠ .host) (h3 : main_v176.isScoped = false) (v : (⟨S64x64, .f32⟩ : BufTy).Contents Val) :
    (TRef.of (sig := sig) (T := ⟨S64x64, .f32⟩) main_v176 h1 h2 h3).toBuf v = v := rfl
theorem ofBuf_main_v176 {Val : EltTy → Type} (h1 : main_v176.ty = ⟨S64x64, .f32⟩) (h2 : main_v176.space ≠ .host) (h3 : main_v176.isScoped = false) (v : (⟨S64x64, .f32⟩ : BufTy).Contents Val) :
    (TRef.of (sig := sig) (T := ⟨S64x64, .f32⟩) main_v176 h1 h2 h3).ofBuf v = v := rfl
theorem toBuf_main_v177 {Val : EltTy → Type} (h1 : main_v177.ty = ⟨S64x64, .f32⟩) (h2 : main_v177.space ≠ .host) (h3 : main_v177.isScoped = false) (v : (⟨S64x64, .f32⟩ : BufTy).Contents Val) :
    (TRef.of (sig := sig) (T := ⟨S64x64, .f32⟩) main_v177 h1 h2 h3).toBuf v = v := rfl
theorem ofBuf_main_v177 {Val : EltTy → Type} (h1 : main_v177.ty = ⟨S64x64, .f32⟩) (h2 : main_v177.space ≠ .host) (h3 : main_v177.isScoped = false) (v : (⟨S64x64, .f32⟩ : BufTy).Contents Val) :
    (TRef.of (sig := sig) (T := ⟨S64x64, .f32⟩) main_v177 h1 h2 h3).ofBuf v = v := rfl
theorem toBuf_main_v183 {Val : EltTy → Type} (h1 : main_v183.ty = ⟨S64x32, .i1⟩) (h2 : main_v183.space ≠ .host) (h3 : main_v183.isScoped = false) (v : (⟨S64x32, .i1⟩ : BufTy).Contents Val) :
    (TRef.of (sig := sig) (T := ⟨S64x32, .i1⟩) main_v183 h1 h2 h3).toBuf v = v := rfl
theorem ofBuf_main_v183 {Val : EltTy → Type} (h1 : main_v183.ty = ⟨S64x32, .i1⟩) (h2 : main_v183.space ≠ .host) (h3 : main_v183.isScoped = false) (v : (⟨S64x32, .i1⟩ : BufTy).Contents Val) :
    (TRef.of (sig := sig) (T := ⟨S64x32, .i1⟩) main_v183 h1 h2 h3).ofBuf v = v := rfl
theorem toBuf_main_v181 {Val : EltTy → Type} (h1 : main_v181.ty = ⟨S64x32, .f32⟩) (h2 : main_v181.space ≠ .host) (h3 : main_v181.isScoped = false) (v : (⟨S64x32, .f32⟩ : BufTy).Contents Val) :
    (TRef.of (sig := sig) (T := ⟨S64x32, .f32⟩) main_v181 h1 h2 h3).toBuf v = v := rfl
theorem ofBuf_main_v181 {Val : EltTy → Type} (h1 : main_v181.ty = ⟨S64x32, .f32⟩) (h2 : main_v181.space ≠ .host) (h3 : main_v181.isScoped = false) (v : (⟨S64x32, .f32⟩ : BufTy).Contents Val) :
    (TRef.of (sig := sig) (T := ⟨S64x32, .f32⟩) main_v181 h1 h2 h3).ofBuf v = v := rfl
theorem toBuf_main_v185 {Val : EltTy → Type} (h1 : main_v185.ty = ⟨S64x32, .f32⟩) (h2 : main_v185.space ≠ .host) (h3 : main_v185.isScoped = false) (v : (⟨S64x32, .f32⟩ : BufTy).Contents Val) :
    (TRef.of (sig := sig) (T := ⟨S64x32, .f32⟩) main_v185 h1 h2 h3).toBuf v = v := rfl
theorem ofBuf_main_v185 {Val : EltTy → Type} (h1 : main_v185.ty = ⟨S64x32, .f32⟩) (h2 : main_v185.space ≠ .host) (h3 : main_v185.isScoped = false) (v : (⟨S64x32, .f32⟩ : BufTy).Contents Val) :
    (TRef.of (sig := sig) (T := ⟨S64x32, .f32⟩) main_v185 h1 h2 h3).ofBuf v = v := rfl
theorem toBuf_main_v186 {Val : EltTy → Type} (h1 : main_v186.ty = ⟨S64x32, .f32⟩) (h2 : main_v186.space ≠ .host) (h3 : main_v186.isScoped = false) (v : (⟨S64x32, .f32⟩ : BufTy).Contents Val) :
    (TRef.of (sig := sig) (T := ⟨S64x32, .f32⟩) main_v186 h1 h2 h3).toBuf v = v := rfl
theorem ofBuf_main_v186 {Val : EltTy → Type} (h1 : main_v186.ty = ⟨S64x32, .f32⟩) (h2 : main_v186.space ≠ .host) (h3 : main_v186.isScoped = false) (v : (⟨S64x32, .f32⟩ : BufTy).Contents Val) :
    (TRef.of (sig := sig) (T := ⟨S64x32, .f32⟩) main_v186 h1 h2 h3).ofBuf v = v := rfl

/-! ## Layer 1 -/

/-- The source indices. -/
theorem sources1 : U1 m c (Proc.devRef .tc main_v3) = Spec.sources (F := Ideal) (arg m c main_arg1) := by
  unfold U1
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at0 m c main_arg1 (by decide))]
  rfl

/-- The target indices. -/
theorem targets1 : U1 m c (Proc.devRef .tc main_v6) = Spec.targets (F := Ideal) (arg m c main_arg1) := by
  unfold U1
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at0 m c main_arg1 (by decide))]
  rfl

/-- The normalisation column. -/
theorem norm1 : U1 m c (Proc.devRef .tc main_v33) = Spec.norm (F := Ideal) (arg m c main_arg1) (arg m c main_arg2) := by
  unfold U1
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at0 m c main_arg1 (by decide)), (arg_at0 m c main_arg2 (by decide))]
  rfl

/-- The features times the first weights. -/
theorem product1 : U1 m c (Proc.devRef .tc main_v32) = Spec.product (F := Ideal) (arg m c main_arg0) (arg m c main_arg4) := by
  unfold U1
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at0 m c main_arg0 (by decide)), (arg_at0 m c main_arg4 (by decide))]
  rfl

/-- Layer 1: aggregation, bias, rectifier. -/
theorem hidden2 : U2 m c (Proc.devRef .tc main_v53) = Spec.hidden1 (F := Ideal) (arg m c main_arg0) (arg m c main_arg1) (arg m c main_arg2) (arg m c main_arg4) (arg m c main_arg5) := by
  unfold U2
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [sources1 m c, targets1 m c, norm1 m c, product1 m c, (arg_at1 m c main_arg5 (by decide))]
  rfl

/-! ## Layer 2 -/

/-- The source indices, computed again. -/
theorem sources3 : U3 m c (Proc.devRef .tc main_v57) = Spec.sources (F := Ideal) (arg m c main_arg1) := by
  unfold U3
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at2 m c main_arg1 (by decide))]
  rfl

/-- The target indices, computed again. -/
theorem targets3 : U3 m c (Proc.devRef .tc main_v60) = Spec.targets (F := Ideal) (arg m c main_arg1) := by
  unfold U3
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at2 m c main_arg1 (by decide))]
  rfl

/-- The normalisation column, computed again. -/
theorem norm3 : U3 m c (Proc.devRef .tc main_v87) = Spec.norm (F := Ideal) (arg m c main_arg1) (arg m c main_arg2) := by
  unfold U3
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at2 m c main_arg1 (by decide)), (arg_at2 m c main_arg2 (by decide))]
  rfl

/-- Layer 1's output times the second weights. -/
theorem product3 : U3 m c (Proc.devRef .tc main_v86) = Spec.product (F := Ideal) (Spec.hidden1 (F := Ideal) (arg m c main_arg0) (arg m c main_arg1) (arg m c main_arg2) (arg m c main_arg4) (arg m c main_arg5)) (arg m c main_arg6) := by
  unfold U3
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [hidden2 m c, (arg_at2 m c main_arg6 (by decide))]
  rfl

/-- Layer 2: aggregation, bias, rectifier. -/
theorem hidden4 : U4 m c (Proc.devRef .tc main_v107) = Spec.hidden2 (F := Ideal) (arg m c main_arg0) (arg m c main_arg1) (arg m c main_arg2) (arg m c main_arg4) (arg m c main_arg5) (arg m c main_arg6) (arg m c main_arg7) := by
  unfold U4
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [sources3 m c, targets3 m c, norm3 m c, product3 m c, (arg_at3 m c main_arg7 (by decide))]
  rfl

/-! ## Layer 3 -/

/-- The source indices, computed again. -/
theorem sources5 : U5 m c (Proc.devRef .tc main_v111) = Spec.sources (F := Ideal) (arg m c main_arg1) := by
  unfold U5
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at4 m c main_arg1 (by decide))]
  rfl

/-- The target indices, computed again. -/
theorem targets5 : U5 m c (Proc.devRef .tc main_v114) = Spec.targets (F := Ideal) (arg m c main_arg1) := by
  unfold U5
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at4 m c main_arg1 (by decide))]
  rfl

/-- The normalisation column, computed again. -/
theorem norm5 : U5 m c (Proc.devRef .tc main_v141) = Spec.norm (F := Ideal) (arg m c main_arg1) (arg m c main_arg2) := by
  unfold U5
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at4 m c main_arg1 (by decide)), (arg_at4 m c main_arg2 (by decide))]
  rfl

/-- Layer 2's output times the third weights. -/
theorem product5 : U5 m c (Proc.devRef .tc main_v140) = Spec.product (F := Ideal) (Spec.hidden2 (F := Ideal) (arg m c main_arg0) (arg m c main_arg1) (arg m c main_arg2) (arg m c main_arg4) (arg m c main_arg5) (arg m c main_arg6) (arg m c main_arg7)) (arg m c main_arg8) := by
  unfold U5
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [hidden4 m c, (arg_at4 m c main_arg8 (by decide))]
  rfl

/-- Layer 3: aggregation and bias. -/
theorem hidden6 : U6 m c (Proc.devRef .tc main_v156) = Spec.hidden3 (F := Ideal) (arg m c main_arg0) (arg m c main_arg1) (arg m c main_arg2) (arg m c main_arg4) (arg m c main_arg5) (arg m c main_arg6) (arg m c main_arg7) (arg m c main_arg8) (arg m c main_arg9) := by
  unfold U6
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [sources5 m c, targets5 m c, norm5 m c, product5 m c, (arg_at5 m c main_arg9 (by decide))]
  rfl

/-! ## The pooling and the head -/

/-- The per-graph mean. -/
theorem pooled7 : U7 m c (Proc.devRef .tc main_v168) = Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9)) := by
  unfold U7
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [(arg_at6 m c main_arg3 (by decide)), hidden6 m c]
  rfl

/-- The head's first layer. -/
theorem head8 : U8 m c (Proc.devRef .tc main_v177) = Spec.head1 (F := Ideal) (Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9))) (arg m c main_arg10) (Spec.biasRow64 (F := Ideal) (arg m c main_arg11)) := by
  unfold U8
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [pooled7 m c, (arg_at7 m c main_arg10 (by decide)), (arg_at7 m c main_arg11 (by decide))]
  rfl

/-- The head's second layer. -/
theorem head9 : U9 m c (Proc.devRef .tc main_v186) = Spec.head2 (F := Ideal) (Spec.head1 (F := Ideal) (Spec.meanPool (F := Ideal) (arg m c main_arg3) (Spec.hidden3 (F := Ideal) (arg m c main_arg0) (arg m c main_arg1) (arg m c main_arg2) (arg m c main_arg4) (arg m c main_arg5) (arg m c main_arg6) (arg m c main_arg7) (arg m c main_arg8) (arg m c main_arg9))) (arg m c main_arg10) (Spec.biasRow64 (F := Ideal) (arg m c main_arg11))) (arg m c main_arg12) (Spec.biasRow32 (F := Ideal) (arg m c main_arg13)) := by
  unfold U9
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [head8 m c, (arg_at8 m c main_arg12 (by decide)), (arg_at8 m c main_arg13 (by decide))]
  rfl

/-- The head's last layer: the reference's result buffer is the specification's network. -/
theorem result : U10 m c (Proc.devRef .tc main_v190) = Spec.network (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  unfold U10
  read_fold_casts [↓toBuf_main_cst_2, ↓ofBuf_main_cst_2, ↓toBuf_main_call0_v0, ↓ofBuf_main_call0_v0, ↓toBuf_main_call0_v1, ↓ofBuf_main_call0_v1, ↓toBuf_main_v13, ↓ofBuf_main_v13, ↓toBuf_main_v14, ↓ofBuf_main_v14, ↓toBuf_main_v15, ↓ofBuf_main_v15, ↓toBuf_main_v50, ↓ofBuf_main_v50, ↓toBuf_main_v48, ↓ofBuf_main_v48, ↓toBuf_main_v52, ↓ofBuf_main_v52, ↓toBuf_main_v53, ↓ofBuf_main_v53, ↓toBuf_main_cst_14, ↓ofBuf_main_cst_14, ↓toBuf_main_call2_v0, ↓ofBuf_main_call2_v0, ↓toBuf_main_call2_v1, ↓ofBuf_main_call2_v1, ↓toBuf_main_v67, ↓ofBuf_main_v67, ↓toBuf_main_v68, ↓ofBuf_main_v68, ↓toBuf_main_v69, ↓ofBuf_main_v69, ↓toBuf_main_v104, ↓ofBuf_main_v104, ↓toBuf_main_v102, ↓ofBuf_main_v102, ↓toBuf_main_v106, ↓ofBuf_main_v106, ↓toBuf_main_v107, ↓ofBuf_main_v107, ↓toBuf_main_cst_27, ↓ofBuf_main_cst_27, ↓toBuf_main_call4_v0, ↓ofBuf_main_call4_v0, ↓toBuf_main_call4_v1, ↓ofBuf_main_call4_v1, ↓toBuf_main_v121, ↓ofBuf_main_v121, ↓toBuf_main_v122, ↓ofBuf_main_v122, ↓toBuf_main_v123, ↓ofBuf_main_v123, ↓toBuf_main_v174, ↓ofBuf_main_v174, ↓toBuf_main_v172, ↓ofBuf_main_v172, ↓toBuf_main_v176, ↓ofBuf_main_v176, ↓toBuf_main_v177, ↓ofBuf_main_v177, ↓toBuf_main_v183, ↓ofBuf_main_v183, ↓toBuf_main_v181, ↓ofBuf_main_v181, ↓toBuf_main_v185, ↓ofBuf_main_v185, ↓toBuf_main_v186, ↓ofBuf_main_v186]
  rw [head9 m c, (arg_at9 m c main_arg14 (by decide)), (arg_at9 m c main_arg15 (by decide))]
  rfl

end Cert.ReferenceIdeal.Stages

end
-- ==== Proof.lean ====
/-
  Equivalence, over the extended reals, of a tiled graph-convolution network and its plain reference.

  Both programs take node features, a weighted edge list, a node-to-graph map and the weights of three graph-convolution
  layers and a three-layer head, and return one row of two numbers per graph. Each convolution adds self-loops, scales
  every edge by `dinv[source] · weight · dinv[target]` (with `dinv = 1/√degree` where the degree is positive), multiplies
  the features by a weight matrix, gathers the products along the edges, scatter-adds them at the targets and adds a bias
  (the first two layers are followed by `v ↦ if v > 0 then v else 0.01f · v`); the node rows are then averaged per graph and
  passed through three dense layers. Module Spec names these stages.

  The kernel leaves the gathers, scatter-adds and the normalisation to the host — operation for operation the
  reference's — and runs nine grid regions: the three `40000×128 · 128×128` products and the three bias (+ rectifier)
  passes, each tiled into five blocks of 8000 rows, and the three head layers, each one block. A block of a product depends
  on the same rows of the left array only and the contracted axis is never split, so every region leaves exactly the host's
  expression of its inputs (modules Dense*, BiasAct*, Head*); the narrowing of the products' operands to bf16 is the
  identity on extended reals. Walking the kernel's boundaries (Carry, Layers) its result buffer ends at the specification's
  network of the arguments, and its run ends with every buffer at the last boundary's contents (KernelRun). The reference is
  a straight line of host operations (RefLine); read segment by segment (RefStages) its result buffer is the same network of
  the same arguments — it computes the graph's normalisation three times, each time the same stage.

  No arithmetic law that could fail at an infinity is used, so the finiteness precondition is not needed for the value;
  the ideal pass rewrote nothing, so `preserves` is trivial; the kernels' frame claims are the generated frame certificates
  and the reference's is its run with the result dropped.
-/
import proofs.«109360_j82085414961196_1_alg».proof.Defs
import proofs.«109360_j82085414961196_1_alg».proof.Proof.Gen.Kernel
import proofs.«109360_j82085414961196_1_alg».proof.Proof.Gen.Kernel.Frame
import proofs.«109360_j82085414961196_1_alg».proof.Proof.Gen.KernelIdeal
import proofs.«109360_j82085414961196_1_alg».proof.Proof.Gen.KernelIdeal.Frame
import proofs.«109360_j82085414961196_1_alg».proof.Proof.Gen.ReferenceIdeal
import proofs.«109360_j82085414961196_1_alg».proof.Proof.Gen.Pre_finite_inputs
import proofs.«109360_j82085414961196_1_alg».proof.Proof.KernelRun
import proofs.«109360_j82085414961196_1_alg».proof.Proof.Layers
import proofs.«109360_j82085414961196_1_alg».proof.Proof.RefLine
import proofs.«109360_j82085414961196_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: no operation of its line writes one. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Stages.arg_at10 m c Cert.ReferenceIdeal.main_arg0 (by decide)),
     (h c Cert.ReferenceIdeal.main_arg1).trans (Cert.ReferenceIdeal.Stages.arg_at10 m c Cert.ReferenceIdeal.main_arg1 (by decide)),
     (h c Cert.ReferenceIdeal.main_arg2).trans (Cert.ReferenceIdeal.Stages.arg_at10 m c Cert.ReferenceIdeal.main_arg2 (by decide)),
     (h c Cert.ReferenceIdeal.main_arg3).trans (Cert.ReferenceIdeal.Stages.arg_at10 m c Cert.ReferenceIdeal.main_arg3 (by decide)),
     (h c Cert.ReferenceIdeal.main_arg4).trans (Cert.ReferenceIdeal.Stages.arg_at10 m c Cert.ReferenceIdeal.main_arg4 (by decide)),
     (h c Cert.ReferenceIdeal.main_arg5).trans (Cert.ReferenceIdeal.Stages.arg_at10 m c Cert.ReferenceIdeal.main_arg5 (by decide)),
     (h c Cert.ReferenceIdeal.main_arg6).trans (Cert.ReferenceIdeal.Stages.arg_at10 m c Cert.ReferenceIdeal.main_arg6 (by decide)),
     (h c Cert.ReferenceIdeal.main_arg7).trans (Cert.ReferenceIdeal.Stages.arg_at10 m c Cert.ReferenceIdeal.main_arg7 (by decide)),
     (h c Cert.ReferenceIdeal.main_arg8).trans (Cert.ReferenceIdeal.Stages.arg_at10 m c Cert.ReferenceIdeal.main_arg8 (by decide)),
     (h c Cert.ReferenceIdeal.main_arg9).trans (Cert.ReferenceIdeal.Stages.arg_at10 m c Cert.ReferenceIdeal.main_arg9 (by decide)),
     (h c Cert.ReferenceIdeal.main_arg10).trans (Cert.ReferenceIdeal.Stages.arg_at10 m c Cert.ReferenceIdeal.main_arg10 (by decide)),
     (h c Cert.ReferenceIdeal.main_arg11).trans (Cert.ReferenceIdeal.Stages.arg_at10 m c Cert.ReferenceIdeal.main_arg11 (by decide)),
     (h c Cert.ReferenceIdeal.main_arg12).trans (Cert.ReferenceIdeal.Stages.arg_at10 m c Cert.ReferenceIdeal.main_arg12 (by decide)),
     (h c Cert.ReferenceIdeal.main_arg13).trans (Cert.ReferenceIdeal.Stages.arg_at10 m c Cert.ReferenceIdeal.main_arg13 (by decide)),
     (h c Cert.ReferenceIdeal.main_arg14).trans (Cert.ReferenceIdeal.Stages.arg_at10 m c Cert.ReferenceIdeal.main_arg14 (by decide)),
     (h c Cert.ReferenceIdeal.main_arg15).trans (Cert.ReferenceIdeal.Stages.arg_at10 m c Cert.ReferenceIdeal.main_arg15 (by decide))⟩)
    (Cert.ReferenceIdeal.Line.run (F := Ideal) m ρ)

/-- The ideal pass rewrote no operation. -/
theorem preserves : Cert.preserves_Kernel_KernelIdeal := trivial

/-- From memories that agree on the arguments both programs run, and both results are the specification's network of
    those arguments. -/
theorem algebraic : Cert.algebraic_KernelIdeal_ReferenceIdeal := by
  intro m ρ m' ρ' _ hagree
  refine ⟨fun c => Cert.KernelIdeal.Gen.W18 m ρ c (Proc.devRef .tc Cert.KernelIdeal.main_v95),
    Cert.KernelIdeal.EndState.result_at_last_boundary m ρ, ?_⟩
  refine (θ_run Cert.ReferenceIdeal.defs _ _).mono (fun _ h c => ?_) (Cert.ReferenceIdeal.Line.run (F := Ideal) m' ρ')
  refine ⟨?_,
     (h c Cert.ReferenceIdeal.main_arg0).trans (Cert.ReferenceIdeal.Stages.arg_at10 m' c Cert.ReferenceIdeal.main_arg0 (by decide)),
     (h c Cert.ReferenceIdeal.main_arg1).trans (Cert.ReferenceIdeal.Stages.arg_at10 m' c Cert.ReferenceIdeal.main_arg1 (by decide)),
     (h c Cert.ReferenceIdeal.main_arg2).trans (Cert.ReferenceIdeal.Stages.arg_at10 m' c Cert.ReferenceIdeal.main_arg2 (by decide)),
     (h c Cert.ReferenceIdeal.main_arg3).trans (Cert.ReferenceIdeal.Stages.arg_at10 m' c Cert.ReferenceIdeal.main_arg3 (by decide)),
     (h c Cert.ReferenceIdeal.main_arg4).trans (Cert.ReferenceIdeal.Stages.arg_at10 m' c Cert.ReferenceIdeal.main_arg4 (by decide)),
     (h c Cert.ReferenceIdeal.main_arg5).trans (Cert.ReferenceIdeal.Stages.arg_at10 m' c Cert.ReferenceIdeal.main_arg5 (by decide)),
     (h c Cert.ReferenceIdeal.main_arg6).trans (Cert.ReferenceIdeal.Stages.arg_at10 m' c Cert.ReferenceIdeal.main_arg6 (by decide)),
     (h c Cert.ReferenceIdeal.main_arg7).trans (Cert.ReferenceIdeal.Stages.arg_at10 m' c Cert.ReferenceIdeal.main_arg7 (by decide)),
     (h c Cert.ReferenceIdeal.main_arg8).trans (Cert.ReferenceIdeal.Stages.arg_at10 m' c Cert.ReferenceIdeal.main_arg8 (by decide)),
     (h c Cert.ReferenceIdeal.main_arg9).trans (Cert.ReferenceIdeal.Stages.arg_at10 m' c Cert.ReferenceIdeal.main_arg9 (by decide)),
     (h c Cert.ReferenceIdeal.main_arg10).trans (Cert.ReferenceIdeal.Stages.arg_at10 m' c Cert.ReferenceIdeal.main_arg10 (by decide)),
     (h c Cert.ReferenceIdeal.main_arg11).trans (Cert.ReferenceIdeal.Stages.arg_at10 m' c Cert.ReferenceIdeal.main_arg11 (by decide)),
     (h c Cert.ReferenceIdeal.main_arg12).trans (Cert.ReferenceIdeal.Stages.arg_at10 m' c Cert.ReferenceIdeal.main_arg12 (by decide)),
     (h c Cert.ReferenceIdeal.main_arg13).trans (Cert.ReferenceIdeal.Stages.arg_at10 m' c Cert.ReferenceIdeal.main_arg13 (by decide)),
     (h c Cert.ReferenceIdeal.main_arg14).trans (Cert.ReferenceIdeal.Stages.arg_at10 m' c Cert.ReferenceIdeal.main_arg14 (by decide)),
     (h c Cert.ReferenceIdeal.main_arg15).trans (Cert.ReferenceIdeal.Stages.arg_at10 m' c Cert.ReferenceIdeal.main_arg15 (by decide))⟩
  obtain ⟨h0, h1, h2, h3, h4, h5, h6, h7, h8, h9, h10, h11, h12, h13, h14, h15⟩ := hagree c
  refine (h c Cert.ReferenceIdeal.main_v190).trans ((Cert.ReferenceIdeal.Stages.result m' c).trans ?_)
  refine Eq.trans ?_ (Cert.KernelIdeal.Layers.result m ρ c).symm
  dsimp only [Cert.ReferenceIdeal.Stages.arg, Cert.KernelIdeal.Layers.arg]
  rw [h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
